-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x1024 : Shape := ⟨3, ![1, 512, 1024]⟩
abbrev S3072x1024 : Shape := ⟨2, ![3072, 1024]⟩
abbrev S1024x1024 : Shape := ⟨2, ![1024, 1024]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x16 .f32) (main_arg12 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S1x16 .f32 := Host.absf main_arg11
  let main_cst_20 : FVec F S_ .f32 := constant S_ .f32 0x7F800000#32
  let main_v55 : FVec F S1x16 .f32 := broadcastInDim S1x16 ![] bcast_S_S1x16 main_cst_20
  let main_v56 : IVec S1x16 1 := cmpf .olt main_v54 main_v55
  let main_c_21 : IVec S_ 1 := constantI S_ 1 1#1
  let main_v57 : IVec S_ 1 := (fun x v => Host.reduce IntOp.andi x v reducesTo_S1x16_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32x64 .f32) (main_arg8 : FVec F S32 .f32) (main_arg9 : FVec F S16x32 .f32) (main_arg10 : FVec F S16 .f32) (main_arg11 : FVec F S1x16 .f32) (main_arg12 : FVec F S1 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S16x32 .f32 := Host.absf main_arg9
  let main_cst_16 : FVec F S_ .f32 := constant S_ .f32 0x7F800000#32
  let main_v45 : FVec F S16x32 .f32 := broadcastInDim S16x32 ![] bcast_S_S16x32 main_cst_16
  let main_v46 : IVec S16x32 1 := cmpf .olt main_v44 main_v45
  let main_c_17 : IVec S_ 1 := constantI S_ 1 1#1
  let main_v47 : IVec S_ 1 := (fun x v => Host.reduce IntOp.andi x v reducesTo_S16x32_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_v48 main_v49 main_v50

def fn_part1 {F : FTy → Type} [FloatOps F] (main_arg4 : FVec F S32 .f32) (main_arg5 : FVec F S32x64 .f32) (main_arg6 : FVec F S32 .f32) (main_arg7 : FVec F S32x64 .f32) (main_arg8 : FVec F S32 .f32) (main_arg9 : FVec F S16x32 .f32) (main_arg10 : FVec F S16 .f32) (main_arg11 : FVec F S1x16 .f32) (main_arg12 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1x512x1024 .f32) (main_arg1 : FVec F S3072x1024 .f32) (main_arg2 : FVec F S1024x1024 .f32) (main_arg3 : FVec F S32x64 .f32) (main_arg4 : FVec F S32 .f32) (main_arg5 : FVec F S32x64 .f32) (main_arg6 : FVec F S32 .f32) (main_arg7 : FVec F S32x64 .f32) (main_arg8 : FVec F S32 .f32) (main_arg9 : FVec F S16x32 .f32) (main_arg10 : FVec F S16 .f32) (main_arg11 : FVec F S1x16 .f32) (main_arg12 : FVec F S1 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_arg9 main_arg10 main_arg11 main_arg12 main_v13 main_v16
-- ==== Kernel.lean ====
abbrev S1x512x1024 : Shape := ⟨3, ![1, 512, 1024]⟩
abbrev S3072x1024 : Shape := ⟨2, ![3072, 1024]⟩
abbrev S1024x1024 : Shape := ⟨2, ![1024, 1024]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S512x1024 : Shape := ⟨2, ![512, 1024]⟩
abbrev S512x3072 : Shape := ⟨2, ![512, 3072]⟩
abbrev S512x512 : Shape := ⟨2, ![512, 512]⟩
abbrev S1024x512 : Shape := ⟨2, ![1024, 512]⟩
abbrev S1x512x64x3x16 : Shape := ⟨5, ![1, 512, 64, 3, 16]⟩
abbrev S1x512x64x1x16 : Shape := ⟨5, ![1, 512, 64, 1, 16]⟩
abbrev S1x512x64x16 : Shape := ⟨4, ![1, 512, 64, 16]⟩
abbrev S1x16x512x64 : Shape := ⟨4, ![1, 16, 512, 64]⟩
abbrev S16x512x64 : Shape := ⟨3, ![16, 512, 64]⟩
abbrev S32x32 : Shape := ⟨2, ![32, 32]⟩
abbrev S8x8 : Shape := ⟨2, ![8, 8]⟩
abbrev S_ : Shape := ⟨0, ![]⟩
abbrev S32x16 : Shape := ⟨2, ![32, 16]⟩
abbrev S8x1x8x1 : Shape := ⟨4, ![8, 1, 8, 1]⟩
abbrev S1x32x1x16 : Shape := ⟨4, ![1, 32, 1, 16]⟩
abbrev S8x32x8x16 : Shape := ⟨4, ![8, 32, 8, 16]⟩
abbrev S256x128 : Shape := ⟨2, ![256, 128]⟩
abbrev S1x32 : Shape := ⟨2, ![1, 32]⟩
abbrev S8x32 : Shape := ⟨2, ![8, 32]⟩
abbrev S256 : Shape := ⟨1, ![256]⟩
abbrev S8x16 : Shape := ⟨2, ![8, 16]⟩
abbrev S128 : Shape := ⟨1, ![128]⟩
abbrev S1x256 : Shape := ⟨2, ![1, 256]⟩
abbrev S1x128 : Shape := ⟨2, ![1, 128]⟩
abbrev S1x1 : Shape := ⟨2, ![1, 1]⟩
abbrev S1x128x64 : Shape := ⟨3, ![1, 128, 64]⟩
abbrev S1x512x64 : Shape := ⟨3, ![1, 512, 64]⟩
abbrev S512x32 : Shape := ⟨2, ![512, 32]⟩
abbrev S128x64 : Shape := ⟨2, ![128, 64]⟩
abbrev S512x64 : Shape := ⟨2, ![512, 64]⟩
abbrev S64x32 : Shape := ⟨2, ![64, 32]⟩
abbrev S128x32 : Shape := ⟨2, ![128, 32]⟩
abbrev S128x256 : Shape := ⟨2, ![128, 256]⟩
abbrev S64x256 : Shape := ⟨2, ![64, 256]⟩
abbrev S128x1x256 : Shape := ⟨3, ![128, 1, 256]⟩
abbrev S1x64x256 : Shape := ⟨3, ![1, 64, 256]⟩
abbrev S128x64x256 : Shape := ⟨3, ![128, 64, 256]⟩
abbrev S1x1x256 : Shape := ⟨3, ![1, 1, 256]⟩
abbrev S8192x256 : Shape := ⟨2, ![8192, 256]⟩
abbrev S8192x128 : Shape := ⟨2, ![8192, 128]⟩
abbrev S128x64x128 : Shape := ⟨3, ![128, 64, 128]⟩
abbrev S1x1x128 : Shape := ⟨3, ![1, 1, 128]⟩
abbrev S128x512x16 : Shape := ⟨3, ![128, 512, 16]⟩
abbrev S1x1x16 : Shape := ⟨3, ![1, 1, 16]⟩
abbrev S128x512 : Shape := ⟨2, ![128, 512]⟩
abbrev S128x1 : Shape := ⟨2, ![128, 1]⟩
abbrev S512x16x64 : Shape := ⟨3, ![512, 16, 64]⟩

abbrev nBuf : Space → Nat
  | .hbm => 60
  | .vmem => 30
  | .smem => 0
  | _ => 0

abbrev bufTy : (tb : Table) → Fin (tcTables nBuf tb) → BufTy
  | .hbm, ⟨0, _⟩ => ⟨S1x512x1024, .f32⟩
  | .hbm, ⟨1, _⟩ => ⟨S3072x1024, .f32⟩
  | .hbm, ⟨2, _⟩ => ⟨S1024x1024, .f32⟩
  | .hbm, ⟨3, _⟩ => ⟨S32x64, .f32⟩
  | .hbm, ⟨4, _⟩ => ⟨S32, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S32, .f32⟩
  | .hbm, ⟨9, _⟩ => ⟨S16x32, .f32⟩
  | .hbm, ⟨10, _⟩ => ⟨S16, .f32⟩
  | .hbm, ⟨11, _⟩ => ⟨S1x16, .f32⟩
  | .hbm, ⟨12, _⟩ => ⟨S1, .f32⟩
  | .hbm, ⟨13, _⟩ => ⟨S512x1024, .f32⟩
  | .hbm, ⟨14, _⟩ => ⟨S512x3072, .f32⟩
  | .hbm, ⟨15, _⟩ => ⟨S1x512x64x3x16, .f32⟩
  | .hbm, ⟨16, _⟩ => ⟨S1x512x64x1x16, .f32⟩
  | .hbm, ⟨17, _⟩ => ⟨S1x512x64x16, .f32⟩
  | .hbm, ⟨18, _⟩ => ⟨S1x16x512x64, .f32⟩
  | .hbm, ⟨19, _⟩ => ⟨S16x512x64, .f32⟩
  | .hbm, ⟨20, _⟩ => ⟨S1x512x64x1x16, .f32⟩
  | .hbm, ⟨21, _⟩ => ⟨S1x512x64x16, .f32⟩
  | .hbm, ⟨22, _⟩ => ⟨S1x16x512x64, .f32⟩
  | .hbm, ⟨23, _⟩ => ⟨S16x512x64, .f32⟩
  | .hbm, ⟨24, _⟩ => ⟨S1x512x64x1x16, .f32⟩
  | .hbm, ⟨25, _⟩ => ⟨S1x512x64x16, .f32⟩
  | .hbm, ⟨26, _⟩ => ⟨S1x16x512x64, .f32⟩
  | .hbm, ⟨27, _⟩ => ⟨S16x512x64, .f32⟩
  | .hbm, ⟨28, _⟩ => ⟨S32x32, .f32⟩
  | .hbm, ⟨29, _⟩ => ⟨S32x32, .f32⟩
  | .hbm, ⟨30, _⟩ => ⟨S8x8, .i32⟩
  | .hbm, ⟨31, _⟩ => ⟨S8x8, .i32⟩
  | .hbm, ⟨32, _⟩ => ⟨S_, .i32⟩
  | .hbm, ⟨33, _⟩ => ⟨S8x8, .i32⟩
  | .hbm, ⟨34, _⟩ => ⟨S8x8, .i32⟩
  | .hbm, ⟨35, _⟩ => ⟨S8x8, .i1⟩
  | .hbm, ⟨36, _⟩ => ⟨S8x8, .f32⟩
  | .hbm, ⟨37, _⟩ => ⟨S32x16, .f32⟩
  | .hbm, ⟨38, _⟩ => ⟨S8x1x8x1, .f32⟩
  | .hbm, ⟨39, _⟩ => ⟨S1x32x1x16, .f32⟩
  | .hbm, ⟨40, _⟩ => ⟨S8x32x8x16, .f32⟩
  | .hbm, ⟨41, _⟩ => ⟨S8x32x8x16, .f32⟩
  | .hbm, ⟨42, _⟩ => ⟨S8x32x8x16, .f32⟩
  | .hbm, ⟨43, _⟩ => ⟨S256x128, .f32⟩
  | .hbm, ⟨44, _⟩ => ⟨S1x32, .f32⟩
  | .hbm, ⟨45, _⟩ => ⟨S8x32, .f32⟩
  | .hbm, ⟨46, _⟩ => ⟨S256, .f32⟩
  | .hbm, ⟨47, _⟩ => ⟨S1x16, .f32⟩
  | .hbm, ⟨48, _⟩ => ⟨S8x16, .f32⟩
  | .hbm, ⟨49, _⟩ => ⟨S128, .f32⟩
  | .hbm, ⟨50, _⟩ => ⟨S1x32, .f32⟩
  | .hbm, ⟨51, _⟩ => ⟨S1x32, .f32⟩
  | .hbm, ⟨52, _⟩ => ⟨S1x256, .f32⟩
  | .hbm, ⟨53, _⟩ => ⟨S1x128, .f32⟩
  | .hbm, ⟨54, _⟩ => ⟨S1x1, .f32⟩
  | .hbm, ⟨55, _⟩ => ⟨S16x512x64, .f32⟩
  | .hbm, ⟨56, _⟩ => ⟨S512x16x64, .f32⟩
  | .hbm, ⟨57, _⟩ => ⟨S512x1024, .f32⟩
  | .hbm, ⟨58, _⟩ => ⟨S512x1024, .f32⟩
  | .hbm, ⟨59, _⟩ => ⟨S1x512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x512, .f32⟩
  | .local _ .vmem, ⟨4, _⟩ => ⟨S512x512, .f32⟩
  | .local _ .vmem, ⟨5, _⟩ => ⟨S1x128x64, .f32⟩
  | .local _ .vmem, ⟨6, _⟩ => ⟨S1x128x64, .f32⟩
  | .local _ .vmem, ⟨7, _⟩ => ⟨S1x512x64, .f32⟩
  | .local _ .vmem, ⟨8, _⟩ => ⟨S1x512x64, .f32⟩
  | .local _ .vmem, ⟨9, _⟩ => ⟨S1x512x64, .f32⟩
  | .local _ .vmem, ⟨10, _⟩ => ⟨S1x512x64, .f32⟩
  | .local _ .vmem, ⟨11, _⟩ => ⟨S32x64, .f32⟩
  | .local _ .vmem, ⟨12, _⟩ => ⟨S1x32, .f32⟩
  | .local _ .vmem, ⟨13, _⟩ => ⟨S32x64, .f32⟩
  | .local _ .vmem, ⟨14, _⟩ => ⟨S1x32, .f32⟩
  | .local _ .vmem, ⟨15, _⟩ => ⟨S32x32, .f32⟩
  | .local _ .vmem, ⟨16, _⟩ => ⟨S32x32, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S1x16, .f32⟩
  | .local _ .vmem, ⟨21, _⟩ => ⟨S1x1, .f32⟩
  | .local _ .vmem, ⟨22, _⟩ => ⟨S1x128x64, .f32⟩
  | .local _ .vmem, ⟨23, _⟩ => ⟨S1x128x64, .f32⟩
  | .local _ .vmem, ⟨24, _⟩ => ⟨S512x32, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x512, .f32⟩
  | .local _ .vmem, ⟨29, _⟩ => ⟨S512x512, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg14_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem14_1 : DmaSem sig := 23
abbrev cc2_sem0_0 : DmaSem sig := 24
abbrev cc2_sem1_0 : DmaSem sig := 25
abbrev cc2_sem1_1 : DmaSem sig := 26
abbrev cc2_sem2_0 : DmaSem sig := 27
abbrev cc2_sem2_1 : DmaSem sig := 28

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S32x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S32x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S256x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S1x128x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  transposes_S512x1024_p1_0_S1024x512 : S512x1024.Transposes [1, 0] S1024x512
  inb_S512x512_S512x512_0_0 : ∀ a, (![0, 0] : Fin 2 → Nat) a + S512x512.size a ≤ S512x512.size a
  h_S512x512 : 0 < S512x512.numel
  shapeCasts_S512x3072_S1x512x64x3x16 : S512x3072.ShapeCasts S1x512x64x3x16
  slices_S1x512x64x3x16_S1x512x64x1x16_0_0_0_0_0 : S1x512x64x3x16.Slices ![0, 0, 0, 0, 0] S1x512x64x1x16
  shapeCasts_S1x512x64x1x16_S1x512x64x16 : S1x512x64x1x16.ShapeCasts S1x512x64x16
  transposes_S1x512x64x16_S1x16x512x64_0_3_1_2 : S1x512x64x16.Transposes [0, 3, 1, 2] S1x16x512x64
  shapeCasts_S1x16x512x64_S16x512x64 : S1x16x512x64.ShapeCasts S16x512x64
  slices_S1x512x64x3x16_S1x512x64x1x16_0_0_0_1_0 : S1x512x64x3x16.Slices ![0, 0, 0, 1, 0] S1x512x64x1x16
  slices_S1x512x64x3x16_S1x512x64x1x16_0_0_0_2_0 : S1x512x64x3x16.Slices ![0, 0, 0, 2, 0] S1x512x64x1x16
  slices_S32x64_S32x32_0_0 : S32x64.Slices ![0, 0] S32x32
  slices_S32x64_S32x32_0_32 : S32x64.Slices ![0, 32] S32x32
  bcast_S_S8x8 : S_.BroadcastsInDim S8x8 (![] : Fin 0 → Fin S8x8.rank)
  transposes_S16x32_S32x16_1_0 : S16x32.Transposes [1, 0] S32x16
  bcast_S8x8_S8x1x8x1_0_2 : S8x8.BroadcastsInDim S8x1x8x1 (![0, 2] : Fin 2 → Fin S8x1x8x1.rank)
  bcast_S32x16_S1x32x1x16_1_3 : S32x16.BroadcastsInDim S1x32x1x16 (![1, 3] : Fin 2 → Fin S1x32x1x16.rank)
  bcast_S8x1x8x1_S8x32x8x16_0_1_2_3 : S8x1x8x1.BroadcastsInDim S8x32x8x16 (![0, 1, 2, 3] : Fin 4 → Fin S8x32x8x16.rank)
  bcast_S1x32x1x16_S8x32x8x16_0_1_2_3 : S1x32x1x16.BroadcastsInDim S8x32x8x16 (![0, 1, 2, 3] : Fin 4 → Fin S8x32x8x16.rank)
  shapeCasts_S8x32x8x16_S256x128 : S8x32x8x16.ShapeCasts S256x128
  shapeCasts_S32_S1x32 : S32.ShapeCasts S1x32
  bcast_S1x32_S8x32_0_1 : S1x32.BroadcastsInDim S8x32 (![0, 1] : Fin 2 → Fin S8x32.rank)
  shapeCasts_S8x32_S256 : S8x32.ShapeCasts S256
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S256_S1x256 : S256.ShapeCasts S1x256
  shapeCasts_S128_S1x128 : S128.ShapeCasts S1x128
  shapeCasts_S1_S1x1 : S1.ShapeCasts S1x1
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S32 : S1x32.ShapeCasts S32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  inb_S1x16_S1x16_0_0 : ∀ a, (![0, 0] : Fin 2 → Nat) a + S1x16.size a ≤ S1x16.size a
  h_S1x16 : 0 < S1x16.numel
  shapeCasts_S1x16_S16 : S1x16.ShapeCasts S16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  transposes_S32x64_p1_0_S64x32 : S32x64.Transposes [1, 0] S64x32
  broadcasts_S1x32_S512x32 : S1x32.Broadcasts S512x32
  transposes_S32x32_p1_0_S32x32 : S32x32.Transposes [1, 0] S32x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  broadcasts_S1x32_S128x32 : S1x32.Broadcasts S128x32
  concatenates_S128x32_S128x32_S128x32_S128x32_S128x32_S128x32_S128x32_S128x32_S128x256_d1 : Shape.Concatenates [S128x32, S128x32, S128x32, S128x32, S128x32, S128x32, S128x32, S128x32] S128x256 1
  shapeCasts_S512x32_S64x256 : S512x32.ShapeCasts S64x256
  shapeCasts_S128x256_S128x1x256 : S128x256.ShapeCasts S128x1x256
  shapeCasts_S64x256_S1x64x256 : S64x256.ShapeCasts S1x64x256
  broadcasts_S128x1x256_S128x64x256 : S128x1x256.Broadcasts S128x64x256
  broadcasts_S1x64x256_S128x64x256 : S1x64x256.Broadcasts S128x64x256
  shapeCasts_S256_S1x1x256 : S256.ShapeCasts S1x1x256
  broadcasts_S1x1x256_S128x64x256 : S1x1x256.Broadcasts S128x64x256
  shapeCasts_S128x64x256_S8192x256 : S128x64x256.ShapeCasts S8192x256
  shapeCasts_S8192x128_S128x64x128 : S8192x128.ShapeCasts S128x64x128
  shapeCasts_S128_S1x1x128 : S128.ShapeCasts S1x1x128
  broadcasts_S1x1x128_S128x64x128 : S1x1x128.Broadcasts S128x64x128
  shapeCasts_S128x64x128_S128x512x16 : S128x64x128.ShapeCasts S128x512x16
  shapeCasts_S16_S1x1x16 : S16.ShapeCasts S1x1x16
  broadcasts_S1x1x16_S128x512x16 : S1x1x16.Broadcasts S128x512x16
  reduces_S128x512x16_S128x512 : S128x512x16.Reduces [2] S128x512
  iota_S128x512_d0_w32 : S128x512.Iotas .tc 32 [0]
  iota_S128x512_d1_w32 : S128x512.Iotas .tc 32 [1]
  reduces_S128x512_S128 : S128x512.Reduces [1] S128
  shapeCasts_S128_S128x1 : S128.ShapeCasts S128x1
  broadcasts_S128x1_S128x512 : S128x1.Broadcasts S128x512
  shapeCasts_S128x64_S1x128x64 : S128x64.ShapeCasts S1x128x64
  transposes_S16x512x64_S512x16x64_1_0_2 : S16x512x64.Transposes [1, 0, 2] S512x16x64
  shapeCasts_S512x16x64_S512x1024 : S512x16x64.ShapeCasts S512x1024
  shapeCasts_S512x1024_S1x512x1024 : S512x1024.ShapeCasts S1x512x1024
  dot_S512x1024_S1024x512_S512x512_1_0_0_1_n_n_wf : DotDims.WF S512x1024 S1024x512 S512x512 [1] [0] [0] [1] [] []
  dot_S512x64_S64x32_S512x32_1_0_0_1_n_n_wf : DotDims.WF S512x64 S64x32 S512x32 [1] [0] [0] [1] [] []
  dot_S512x32_S32x32_S512x32_1_0_0_1_n_n_wf : DotDims.WF S512x32 S32x32 S512x32 [1] [0] [0] [1] [] []
  dot_S128x64_S64x32_S128x32_1_0_0_1_n_n_wf : DotDims.WF S128x64 S64x32 S128x32 [1] [0] [0] [1] [] []
  dot_S128x32_S32x32_S128x32_1_0_0_1_n_n_wf : DotDims.WF S128x32 S32x32 S128x32 [1] [0] [0] [1] [] []
  dot_S8192x256_S256x128_S8192x128_1_0_0_1_n_n_wf : DotDims.WF S8192x256 S256x128 S8192x128 [1] [0] [0] [1] [] []
  dot_S128x512_S512x64_S128x64_1_0_0_1_n_n_wf : DotDims.WF S128x512 S512x64 S128x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S3072x1024.size a
  hwx0_1 : ∀ i : grid0.Coords, EltTy.bits .f32 = 32 ∨ (Rect.block (s := S3072x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x3072.size a
  hwx0_2 : ∀ i : grid0.Coords, EltTy.bits .f32 = 32 ∨ (Rect.block (s := S512x3072) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S16x512x64.size a
  hwx1_0 : ∀ i : grid1.Coords, EltTy.bits .f32 = 32 ∨ (Rect.block (s := S16x512x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S16x512x64.size a
  hwx1_1 : ∀ i : grid1.Coords, EltTy.bits .f32 = 32 ∨ (Rect.block (s := S16x512x64) S1x512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S16x512x64.size a
  hwx1_2 : ∀ i : grid1.Coords, EltTy.bits .f32 = 32 ∨ (Rect.block (s := S16x512x64) S1x512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x32.size a ≤ S32x32.size a
  hwx1_7 : ∀ i : grid1.Coords, EltTy.bits .f32 = 32 ∨ (Rect.block (s := S32x32) S32x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x32.size a ≤ S32x32.size a
  hwx1_8 : ∀ i : grid1.Coords, EltTy.bits .f32 = 32 ∨ (Rect.block (s := S32x32) S32x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x128.size a ≤ S256x128.size a
  hwx1_10 : ∀ i : grid1.Coords, EltTy.bits .f32 = 32 ∨ (Rect.block (s := S256x128) S256x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x16.size a ≤ S1x16.size a
  hwx1_12 : ∀ i : grid1.Coords, EltTy.bits .f32 = 32 ∨ (Rect.block (s := S1x16) S1x16.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x1.size a ≤ S1x1.size a
  hwx1_13 : ∀ i : grid1.Coords, EltTy.bits .f32 = 32 ∨ (Rect.block (s := S1x1) S1x1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x128x64.size a ≤ S16x512x64.size a
  hwx1_14 : ∀ i : grid1.Coords, EltTy.bits .f32 = 32 ∨ (Rect.block (s := S16x512x64) S1x128x64.size (cc1_transform_14 i) (hinb1_14 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S512x1024.size a
  hwx2_0 : ∀ i : grid2.Coords, EltTy.bits .f32 = 32 ∨ (Rect.block (s := S512x1024) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S1024x1024.size a
  hwx2_1 : ∀ i : grid2.Coords, EltTy.bits .f32 = 32 ∨ (Rect.block (s := S1024x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x1024.size a
  hwx2_2 : ∀ i : grid2.Coords, EltTy.bits .f32 = 32 ∨ (Rect.block (s := S512x1024) S512x512.size (cc2_transform_2 i) (hinb2_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x32_S128x32_1_0_0_1_n_n : DotDims S128x32 S32x32 S128x32 where
  lhsContracting := [1]
  rhsContracting := [0]
  lhsNonContracting := [0]
  rhsNonContracting := [1]
  lhsBatch := []
  rhsBatch := []
  wf := dot_S128x32_S32x32_S128x32_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S128x512_S512x64_S128x64_1_0_0_1_n_n : DotDims S128x512 S512x64 S128x64 where
  lhsContracting := [1]
  rhsContracting := [0]
  lhsNonContracting := [0]
  rhsNonContracting := [1]
  lhsBatch := []
  rhsBatch := []
  wf := dot_S128x512_S512x64_S128x64_1_0_0_1_n_n_wf

abbrev win0_0 : Pipeline.Window sig grid0 :=
  Pipeline.Window.ofSpec (Memref.whole main_v0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S32x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S32x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v24) S256x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v34) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg11) S1x16.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v35) S1x1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v36) S1x128x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v38) S512x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x512x1024 : Shape := ⟨3, ![1, 512, 1024]⟩
abbrev S3072x1024 : Shape := ⟨2, ![3072, 1024]⟩
abbrev S1024x1024 : Shape := ⟨2, ![1024, 1024]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S1x512x3072 : Shape := ⟨3, ![1, 512, 3072]⟩
abbrev S1x512x64x3x16 : Shape := ⟨5, ![1, 512, 64, 3, 16]⟩
abbrev S1x512x64x1x16 : Shape := ⟨5, ![1, 512, 64, 1, 16]⟩
abbrev S1x512x64x16 : Shape := ⟨4, ![1, 512, 64, 16]⟩
abbrev S1x16x512x64 : Shape := ⟨4, ![1, 16, 512, 64]⟩
abbrev S1x16x512x32 : Shape := ⟨4, ![1, 16, 512, 32]⟩
abbrev S1x1x1x32 : Shape := ⟨4, ![1, 1, 1, 32]⟩
abbrev S32x32 : Shape := ⟨2, ![32, 32]⟩
abbrev S1x16x512x1x32 : Shape := ⟨5, ![1, 16, 512, 1, 32]⟩
abbrev S1x16x1x512x32 : Shape := ⟨5, ![1, 16, 1, 512, 32]⟩
abbrev S1x16x512x512x32 : Shape := ⟨5, ![1, 16, 512, 512, 32]⟩
abbrev S1x1x1x1x32 : Shape := ⟨5, ![1, 1, 1, 1, 32]⟩
abbrev S_ : Shape := ⟨0, ![]⟩
abbrev S1x16x512x512x16 : Shape := ⟨5, ![1, 16, 512, 512, 16]⟩
abbrev S1x1x1x1x16 : Shape := ⟨5, ![1, 1, 1, 1, 16]⟩
abbrev S1x16x512x512x1 : Shape := ⟨5, ![1, 16, 512, 512, 1]⟩
abbrev S1x16x512x512 : Shape := ⟨4, ![1, 16, 512, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x16x512 : Shape := ⟨3, ![1, 16, 512]⟩
abbrev S1x16x512x1 : Shape := ⟨4, ![1, 16, 512, 1]⟩
abbrev S1x512x16x64 : Shape := ⟨4, ![1, 512, 16, 64]⟩

abbrev nBuf : Space → Nat
  | .hbm => 88
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S3072x1024, .f32⟩
  | .hbm, ⟨2, _⟩ => ⟨S1024x1024, .f32⟩
  | .hbm, ⟨3, _⟩ => ⟨S32x64, .f32⟩
  | .hbm, ⟨4, _⟩ => ⟨S32, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S32, .f32⟩
  | .hbm, ⟨9, _⟩ => ⟨S16x32, .f32⟩
  | .hbm, ⟨10, _⟩ => ⟨S16, .f32⟩
  | .hbm, ⟨11, _⟩ => ⟨S1x16, .f32⟩
  | .hbm, ⟨12, _⟩ => ⟨S1, .f32⟩
  | .hbm, ⟨13, _⟩ => ⟨S1x512x3072, .f32⟩
  | .hbm, ⟨14, _⟩ => ⟨S1x512x64x3x16, .f32⟩
  | .hbm, ⟨15, _⟩ => ⟨S1x512x64x1x16, .f32⟩
  | .hbm, ⟨16, _⟩ => ⟨S1x512x64x16, .f32⟩
  | .hbm, ⟨17, _⟩ => ⟨S1x16x512x64, .f32⟩
  | .hbm, ⟨18, _⟩ => ⟨S1x512x64x1x16, .f32⟩
  | .hbm, ⟨19, _⟩ => ⟨S1x512x64x16, .f32⟩
  | .hbm, ⟨20, _⟩ => ⟨S1x16x512x64, .f32⟩
  | .hbm, ⟨21, _⟩ => ⟨S1x512x64x1x16, .f32⟩
  | .hbm, ⟨22, _⟩ => ⟨S1x512x64x16, .f32⟩
  | .hbm, ⟨23, _⟩ => ⟨S1x16x512x64, .f32⟩
  | .hbm, ⟨24, _⟩ => ⟨S1x16x512x32, .f32⟩
  | .hbm, ⟨25, _⟩ => ⟨S1x1x1x32, .f32⟩
  | .hbm, ⟨26, _⟩ => ⟨S1x16x512x32, .f32⟩
  | .hbm, ⟨27, _⟩ => ⟨S1x16x512x32, .f32⟩
  | .hbm, ⟨28, _⟩ => ⟨S1x16x512x32, .f32⟩
  | .hbm, ⟨29, _⟩ => ⟨S1x1x1x32, .f32⟩
  | .hbm, ⟨30, _⟩ => ⟨S1x16x512x32, .f32⟩
  | .hbm, ⟨31, _⟩ => ⟨S1x16x512x32, .f32⟩
  | .hbm, ⟨32, _⟩ => ⟨S32x32, .f32⟩
  | .hbm, ⟨33, _⟩ => ⟨S32x32, .f32⟩
  | .hbm, ⟨34, _⟩ => ⟨S1x16x512x32, .f32⟩
  | .hbm, ⟨35, _⟩ => ⟨S1x16x512x32, .f32⟩
  | .hbm, ⟨36, _⟩ => ⟨S1x16x512x1x32, .f32⟩
  | .hbm, ⟨37, _⟩ => ⟨S1x16x1x512x32, .f32⟩
  | .hbm, ⟨38, _⟩ => ⟨S1x16x512x512x32, .f32⟩
  | .hbm, ⟨39, _⟩ => ⟨S1x16x512x512x32, .f32⟩
  | .hbm, ⟨40, _⟩ => ⟨S1x16x512x512x32, .f32⟩
  | .hbm, ⟨41, _⟩ => ⟨S1x1x1x1x32, .f32⟩
  | .hbm, ⟨42, _⟩ => ⟨S1x16x512x512x32, .f32⟩
  | .hbm, ⟨43, _⟩ => ⟨S1x16x512x512x32, .f32⟩
  | .hbm, ⟨44, _⟩ => ⟨S_, .f32⟩
  | .hbm, ⟨45, _⟩ => ⟨S1x16x512x512x32, .f32⟩
  | .hbm, ⟨46, _⟩ => ⟨S1x16x512x512x32, .f32⟩
  | .hbm, ⟨47, _⟩ => ⟨S1x16x512x512x16, .f32⟩
  | .hbm, ⟨48, _⟩ => ⟨S1x1x1x1x16, .f32⟩
  | .hbm, ⟨49, _⟩ => ⟨S1x16x512x512x16, .f32⟩
  | .hbm, ⟨50, _⟩ => ⟨S1x16x512x512x16, .f32⟩
  | .hbm, ⟨51, _⟩ => ⟨S_, .f32⟩
  | .hbm, ⟨52, _⟩ => ⟨S1x16x512x512x16, .f32⟩
  | .hbm, ⟨53, _⟩ => ⟨S1x16x512x512x16, .f32⟩
  | .hbm, ⟨54, _⟩ => ⟨S1x16x512x512x1, .f32⟩
  | .hbm, ⟨55, _⟩ => ⟨S1x16x512x512, .f32⟩
  | .hbm, ⟨56, _⟩ => ⟨S_, .f32⟩
  | .hbm, ⟨57, _⟩ => ⟨S1x16x512x512, .f32⟩
  | .hbm, ⟨58, _⟩ => ⟨S1x16x512x512, .f32⟩
  | .hbm, ⟨59, _⟩ => ⟨S512, .i32⟩
  | .hbm, ⟨60, _⟩ => ⟨S1x512, .i32⟩
  | .hbm, ⟨61, _⟩ => ⟨S512x1, .i32⟩
  | .hbm, ⟨62, _⟩ => ⟨S512x512, .i32⟩
  | .hbm, ⟨63, _⟩ => ⟨S512x512, .i32⟩
  | .hbm, ⟨64, _⟩ => ⟨S512x512, .i1⟩
  | .hbm, ⟨65, _⟩ => ⟨S_, .f32⟩
  | .hbm, ⟨66, _⟩ => ⟨S_, .f32⟩
  | .hbm, ⟨67, _⟩ => ⟨S1x16x512x512, .i1⟩
  | .hbm, ⟨68, _⟩ => ⟨S1x16x512x512, .f32⟩
  | .hbm, ⟨69, _⟩ => ⟨S1x16x512x512, .f32⟩
  | .hbm, ⟨70, _⟩ => ⟨S_, .f32⟩
  | .hbm, ⟨71, _⟩ => ⟨S1x16x512, .f32⟩
  | .hbm, ⟨72, _⟩ => ⟨S_, .f32⟩
  | .hbm, ⟨73, _⟩ => ⟨S1x16x512, .f32⟩
  | .hbm, ⟨74, _⟩ => ⟨S1x16x512, .f32⟩
  | .hbm, ⟨75, _⟩ => ⟨S1x16x512x1, .f32⟩
  | .hbm, ⟨76, _⟩ => ⟨S1x16x512x512, .f32⟩
  | .hbm, ⟨77, _⟩ => ⟨S1x16x512x512, .f32⟩
  | .hbm, ⟨78, _⟩ => ⟨S1x16x512x512, .f32⟩
  | .hbm, ⟨79, _⟩ => ⟨S_, .f32⟩
  | .hbm, ⟨80, _⟩ => ⟨S1x16x512, .f32⟩
  | .hbm, ⟨81, _⟩ => ⟨S1x16x512x1, .f32⟩
  | .hbm, ⟨82, _⟩ => ⟨S1x16x512x512, .f32⟩
  | .hbm, ⟨83, _⟩ => ⟨S1x16x512x512, .f32⟩
  | .hbm, ⟨84, _⟩ => ⟨S1x16x512x64, .f32⟩
  | .hbm, ⟨85, _⟩ => ⟨S1x512x16x64, .f32⟩
  | .hbm, ⟨86, _⟩ => ⟨S1x512x1024, .f32⟩
  | .hbm, ⟨87, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call1_cst : Ref sig .tc := ⟨.hbm, 51, rfl⟩
abbrev main_call1_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v48 : Ref sig .tc := ⟨.hbm, 69, rfl⟩
abbrev main_cst_0 : Ref sig .tc := ⟨.hbm, 70, rfl⟩
abbrev main_v49 : Ref sig .tc := ⟨.hbm, 71, rfl⟩
abbrev main_cst_1 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_2 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  shapeCasts_S1x512x3072_S1x512x64x3x16 : S1x512x3072.ShapeCasts S1x512x64x3x16
  slices_S1x512x64x3x16_S1x512x64x1x16_0_0_0_0_0 : S1x512x64x3x16.Slices ![0, 0, 0, 0, 0] S1x512x64x1x16
  shapeCasts_S1x512x64x1x16_S1x512x64x16 : S1x512x64x1x16.ShapeCasts S1x512x64x16
  transposes_S1x512x64x16_S1x16x512x64_0_3_1_2 : S1x512x64x16.Transposes [0, 3, 1, 2] S1x16x512x64
  slices_S1x512x64x3x16_S1x512x64x1x16_0_0_0_1_0 : S1x512x64x3x16.Slices ![0, 0, 0, 1, 0] S1x512x64x1x16
  slices_S1x512x64x3x16_S1x512x64x1x16_0_0_0_2_0 : S1x512x64x3x16.Slices ![0, 0, 0, 2, 0] S1x512x64x1x16
  bcast_S32_S1x1x1x32_3 : S32.BroadcastsInDim S1x1x1x32 (![3] : Fin 1 → Fin S1x1x1x32.rank)
  bcast_S1x1x1x32_S1x16x512x32_0_1_2_3 : S1x1x1x32.BroadcastsInDim S1x16x512x32 (![0, 1, 2, 3] : Fin 4 → Fin S1x16x512x32.rank)
  slices_S32x64_S32x32_0_0 : S32x64.Slices ![0, 0] S32x32
  slices_S32x64_S32x32_0_32 : S32x64.Slices ![0, 32] S32x32
  bcast_S1x16x512x32_S1x16x512x1x32_0_1_2_4 : S1x16x512x32.BroadcastsInDim S1x16x512x1x32 (![0, 1, 2, 4] : Fin 4 → Fin S1x16x512x1x32.rank)
  bcast_S1x16x512x32_S1x16x1x512x32_0_1_3_4 : S1x16x512x32.BroadcastsInDim S1x16x1x512x32 (![0, 1, 3, 4] : Fin 4 → Fin S1x16x1x512x32.rank)
  bcast_S1x16x512x1x32_S1x16x512x512x32_0_1_2_3_4 : S1x16x512x1x32.BroadcastsInDim S1x16x512x512x32 (![0, 1, 2, 3, 4] : Fin 5 → Fin S1x16x512x512x32.rank)
  bcast_S1x16x1x512x32_S1x16x512x512x32_0_1_2_3_4 : S1x16x1x512x32.BroadcastsInDim S1x16x512x512x32 (![0, 1, 2, 3, 4] : Fin 5 → Fin S1x16x512x512x32.rank)
  bcast_S32_S1x1x1x1x32_4 : S32.BroadcastsInDim S1x1x1x1x32 (![4] : Fin 1 → Fin S1x1x1x1x32.rank)
  bcast_S1x1x1x1x32_S1x16x512x512x32_0_1_2_3_4 : S1x1x1x1x32.BroadcastsInDim S1x16x512x512x32 (![0, 1, 2, 3, 4] : Fin 5 → Fin S1x16x512x512x32.rank)
  bcast_S_S1x16x512x512x32 : S_.BroadcastsInDim S1x16x512x512x32 (![] : Fin 0 → Fin S1x16x512x512x32.rank)
  bcast_S16_S1x1x1x1x16_4 : S16.BroadcastsInDim S1x1x1x1x16 (![4] : Fin 1 → Fin S1x1x1x1x16.rank)
  bcast_S1x1x1x1x16_S1x16x512x512x16_0_1_2_3_4 : S1x1x1x1x16.BroadcastsInDim S1x16x512x512x16 (![0, 1, 2, 3, 4] : Fin 5 → Fin S1x16x512x512x16.rank)
  bcast_S_S1x16x512x512x16 : S_.BroadcastsInDim S1x16x512x512x16 (![] : Fin 0 → Fin S1x16x512x512x16.rank)
  shapeCasts_S1x16x512x512x1_S1x16x512x512 : S1x16x512x512x1.ShapeCasts S1x16x512x512
  shapeCasts_S1_S_ : S1.ShapeCasts S_
  bcast_S_S1x16x512x512 : S_.BroadcastsInDim S1x16x512x512 (![] : Fin 0 → Fin S1x16x512x512.rank)
  bcast_S512_S1x512_1 : S512.BroadcastsInDim S1x512 (![1] : Fin 1 → Fin S1x512.rank)
  bcast_S512_S512x1_0 : S512.BroadcastsInDim S512x1 (![0] : Fin 1 → Fin S512x1.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S512x512_S1x16x512x512_2_3 : S512x512.BroadcastsInDim S1x16x512x512 (![2, 3] : Fin 2 → Fin S1x16x512x512.rank)
  reducesTo_S1x16x512x512_S1x16x512_d3 : S1x16x512x512.ReducesTo [3] S1x16x512
  h_S_ : 0 < S_.numel
  bcast_S_S1x16x512 : S_.BroadcastsInDim S1x16x512 (![] : Fin 0 → Fin S1x16x512.rank)
  bcast_S1x16x512_S1x16x512x1_0_1_2 : S1x16x512.BroadcastsInDim S1x16x512x1 (![0, 1, 2] : Fin 3 → Fin S1x16x512x1.rank)
  bcast_S1x16x512x1_S1x16x512x512_0_1_2_3 : S1x16x512x1.BroadcastsInDim S1x16x512x512 (![0, 1, 2, 3] : Fin 4 → Fin S1x16x512x512.rank)
  transposes_S1x16x512x64_S1x512x16x64_0_2_1_3 : S1x16x512x64.Transposes [0, 2, 1, 3] S1x512x16x64
  shapeCasts_S1x512x16x64_S1x512x1024 : S1x512x16x64.ShapeCasts S1x512x1024
  dot_S1x512x1024_S3072x1024_S1x512x3072_2_1_01_0_n_n_wf : DotDims.WF S1x512x1024 S3072x1024 S1x512x3072 [2] [1] [0, 1] [0] [] []
  dot_S1x16x512x64_S32x64_S1x16x512x32_3_1_012_0_n_n_wf : DotDims.WF S1x16x512x64 S32x64 S1x16x512x32 [3] [1] [0, 1, 2] [0] [] []
  dot_S1x16x512x32_S32x32_S1x16x512x32_3_1_012_0_n_n_wf : DotDims.WF S1x16x512x32 S32x32 S1x16x512x32 [3] [1] [0, 1, 2] [0] [] []
  dot_S1x16x512x512x32_S16x32_S1x16x512x512x16_4_1_0123_0_n_n_wf : DotDims.WF S1x16x512x512x32 S16x32 S1x16x512x512x16 [4] [1] [0, 1, 2, 3] [0] [] []
  dot_S1x16x512x512x16_S1x16_S1x16x512x512x1_4_1_0123_0_n_n_wf : DotDims.WF S1x16x512x512x16 S1x16 S1x16x512x512x1 [4] [1] [0, 1, 2, 3] [0] [] []
  dot_S1x16x512x512_S1x16x512x64_S1x16x512x64_3_2_2_3_01_01_wf : DotDims.WF S1x16x512x512 S1x16x512x64 S1x16x512x64 [3] [2] [2] [3] [0, 1] [0, 1]
  dot_S1x512x1024_S1024x1024_S1x512x1024_2_1_01_0_n_n_wf : DotDims.WF S1x512x1024 S1024x1024 S1x512x1024 [2] [1] [0, 1] [0] [] []

variable [Facts₀]

def dot_S1x512x1024_S3072x1024_S1x512x3072_2_1_01_0_n_n : DotDims S1x512x1024 S3072x1024 S1x512x3072 where
  lhsContracting := [2]
  rhsContracting := [1]
  lhsNonContracting := [0, 1]
  rhsNonContracting := [0]
  lhsBatch := []
  rhsBatch := []
  wf := dot_S1x512x1024_S3072x1024_S1x512x3072_2_1_01_0_n_n_wf
def dot_S1x16x512x64_S32x64_S1x16x512x32_3_1_012_0_n_n : DotDims S1x16x512x64 S32x64 S1x16x512x32 where
  lhsContracting := [3]
  rhsContracting := [1]
  lhsNonContracting := [0, 1, 2]
  rhsNonContracting := [0]
  lhsBatch := []
  rhsBatch := []
  wf := dot_S1x16x512x64_S32x64_S1x16x512x32_3_1_012_0_n_n_wf
def dot_S1x16x512x32_S32x32_S1x16x512x32_3_1_012_0_n_n : DotDims S1x16x512x32 S32x32 S1x16x512x32 where
  lhsContracting := [3]
  rhsContracting := [1]
  lhsNonContracting := [0, 1, 2]
  rhsNonContracting := [0]
  lhsBatch := []
  rhsBatch := []
  wf := dot_S1x16x512x32_S32x32_S1x16x512x32_3_1_012_0_n_n_wf
def dot_S1x16x512x512x32_S16x32_S1x16x512x512x16_4_1_0123_0_n_n : DotDims S1x16x512x512x32 S16x32 S1x16x512x512x16 where
  lhsContracting := [4]
  rhsContracting := [1]
  lhsNonContracting := [0, 1, 2, 3]
  rhsNonContracting := [0]
  lhsBatch := []
  rhsBatch := []
  wf := dot_S1x16x512x512x32_S16x32_S1x16x512x512x16_4_1_0123_0_n_n_wf
def dot_S1x16x512x512x16_S1x16_S1x16x512x512x1_4_1_0123_0_n_n : DotDims S1x16x512x512x16 S1x16 S1x16x512x512x1 where
  lhsContracting := [4]
  rhsContracting := [1]
  lhsNonContracting := [0, 1, 2, 3]
  rhsNonContracting := [0]
  lhsBatch := []
  rhsBatch := []
  wf := dot_S1x16x512x512x16_S1x16_S1x16x512x512x1_4_1_0123_0_n_n_wf
def dot_S1x16x512x512_S1x16x512x64_S1x16x512x64_3_2_2_3_01_01 : DotDims S1x16x512x512 S1x16x512x64 S1x16x512x64 where
  lhsContracting := [3]
  rhsContracting := [2]
  lhsNonContracting := [2]
  rhsNonContracting := [3]
  lhsBatch := [0, 1]
  rhsBatch := [0, 1]
  wf := dot_S1x16x512x512_S1x16x512x64_S1x16x512x64_3_2_2_3_01_01_wf
def dot_S1x512x1024_S1024x1024_S1x512x1024_2_1_01_0_n_n : DotDims S1x512x1024 S1024x1024 S1x512x1024 where
  lhsContracting := [2]
  rhsContracting := [1]
  lhsNonContracting := [0, 1]
  rhsNonContracting := [0]
  lhsBatch := []
  rhsBatch := []
  wf := dot_S1x512x1024_S1024x1024_S1x512x1024_2_1_01_0_n_n_wf

class Facts : Prop extends Facts₀ where

variable [Facts]
-- ==== Proof.Kernel.R0.lean ====
/-
  Region 0 (the qkv projection): one grid axis over column blocks of the result.  At a point the
  body reads the whole left operand (512 × 1024), one 512-row block of the right operand, and
  stores their product over the contracted axis (the 1024 columns of both) as one 512 × 512 block
  of the result.  This module states what the body leaves in the result's block as a function of
  the two input blocks, runs the body, and packages the per-point facts the launch needs; nothing
  is carried from one point to the next.
-/
import proofs.«151802_j67714454389137_2_alg».proof.Proof.Gen.Kernel.Launch
import proofs.«151802_j67714454389137_2_alg».proof.Proof.Gen.Kernel.Skeleton
import proofs.«151802_j67714454389137_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of an input block and of the result block. -/
abbrev rIn0 : Rect S512x1024 := Rect.unit (s := S512x1024) ![0, 0] S512x1024.size inb_S512x1024_S512x1024_0_0
abbrev rOut0 : Rect S512x512 := Rect.unit (s := S512x512) ![0, 0] S512x512.size inb_S512x512_S512x512_0_0

/-- The result block after the body: its one store, the product of the two input blocks. -/
def out0_2 (x0 : Vec F S512x1024 .f32) (x1 : Vec F S512x1024 .f32) : Vec F S512x512 .f32 :=
  View.canon [⟨rOut0, k0_pay1 (View.ld x0 rIn0) (View.ld x1 rIn0)⟩]

/-- The one store covers the block. -/
theorem cover0_2 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging buffers, the inputs at `x0`, `x1` and the result's at anything, ends with
    the inputs as they were and the result's buffer at `out0_2 x0 x1`. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x512 .f32) (harg3 : arg3.IsWhole)
    (x0 : Vec F S512x1024 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data: the arrays as the region finds them; after the body each input's buffer at its
    block and the result's at the product of the point's input blocks; the class-A invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.Kernel.R1Base.lean ====
/-
  Region 1 (the pairwise-MLP attention): a grid of 16 heads by 4 query tiles, run head by head.  What
  the runs of its body are stated over: the one condition the body branches on (the query tile is the
  first of its head, where the key-side projection is computed and stored into the scratch that the
  other three tiles of the head read), each window's block at a point, the staging memrefs the
  pipeline passes, and the class invariant with the carried scratch split out.
-/
import proofs.«151802_j67714454389137_2_alg».proof.Proof.Gen.Kernel.Launch
import proofs.«151802_j67714454389137_2_alg».proof.Proof.Gen.Kernel.Skeleton
import proofs.«151802_j67714454389137_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition from the grid coordinates: the query-tile coordinate is zero. -/
abbrev cond1_0 (i : grid1.Coords) : Prop := (Scalar.cmpi .ne (Scalar.extui (Scalar.cmpi .eq (BitVec.ofNat 32 (i 1).val) 0#32)) 0#32) = 1#1
/-- It holds at the first of every four consecutive points. -/
theorem hcond1_0 : ∀ t : Fin cfg1.N, cond1_0 (grid1.coords t) ↔ t.val % 4 = 0 :=
  (by decide +kernel : ∀ t : Fin grid1.N, cond1_0 (grid1.coords t) ↔ t.val % 4 = 0)

/-- No window of the region is idle anywhere. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem liveAt1_11 : ∀ t : Fin cfg1.N, cfg1.idle 11 (grid1.coords t) = false := by decide +kernel
theorem liveAt1_12 : ∀ t : Fin cfg1.N, cfg1.idle 12 (grid1.coords t) = false := by decide +kernel
theorem liveAt1_13 : ∀ t : Fin cfg1.N, cfg1.idle 13 (grid1.coords t) = false := by decide +kernel
theorem liveAt1_14 : ∀ t : Fin cfg1.N, cfg1.idle 14 (grid1.coords t) = false := by decide +kernel

/-- Each window's current staging memref at point `t`, as the pipeline passes it, and its wholeness. -/
abbrev ms1_0 (t : Fin cfg1.N) : Memref sig .tc .vmem S1x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x16 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x1 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x128x64 .f32 := win1_14.stage (cfg1.slots t 14)
abbrev hs1_14 (t : Fin cfg1.N) : (ms1_14 t).IsWhole := hstage1_14 ((cfg1.slots t 14).cast nbuf1_14)
/-- The scratch operand: a whole scoped buffer of the kernel's own. -/
abbrev scM1_0 : Memref sig .tc .vmem S512x32 .f32 := Memref.whole cc1_scratch0
/-- Views through which the output block's and the scratch's contents are stated. -/
abbrev VO1_14 : View sig .tc .vmem S1x128x64 .f32 := (Memref.whole cc1_stg14_0 : Memref sig .tc .vmem S1x128x64 .f32).view
abbrev VS1_0 : View sig .tc .vmem S512x32 .f32 := scM1_0.view

/-- The scoped buffers of the core that are neither a staging buffer of this region nor its scratch. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

end Region

end Cert.Kernel.Hand

end
-- ==== Proof.Kernel.R1RunA.lean ====
/-
  The whole body of region 1 run once, at the first query tile of a head: the branch is taken, the key-side projection is stored over the whole scratch (whatever it held) and read back.
  The pieces the output block ends with and the pieces the scratch ends with are found by the run.
-/
import proofs.«151802_j67714454389137_2_alg».proof.Proof.Kernel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i)
    (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) :
    Σ' (L14 : List (View.Piece (Elt F) S1x128x64 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc1__attn_mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1__attn_mlp_kernel_eq_skeleton]; unfold cc1__attn_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    iexists _; iexact HS0

end Cert.Kernel.Hand

end
-- ==== Proof.Kernel.R1RunB.lean ====
/-
  The whole body of region 1 run once, at a later query tile of a head: the branch is not taken, the scratch is only read, at what the tile before left in it.
  The pieces the output block ends with are found by the run.
-/
import proofs.«151802_j67714454389137_2_alg».proof.Proof.Kernel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : ¬cond1_0 i)
    (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (xs0 : Vec F S512x32 .f32) :
    { L14 : List (View.Piece (Elt F) S1x128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ owns (c : Thread nD τ) arg17 fullShare xs0) -∗ K ⟨⟩))
          ⊢ wp frame (wpE (defs₀ (F := F)) Variants.none c none) E (cc1__attn_mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc1__attn_mlp_kernel_eq_skeleton]; unfold cc1__attn_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    iexists _; isplitr; · ipureintro; exact harg17.read_unread _
    iexact HS0

end Cert.Kernel.Hand

end
-- ==== Proof.Kernel.R1.lean ====
/-
  Region 1, point by point.  At the first query tile of a head the body stores the head's key-side
  projection into the scratch and every tile reads it; so after position n the scratch holds what
  the last first-tile at or before n stored, and the output block holds the tile's attention output
  computed from the point's blocks and that scratch.  The invariant between points carries the
  scratch at exactly these contents (before the first point: at anything); the body obligation at a
  point applies the run of the point's case.
-/
import proofs.«151802_j67714454389137_2_alg».proof.Proof.Kernel.R1RunA
import proofs.«151802_j67714454389137_2_alg».proof.Proof.Kernel.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem cover1_A_14 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (y : S1x128x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).1 S1x128x64.size (by sl_kernel_rfl) y

/-- The output block after a first-tile point: its pieces read back. -/
def out1_A_14 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) : Vec F S1x128x64 .f32 :=
  VO1_14.read (Elt F) (VO1_14.writes (Elt F) VO1_14.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).1)

theorem scover1_A_0 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (y : S512x32.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).2.1 S512x32.size (by sl_kernel_rfl) y

/-- The scratch after a first-tile point: its pieces read back. -/
def sout1_A_0 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) : Vec F S512x32 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).2.1)

theorem cover1_B_14 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : ¬cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (xs0 : Vec F S512x32 .f32) (y : S1x128x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs0).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs0).1 S1x128x64.size (by sl_kernel_rfl) y

/-- The output block after a later-tile point, the scratch at `xs0`: its pieces read back. -/
def out1_B_14 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : ¬cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (xs0 : Vec F S512x32 .f32) : Vec F S1x128x64 .f32 :=
  VO1_14.read (Elt F) (VO1_14.writes (Elt F) VO1_14.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs0).1)

section Region
variable (V : (c : Dev nD) → (b : Ref sig .tc) → Buf (Elt F) ((c : Thread nD τ).loc b))

/-! ## What the output block and the scratch hold after each point -/

/-- A first-tile point: the output block and the scratch from the point's blocks. -/
def atFirst (c : Dev nD) (t : Fin cfg1.N) (h : cond1_0 (grid1.coords t)) : Vec F S1x128x64 .f32 × Vec F S512x32 .f32 :=
  (out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t))

/-- A later-tile point: the output block from the point's blocks and the scratch as found, which stays. -/
def atLater (c : Dev nD) (t : Fin cfg1.N) (h : ¬cond1_0 (grid1.coords t)) (xs : Vec F S512x32 .f32) : Vec F S1x128x64 .f32 × Vec F S512x32 .f32 :=
  (out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) xs, xs)

/-- The accumulation over positions. -/
def outsAt1 (c : Dev nD) : (n : ℕ) → n < cfg1.N → Vec F S1x128x64 .f32 × Vec F S512x32 .f32
  | 0, hn => atFirst V c ⟨0, hn⟩ ((hcond1_0 ⟨0, hn⟩).mpr (Nat.zero_mod _))
  | n + 1, hn =>
    if h0 : (n + 1) % 4 = 0 then atFirst V c ⟨n + 1, hn⟩ ((hcond1_0 ⟨n + 1, hn⟩).mpr h0)
    else atLater V c ⟨n + 1, hn⟩ (fun h => h0 ((hcond1_0 ⟨n + 1, hn⟩).mp h)) (outsAt1 c n (Nat.lt_of_succ_lt hn)).2

theorem outsAt1_first (c : Dev nD) (t : Fin cfg1.N) (h0 : t.val % 4 = 0) :
    outsAt1 V c t.val t.isLt = atFirst V c t ((hcond1_0 t).mpr h0) := by
  obtain ⟨n, hn⟩ := t
  cases n with
  | zero => rfl
  | succ n => exact dif_pos h0

theorem outsAt1_later (c : Dev nD) (t : Fin cfg1.N) (h0 : ¬t.val % 4 = 0) :
    outsAt1 V c t.val t.isLt = atLater V c t (fun h => h0 ((hcond1_0 t).mp h)) (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-! ## The invariant between points -/

/-- The class invariant with the scratch split out of the scoped buffers. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  unfold Pipeline.ΦA; rw [scopedRest1_eq]; simp only [scM1_0, owns_whole]; try rfl

/-- Before position `n`: before the first point the class invariant; afterwards the same with the
    scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  rw [show (dat1 V c).leavesExact 12 t = owns (c : Thread nD τ) (ms1_12 t) fullShare ((dat1 V c).after 12 t) from by
    unfold Dat.leavesExact; rw [liveAt1_12 t], after1_12]
  rw [show (dat1 V c).leavesExact 13 t = owns (c : Thread nD τ) (ms1_13 t) fullShare ((dat1 V c).after 13 t) from by
    unfold Dat.leavesExact; rw [liveAt1_13 t], after1_13]
  rw [show (dat1 V c).leavesExact 14 t = owns (c : Thread nD τ) (ms1_14 t) fullShare ((dat1 V c).after 14 t) from by
    unfold Dat.leavesExact; rw [liveAt1_14 t], after1_14]
  by_cases h0 : t.val % 4 = 0
  · rw [outsAt1_first V c t h0]
    unfold atFirst out1_A_14 sout1_A_0; (try dsimp only)
    by_cases hz : t.val = 0
    · rw [PhiS1_castSucc V c t, PhiS1_zero V c _ _ hz, PhiA1_eq]
      iintro ⟨⟨⟨B1, B2, B3, B4, B5, HS0, B7, B8, B9, B10, B11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_A c (grid1.coords t) _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, ⟨%es0, HS0⟩⟩
      isplitl [B1 B2 B3 B4 B5 HS0 B7 B8 B9 B10 B11 Hg]
      · isplitl [B1 B2 B3 B4 B5 HS0 B7 B8 B9 B10 B11]
        · isplitl [B1]; · iexact B1
          isplitl [B2]; · iexact B2
          isplitl [B3]; · iexact B3
          isplitl [B4]; · iexact B4
          isplitl [B5]; · iexact B5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _ _ _ _)
          isplitl [B7]; · iexact B7
          isplitl [B8]; · iexact B8
          isplitl [B9]; · iexact B9
          isplitl [B10]; · iexact B10
          iexact B11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _ _ _ _)
    · rw [PhiS1_castSucc V c t, PhiS1_pos V c _ _ hz]
      iintro ⟨⟨⟨B1, B2, B3, B4, B5, HS0, B7, B8, B9, B10, B11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_A c (grid1.coords t) _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexists _; iexact HS0
      iintro ⟨H0, H1, H2, H3, H4, H5, H6, H7, H8, H9, H10, H11, H12, H13, ⟨%e14, H14⟩, ⟨%es0, HS0⟩⟩
      isplitl [B1 B2 B3 B4 B5 HS0 B7 B8 B9 B10 B11 Hg]
      · isplitl [B1 B2 B3 B4 B5 HS0 B7 B8 B9 B10 B11]
        · isplitl [B1]; · iexact B1
          isplitl [B2]; · iexact B2
          isplitl [B3]; · iexact B3
          isplitl [B4]; · iexact B4
          isplitl [B5]; · iexact B5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _ _ _ _)
          isplitl [B7]; · iexact B7
          isplitl [B8]; · iexact B8
          isplitl [B9]; · iexact B9
          isplitl [B10]; · iexact B10
          iexact B11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _ _ _ _)
  · have hz : t.val ≠ 0 := fun e => h0 (by rw [e])
    rw [outsAt1_later V c t h0]
    unfold atLater out1_B_14; (try dsimp only)
    rw [PhiS1_castSucc V c t, PhiS1_pos V c _ _ hz]
    · iintro ⟨⟨⟨B1, B2, B3, B4, B5, HS0, B7, B8, B9, B10, B11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_B c (grid1.coords t) _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, HS0⟩
      isplitl [B1 B2 B3 B4 B5 HS0 B7 B8 B9 B10 B11 Hg]
      · isplitl [B1 B2 B3 B4 B5 HS0 B7 B8 B9 B10 B11]
        · isplitl [B1]; · iexact B1
          isplitl [B2]; · iexact B2
          isplitl [B3]; · iexact B3
          isplitl [B4]; · iexact B4
          isplitl [B5]; · iexact B5
          isplitl [HS0]
          · iexact HS0
          isplitl [B7]; · iexact B7
          isplitl [B8]; · iexact B8
          isplitl [B9]; · iexact B9
          isplitl [B10]; · iexact B10
          iexact B11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover1_B_14 c _ _ _ _ _ _ _ _ _ _ _ _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨B1, B2, B3, B4, B5, HS0, B7, B8, B9, B10, B11⟩, Hg⟩
  isplitl [B1 B2 B3 B4 B5 HS0 B7 B8 B9 B10 B11]
  · isplitl [B1]; · iexact B1
    isplitl [B2]; · iexact B2
    isplitl [B3]; · iexact B3
    isplitl [B4]; · iexact B4
    isplitl [B5]; · iexact B5
    isplitl [HS0]; · iexists _; iexact HS0
    isplitl [B7]; · iexact B7
    isplitl [B8]; · iexact B8
    isplitl [B9]; · iexact B9
    isplitl [B10]; · iexact B10
    iexact B11
  iexact Hg

theorem hout1 (c : Dev nD) : (dat1 V c).Φ (Fin.last cfg1.N) ⊢ Pipeline.ΦA spec1 c :=
  Phi_out1 V c _ (by rw [Fin.val_last]; have : cfg1.N = 64 := N_1; omega)

end Region

end Cert.Kernel.Hand

end
-- ==== Proof.Kernel.R2.lean ====
/-
  Region 2 (the output projection): one grid axis over column blocks of the result.  At a point the
  body reads the whole left operand (512 × 1024), one 512-row block of the right operand, and
  stores their product over the contracted axis (the 1024 columns of both) as one 512 × 512 block
  of the result.  This module states what the body leaves in the result's block as a function of
  the two input blocks, runs the body, and packages the per-point facts the launch needs; nothing
  is carried from one point to the next.
-/
import proofs.«151802_j67714454389137_2_alg».proof.Proof.Gen.Kernel.Launch
import proofs.«151802_j67714454389137_2_alg».proof.Proof.Gen.Kernel.Skeleton
import proofs.«151802_j67714454389137_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of an input block and of the result block. -/
abbrev rIn2 : Rect S512x1024 := Rect.unit (s := S512x1024) ![0, 0] S512x1024.size inb_S512x1024_S512x1024_0_0
abbrev rOut2 : Rect S512x512 := Rect.unit (s := S512x512) ![0, 0] S512x512.size inb_S512x512_S512x512_0_0

/-- The result block after the body: its one store, the product of the two input blocks. -/
def out2_2 (x0 : Vec F S512x1024 .f32) (x1 : Vec F S512x1024 .f32) : Vec F S512x512 .f32 :=
  View.canon [⟨rOut2, k2_pay1 (View.ld x0 rIn2) (View.ld x1 rIn2)⟩]

/-- The one store covers the block. -/
theorem cover2_2 (p0 : Vec F S512x512 .f32) (y : S512x512.Idx) :
    ∃ pc ∈ ([⟨rOut2, p0⟩] : List (View.Piece (Elt F) S512x512 .f32)), y ∈ pc.1.set :=
  View.cover_of_tiled [⟨rOut2, p0⟩] S512x512.size (by rfl) y

set_option maxHeartbeats 1000000 in
/-- The body on whole staging buffers, the inputs at `x0`, `x1` and the result's at anything, ends with
    the inputs as they were and the result's buffer at `out2_2 x0 x1`. -/
theorem sound_kernel2 (c : Dev nD) (E : Set ℕ) (i : grid2.Coords) (arg1 : Memref sig .tc .vmem S512x1024 .f32) (harg1 : arg1.IsWhole) (arg2 : Memref sig .tc .vmem S512x1024 .f32) (harg2 : arg2.IsWhole) (arg3 : Memref sig .tc .vmem S512x512 .f32) (harg3 : arg3.IsWhole)
    (x0 : Vec F S512x1024 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data: the arrays as the region finds them; after the body each input's buffer at its
    block and the result's at the product of the point's input blocks; the class-A invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.Kernel.Run.lean ====
/-
  The whole program as a run: the host stretches and the three regions in order, each entered with
  every unscoped buffer of the core at the contents the segment before left.  The contents at each
  boundary are a fold from the launch memory: a host stretch applies its operations; a region puts
  each of its arrays at what its write-backs leave and leaves every other buffer alone.  The run
  ends with every unscoped buffer read at the last boundary's contents; the frame (the argument
  arrays end as launched) is that run read at the arguments, which nothing writes.
-/
import proofs.«151802_j67714454389137_2_alg».proof.Proof.Kernel.R0
import proofs.«151802_j67714454389137_2_alg».proof.Proof.Kernel.R1
import proofs.«151802_j67714454389137_2_alg».proof.Proof.Kernel.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b

/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

abbrev W9 : Dev nD → Valuation τ sig (Elt F) := fun c => StableHlo.after hostOps3 (W8 m c)

/-! ## The proof data family and the thread state -/

abbrev hadm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) hadm p) c
  | ⟨0, _⟩ => fun c => dat0 (V1 m) c
  | ⟨1, _⟩ => fun c => dat1 (V5 m) c
  | ⟨2, _⟩ => fun c => dat2 (V7 m) c
abbrev 𝒱₀ : Variants := Variants.none
abbrev hL : GSem nD τ sig → Finset Unit := fun _ => ∅
abbrev hlv : GSem nD τ sig → Unit → ℕ := fun _ _ => 0
/-- What rides beside the buffers through every segment: the generator register at some state and the
    core owing nothing. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered with every unscoped buffer at `W1`, left with them at `W2`. -/
def reg0 : Pipeline.RegionSeg (pcfgs (F := F)) hadm (pdats m) () defs₀ 𝒱₀ hL hlv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ hL hlv 0 fun _ _ => rfl
  pre c := iprop(StableHlo.held (c : Thread nD τ) (Pipeline.ucRefs τ sig) (W1 m c) ∗ hR c)
  post c := iprop(StableHlo.held (c : Thread nD τ) (Pipeline.ucRefs τ sig) (W2 m c) ∗ hR c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. -/
def reg1 : Pipeline.RegionSeg (pcfgs (F := F)) hadm (pdats m) () defs₀ 𝒱₀ hL hlv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ hL hlv 1 fun _ _ => rfl
  pre c := iprop(StableHlo.held (c : Thread nD τ) (Pipeline.ucRefs τ sig) (W5 m c) ∗ hR c)
  post c := iprop(StableHlo.held (c : Thread nD τ) (Pipeline.ucRefs τ sig) (W6 m c) ∗ hR c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V5 m) c)
    unfold Pipeline.ΦA
    iintro ⟨Hp, -, Hr⟩
    isplitl [Hr]; · iexact Hr
    iexact Hp
  hout c := by
    rw [Pipeline.ownSems0_none]
    refine (hout1 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. -/
def reg2 : Pipeline.RegionSeg (pcfgs (F := F)) hadm (pdats m) () defs₀ 𝒱₀ hL hlv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ hL hlv 2 fun _ _ => rfl
  pre c := iprop(StableHlo.held (c : Thread nD τ) (Pipeline.ucRefs τ sig) (W7 m c) ∗ hR c)
  post c := iprop(StableHlo.held (c : Thread nD τ) (Pipeline.ucRefs τ sig) (W8 m c) ∗ hR c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) hadm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev hsegs : List (Pipeline.Seg (pcfgs (F := F)) hadm (pdats m) () defs₀ 𝒱₀ hL hlv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)) ]

theorem main_run (c : Dev nD) : main (F := F) c = Pipeline.Seg.run (hsegs m) := (main_chain c).trans (by chain_rfl)

set_option backward.isDefEq.respectTransparency.types false in
/-- Every weakly fair execution of the program from memory `m` terminates without a fault, and every
    final memory holds each unscoped buffer of each core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) hadm (pdats m) () cellOf_inj emb₁ defs₀ 𝒱₀ hL hlv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ hR c)) (Tₙ := hTₙ m)
    (hch := ⟨fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W9 m c) ∗ hR c) ⊢ iprop(hTₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach hL hlv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.Kernel.Hand

end
-- ==== Proof.Kernel.Frame.lean ====
/-
  The frame: no host operation and no region writes an argument array (a region reads it through an
  input window, whose array ends as entered, or does not touch it), so the last boundary's contents
  at an argument walk back to the launch memory; the run read at the arguments is the frame claim.
-/
import proofs.«151802_j67714454389137_2_alg».proof.Proof.Kernel.Run
import proofs.«151802_j67714454389137_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W9_main_arg0 (c : Dev nD) : W9 m c main_arg0 = m ((c : Thread nD τ).loc main_arg0) :=
  calc W9 m c main_arg0
    _ = W8 m c main_arg0 := StableHlo.after_of_writes_sub hostOps3 _ hostOps3_writes (by decide : main_arg0 ∉ hostOps3_W)
    _ = W7 m c main_arg0 := W8_of_ne m c main_arg0 (by decide)
    _ = W6 m c main_arg0 := StableHlo.after_of_writes_sub hostOps2 _ hostOps2_writes (by decide : main_arg0 ∉ hostOps2_W)
    _ = W5 m c main_arg0 := W6_of_ne m c main_arg0 (by decide)
    _ = W4 m c main_arg0 := StableHlo.after_of_writes_sub hostOps1_2 _ hostOps1_2_writes (by decide : main_arg0 ∉ hostOps1_2_W)
    _ = W3 m c main_arg0 := StableHlo.after_of_writes_sub hostOps1_1 _ hostOps1_1_writes (by decide : main_arg0 ∉ hostOps1_1_W)
    _ = W2 m c main_arg0 := StableHlo.after_of_writes_sub hostOps1 _ hostOps1_writes (by decide : main_arg0 ∉ hostOps1_W)
    _ = W1 m c main_arg0 := W2_of_ne m c main_arg0 (by decide)
    _ = W0 m c main_arg0 := StableHlo.after_of_writes_sub hostOps0 _ hostOps0_writes (by decide : main_arg0 ∉ hostOps0_W)
    _ = m ((c : Thread nD τ).loc main_arg0) := rfl

theorem W9_main_arg1 (c : Dev nD) : W9 m c main_arg1 = m ((c : Thread nD τ).loc main_arg1) :=
  calc W9 m c main_arg1
    _ = W8 m c main_arg1 := StableHlo.after_of_writes_sub hostOps3 _ hostOps3_writes (by decide : main_arg1 ∉ hostOps3_W)
    _ = W7 m c main_arg1 := W8_of_ne m c main_arg1 (by decide)
    _ = W6 m c main_arg1 := StableHlo.after_of_writes_sub hostOps2 _ hostOps2_writes (by decide : main_arg1 ∉ hostOps2_W)
    _ = W5 m c main_arg1 := W6_of_ne m c main_arg1 (by decide)
    _ = W4 m c main_arg1 := StableHlo.after_of_writes_sub hostOps1_2 _ hostOps1_2_writes (by decide : main_arg1 ∉ hostOps1_2_W)
    _ = W3 m c main_arg1 := StableHlo.after_of_writes_sub hostOps1_1 _ hostOps1_1_writes (by decide : main_arg1 ∉ hostOps1_1_W)
    _ = W2 m c main_arg1 := StableHlo.after_of_writes_sub hostOps1 _ hostOps1_writes (by decide : main_arg1 ∉ hostOps1_W)
    _ = W1 m c main_arg1 := (W2_arr m c 1).trans (((dat0 (V1 m) c).arrAt_in 1 rfl _).trans (A_eq0 (V1 m) c 1))
    _ = W0 m c main_arg1 := StableHlo.after_of_writes_sub hostOps0 _ hostOps0_writes (by decide : main_arg1 ∉ hostOps0_W)
    _ = m ((c : Thread nD τ).loc main_arg1) := rfl

theorem W9_main_arg2 (c : Dev nD) : W9 m c main_arg2 = m ((c : Thread nD τ).loc main_arg2) :=
  calc W9 m c main_arg2
    _ = W8 m c main_arg2 := StableHlo.after_of_writes_sub hostOps3 _ hostOps3_writes (by decide : main_arg2 ∉ hostOps3_W)
    _ = W7 m c main_arg2 := (W8_arr m c 1).trans (((dat2 (V7 m) c).arrAt_in 1 rfl _).trans (A_eq2 (V7 m) c 1))
    _ = W6 m c main_arg2 := StableHlo.after_of_writes_sub hostOps2 _ hostOps2_writes (by decide : main_arg2 ∉ hostOps2_W)
    _ = W5 m c main_arg2 := W6_of_ne m c main_arg2 (by decide)
    _ = W4 m c main_arg2 := StableHlo.after_of_writes_sub hostOps1_2 _ hostOps1_2_writes (by decide : main_arg2 ∉ hostOps1_2_W)
    _ = W3 m c main_arg2 := StableHlo.after_of_writes_sub hostOps1_1 _ hostOps1_1_writes (by decide : main_arg2 ∉ hostOps1_1_W)
    _ = W2 m c main_arg2 := StableHlo.after_of_writes_sub hostOps1 _ hostOps1_writes (by decide : main_arg2 ∉ hostOps1_W)
    _ = W1 m c main_arg2 := W2_of_ne m c main_arg2 (by decide)
    _ = W0 m c main_arg2 := StableHlo.after_of_writes_sub hostOps0 _ hostOps0_writes (by decide : main_arg2 ∉ hostOps0_W)
    _ = m ((c : Thread nD τ).loc main_arg2) := rfl

theorem W9_main_arg3 (c : Dev nD) : W9 m c main_arg3 = m ((c : Thread nD τ).loc main_arg3) :=
  calc W9 m c main_arg3
    _ = W8 m c main_arg3 := StableHlo.after_of_writes_sub hostOps3 _ hostOps3_writes (by decide : main_arg3 ∉ hostOps3_W)
    _ = W7 m c main_arg3 := W8_of_ne m c main_arg3 (by decide)
    _ = W6 m c main_arg3 := StableHlo.after_of_writes_sub hostOps2 _ hostOps2_writes (by decide : main_arg3 ∉ hostOps2_W)
    _ = W5 m c main_arg3 := (W6_arr m c 3).trans (((dat1 (V5 m) c).arrAt_in 3 rfl _).trans (A_eq1 (V5 m) c 3))
    _ = W4 m c main_arg3 := StableHlo.after_of_writes_sub hostOps1_2 _ hostOps1_2_writes (by decide : main_arg3 ∉ hostOps1_2_W)
    _ = W3 m c main_arg3 := StableHlo.after_of_writes_sub hostOps1_1 _ hostOps1_1_writes (by decide : main_arg3 ∉ hostOps1_1_W)
    _ = W2 m c main_arg3 := StableHlo.after_of_writes_sub hostOps1 _ hostOps1_writes (by decide : main_arg3 ∉ hostOps1_W)
    _ = W1 m c main_arg3 := W2_of_ne m c main_arg3 (by decide)
    _ = W0 m c main_arg3 := StableHlo.after_of_writes_sub hostOps0 _ hostOps0_writes (by decide : main_arg3 ∉ hostOps0_W)
    _ = m ((c : Thread nD τ).loc main_arg3) := rfl

theorem W9_main_arg4 (c : Dev nD) : W9 m c main_arg4 = m ((c : Thread nD τ).loc main_arg4) :=
  calc W9 m c main_arg4
    _ = W8 m c main_arg4 := StableHlo.after_of_writes_sub hostOps3 _ hostOps3_writes (by decide : main_arg4 ∉ hostOps3_W)
    _ = W7 m c main_arg4 := W8_of_ne m c main_arg4 (by decide)
    _ = W6 m c main_arg4 := StableHlo.after_of_writes_sub hostOps2 _ hostOps2_writes (by decide : main_arg4 ∉ hostOps2_W)
    _ = W5 m c main_arg4 := W6_of_ne m c main_arg4 (by decide)
    _ = W4 m c main_arg4 := StableHlo.after_of_writes_sub hostOps1_2 _ hostOps1_2_writes (by decide : main_arg4 ∉ hostOps1_2_W)
    _ = W3 m c main_arg4 := StableHlo.after_of_writes_sub hostOps1_1 _ hostOps1_1_writes (by decide : main_arg4 ∉ hostOps1_1_W)
    _ = W2 m c main_arg4 := StableHlo.after_of_writes_sub hostOps1 _ hostOps1_writes (by decide : main_arg4 ∉ hostOps1_W)
    _ = W1 m c main_arg4 := W2_of_ne m c main_arg4 (by decide)
    _ = W0 m c main_arg4 := StableHlo.after_of_writes_sub hostOps0 _ hostOps0_writes (by decide : main_arg4 ∉ hostOps0_W)
    _ = m ((c : Thread nD τ).loc main_arg4) := rfl

theorem W9_main_arg5 (c : Dev nD) : W9 m c main_arg5 = m ((c : Thread nD τ).loc main_arg5) :=
  calc W9 m c main_arg5
    _ = W8 m c main_arg5 := StableHlo.after_of_writes_sub hostOps3 _ hostOps3_writes (by decide : main_arg5 ∉ hostOps3_W)
    _ = W7 m c main_arg5 := W8_of_ne m c main_arg5 (by decide)
    _ = W6 m c main_arg5 := StableHlo.after_of_writes_sub hostOps2 _ hostOps2_writes (by decide : main_arg5 ∉ hostOps2_W)
    _ = W5 m c main_arg5 := (W6_arr m c 5).trans (((dat1 (V5 m) c).arrAt_in 5 rfl _).trans (A_eq1 (V5 m) c 5))
    _ = W4 m c main_arg5 := StableHlo.after_of_writes_sub hostOps1_2 _ hostOps1_2_writes (by decide : main_arg5 ∉ hostOps1_2_W)
    _ = W3 m c main_arg5 := StableHlo.after_of_writes_sub hostOps1_1 _ hostOps1_1_writes (by decide : main_arg5 ∉ hostOps1_1_W)
    _ = W2 m c main_arg5 := StableHlo.after_of_writes_sub hostOps1 _ hostOps1_writes (by decide : main_arg5 ∉ hostOps1_W)
    _ = W1 m c main_arg5 := W2_of_ne m c main_arg5 (by decide)
    _ = W0 m c main_arg5 := StableHlo.after_of_writes_sub hostOps0 _ hostOps0_writes (by decide : main_arg5 ∉ hostOps0_W)
    _ = m ((c : Thread nD τ).loc main_arg5) := rfl

theorem W9_main_arg6 (c : Dev nD) : W9 m c main_arg6 = m ((c : Thread nD τ).loc main_arg6) :=
  calc W9 m c main_arg6
    _ = W8 m c main_arg6 := StableHlo.after_of_writes_sub hostOps3 _ hostOps3_writes (by decide : main_arg6 ∉ hostOps3_W)
    _ = W7 m c main_arg6 := W8_of_ne m c main_arg6 (by decide)
    _ = W6 m c main_arg6 := StableHlo.after_of_writes_sub hostOps2 _ hostOps2_writes (by decide : main_arg6 ∉ hostOps2_W)
    _ = W5 m c main_arg6 := W6_of_ne m c main_arg6 (by decide)
    _ = W4 m c main_arg6 := StableHlo.after_of_writes_sub hostOps1_2 _ hostOps1_2_writes (by decide : main_arg6 ∉ hostOps1_2_W)
    _ = W3 m c main_arg6 := StableHlo.after_of_writes_sub hostOps1_1 _ hostOps1_1_writes (by decide : main_arg6 ∉ hostOps1_1_W)
    _ = W2 m c main_arg6 := StableHlo.after_of_writes_sub hostOps1 _ hostOps1_writes (by decide : main_arg6 ∉ hostOps1_W)
    _ = W1 m c main_arg6 := W2_of_ne m c main_arg6 (by decide)
    _ = W0 m c main_arg6 := StableHlo.after_of_writes_sub hostOps0 _ hostOps0_writes (by decide : main_arg6 ∉ hostOps0_W)
    _ = m ((c : Thread nD τ).loc main_arg6) := rfl

theorem W9_main_arg7 (c : Dev nD) : W9 m c main_arg7 = m ((c : Thread nD τ).loc main_arg7) :=
  calc W9 m c main_arg7
    _ = W8 m c main_arg7 := StableHlo.after_of_writes_sub hostOps3 _ hostOps3_writes (by decide : main_arg7 ∉ hostOps3_W)
    _ = W7 m c main_arg7 := W8_of_ne m c main_arg7 (by decide)
    _ = W6 m c main_arg7 := StableHlo.after_of_writes_sub hostOps2 _ hostOps2_writes (by decide : main_arg7 ∉ hostOps2_W)
    _ = W5 m c main_arg7 := W6_of_ne m c main_arg7 (by decide)
    _ = W4 m c main_arg7 := StableHlo.after_of_writes_sub hostOps1_2 _ hostOps1_2_writes (by decide : main_arg7 ∉ hostOps1_2_W)
    _ = W3 m c main_arg7 := StableHlo.after_of_writes_sub hostOps1_1 _ hostOps1_1_writes (by decide : main_arg7 ∉ hostOps1_1_W)
    _ = W2 m c main_arg7 := StableHlo.after_of_writes_sub hostOps1 _ hostOps1_writes (by decide : main_arg7 ∉ hostOps1_W)
    _ = W1 m c main_arg7 := W2_of_ne m c main_arg7 (by decide)
    _ = W0 m c main_arg7 := StableHlo.after_of_writes_sub hostOps0 _ hostOps0_writes (by decide : main_arg7 ∉ hostOps0_W)
    _ = m ((c : Thread nD τ).loc main_arg7) := rfl

theorem W9_main_arg8 (c : Dev nD) : W9 m c main_arg8 = m ((c : Thread nD τ).loc main_arg8) :=
  calc W9 m c main_arg8
    _ = W8 m c main_arg8 := StableHlo.after_of_writes_sub hostOps3 _ hostOps3_writes (by decide : main_arg8 ∉ hostOps3_W)
    _ = W7 m c main_arg8 := W8_of_ne m c main_arg8 (by decide)
    _ = W6 m c main_arg8 := StableHlo.after_of_writes_sub hostOps2 _ hostOps2_writes (by decide : main_arg8 ∉ hostOps2_W)
    _ = W5 m c main_arg8 := W6_of_ne m c main_arg8 (by decide)
    _ = W4 m c main_arg8 := StableHlo.after_of_writes_sub hostOps1_2 _ hostOps1_2_writes (by decide : main_arg8 ∉ hostOps1_2_W)
    _ = W3 m c main_arg8 := StableHlo.after_of_writes_sub hostOps1_1 _ hostOps1_1_writes (by decide : main_arg8 ∉ hostOps1_1_W)
    _ = W2 m c main_arg8 := StableHlo.after_of_writes_sub hostOps1 _ hostOps1_writes (by decide : main_arg8 ∉ hostOps1_W)
    _ = W1 m c main_arg8 := W2_of_ne m c main_arg8 (by decide)
    _ = W0 m c main_arg8 := StableHlo.after_of_writes_sub hostOps0 _ hostOps0_writes (by decide : main_arg8 ∉ hostOps0_W)
    _ = m ((c : Thread nD τ).loc main_arg8) := rfl

theorem W9_main_arg9 (c : Dev nD) : W9 m c main_arg9 = m ((c : Thread nD τ).loc main_arg9) :=
  calc W9 m c main_arg9
    _ = W8 m c main_arg9 := StableHlo.after_of_writes_sub hostOps3 _ hostOps3_writes (by decide : main_arg9 ∉ hostOps3_W)
    _ = W7 m c main_arg9 := W8_of_ne m c main_arg9 (by decide)
    _ = W6 m c main_arg9 := StableHlo.after_of_writes_sub hostOps2 _ hostOps2_writes (by decide : main_arg9 ∉ hostOps2_W)
    _ = W5 m c main_arg9 := W6_of_ne m c main_arg9 (by decide)
    _ = W4 m c main_arg9 := StableHlo.after_of_writes_sub hostOps1_2 _ hostOps1_2_writes (by decide : main_arg9 ∉ hostOps1_2_W)
    _ = W3 m c main_arg9 := StableHlo.after_of_writes_sub hostOps1_1 _ hostOps1_1_writes (by decide : main_arg9 ∉ hostOps1_1_W)
    _ = W2 m c main_arg9 := StableHlo.after_of_writes_sub hostOps1 _ hostOps1_writes (by decide : main_arg9 ∉ hostOps1_W)
    _ = W1 m c main_arg9 := W2_of_ne m c main_arg9 (by decide)
    _ = W0 m c main_arg9 := StableHlo.after_of_writes_sub hostOps0 _ hostOps0_writes (by decide : main_arg9 ∉ hostOps0_W)
    _ = m ((c : Thread nD τ).loc main_arg9) := rfl

theorem W9_main_arg10 (c : Dev nD) : W9 m c main_arg10 = m ((c : Thread nD τ).loc main_arg10) :=
  calc W9 m c main_arg10
    _ = W8 m c main_arg10 := StableHlo.after_of_writes_sub hostOps3 _ hostOps3_writes (by decide : main_arg10 ∉ hostOps3_W)
    _ = W7 m c main_arg10 := W8_of_ne m c main_arg10 (by decide)
    _ = W6 m c main_arg10 := StableHlo.after_of_writes_sub hostOps2 _ hostOps2_writes (by decide : main_arg10 ∉ hostOps2_W)
    _ = W5 m c main_arg10 := W6_of_ne m c main_arg10 (by decide)
    _ = W4 m c main_arg10 := StableHlo.after_of_writes_sub hostOps1_2 _ hostOps1_2_writes (by decide : main_arg10 ∉ hostOps1_2_W)
    _ = W3 m c main_arg10 := StableHlo.after_of_writes_sub hostOps1_1 _ hostOps1_1_writes (by decide : main_arg10 ∉ hostOps1_1_W)
    _ = W2 m c main_arg10 := StableHlo.after_of_writes_sub hostOps1 _ hostOps1_writes (by decide : main_arg10 ∉ hostOps1_W)
    _ = W1 m c main_arg10 := W2_of_ne m c main_arg10 (by decide)
    _ = W0 m c main_arg10 := StableHlo.after_of_writes_sub hostOps0 _ hostOps0_writes (by decide : main_arg10 ∉ hostOps0_W)
    _ = m ((c : Thread nD τ).loc main_arg10) := rfl

theorem W9_main_arg11 (c : Dev nD) : W9 m c main_arg11 = m ((c : Thread nD τ).loc main_arg11) :=
  calc W9 m c main_arg11
    _ = W8 m c main_arg11 := StableHlo.after_of_writes_sub hostOps3 _ hostOps3_writes (by decide : main_arg11 ∉ hostOps3_W)
    _ = W7 m c main_arg11 := W8_of_ne m c main_arg11 (by decide)
    _ = W6 m c main_arg11 := StableHlo.after_of_writes_sub hostOps2 _ hostOps2_writes (by decide : main_arg11 ∉ hostOps2_W)
    _ = W5 m c main_arg11 := (W6_arr m c 12).trans (((dat1 (V5 m) c).arrAt_in 12 rfl _).trans (A_eq1 (V5 m) c 12))
    _ = W4 m c main_arg11 := StableHlo.after_of_writes_sub hostOps1_2 _ hostOps1_2_writes (by decide : main_arg11 ∉ hostOps1_2_W)
    _ = W3 m c main_arg11 := StableHlo.after_of_writes_sub hostOps1_1 _ hostOps1_1_writes (by decide : main_arg11 ∉ hostOps1_1_W)
    _ = W2 m c main_arg11 := StableHlo.after_of_writes_sub hostOps1 _ hostOps1_writes (by decide : main_arg11 ∉ hostOps1_W)
    _ = W1 m c main_arg11 := W2_of_ne m c main_arg11 (by decide)
    _ = W0 m c main_arg11 := StableHlo.after_of_writes_sub hostOps0 _ hostOps0_writes (by decide : main_arg11 ∉ hostOps0_W)
    _ = m ((c : Thread nD τ).loc main_arg11) := rfl

theorem W9_main_arg12 (c : Dev nD) : W9 m c main_arg12 = m ((c : Thread nD τ).loc main_arg12) :=
  calc W9 m c main_arg12
    _ = W8 m c main_arg12 := StableHlo.after_of_writes_sub hostOps3 _ hostOps3_writes (by decide : main_arg12 ∉ hostOps3_W)
    _ = W7 m c main_arg12 := W8_of_ne m c main_arg12 (by decide)
    _ = W6 m c main_arg12 := StableHlo.after_of_writes_sub hostOps2 _ hostOps2_writes (by decide : main_arg12 ∉ hostOps2_W)
    _ = W5 m c main_arg12 := W6_of_ne m c main_arg12 (by decide)
    _ = W4 m c main_arg12 := StableHlo.after_of_writes_sub hostOps1_2 _ hostOps1_2_writes (by decide : main_arg12 ∉ hostOps1_2_W)
    _ = W3 m c main_arg12 := StableHlo.after_of_writes_sub hostOps1_1 _ hostOps1_1_writes (by decide : main_arg12 ∉ hostOps1_1_W)
    _ = W2 m c main_arg12 := StableHlo.after_of_writes_sub hostOps1 _ hostOps1_writes (by decide : main_arg12 ∉ hostOps1_W)
    _ = W1 m c main_arg12 := W2_of_ne m c main_arg12 (by decide)
    _ = W0 m c main_arg12 := StableHlo.after_of_writes_sub hostOps0 _ hostOps0_writes (by decide : main_arg12 ∉ hostOps0_W)
    _ = m ((c : Thread nD τ).loc main_arg12) := rfl

/-- Every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c),
     (h c _ (mem_uc main_arg12 (by decide))).trans (W9_main_arg12 m c)⟩) (run_all m ρ)

/-- The same run read at the result and at the arguments: the result ends at the last boundary's contents. -/
theorem run_value : θ_run defs (onTc (τ := τ) (main (F := F))) ⟨m, fun _ => 0, ρ⟩ (fun r => ∀ c : Dev nD,
      r.2.mem ((c.tc : Thread nD τ).loc main_v40) = W9 m c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v40 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c),
     (h c _ (mem_uc main_arg12 (by decide))).trans (W9_main_arg12 m c)⟩) (run_all m ρ)

end Cert.Kernel.Hand

end
-- ==== Proof.KernelIdeal.R0.lean ====
/-
  Region 0 (the qkv projection): one grid axis over column blocks of the result.  At a point the
  body reads the whole left operand (512 × 1024), one 512-row block of the right operand, and
  stores their product over the contracted axis (the 1024 columns of both) as one 512 × 512 block
  of the result.  This module states what the body leaves in the result's block as a function of
  the two input blocks, runs the body, and packages the per-point facts the launch needs; nothing
  is carried from one point to the next.
-/
import proofs.«151802_j67714454389137_2_alg».proof.Proof.Gen.KernelIdeal.Launch
import proofs.«151802_j67714454389137_2_alg».proof.Proof.Gen.KernelIdeal.Skeleton
import proofs.«151802_j67714454389137_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of an input block and of the result block. -/
abbrev rIn0 : Rect S512x1024 := Rect.unit (s := S512x1024) ![0, 0] S512x1024.size inb_S512x1024_S512x1024_0_0
abbrev rOut0 : Rect S512x512 := Rect.unit (s := S512x512) ![0, 0] S512x512.size inb_S512x512_S512x512_0_0

/-- The result block after the body: its one store, the product of the two input blocks. -/
def out0_2 (x0 : Vec F S512x1024 .f32) (x1 : Vec F S512x1024 .f32) : Vec F S512x512 .f32 :=
  View.canon [⟨rOut0, k0_pay1 (View.ld x0 rIn0) (View.ld x1 rIn0)⟩]

/-- The one store covers the block. -/
theorem cover0_2 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging buffers, the inputs at `x0`, `x1` and the result's at anything, ends with
    the inputs as they were and the result's buffer at `out0_2 x0 x1`. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x512 .f32) (harg3 : arg3.IsWhole)
    (x0 : Vec F S512x1024 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data: the arrays as the region finds them; after the body each input's buffer at its
    block and the result's at the product of the point's input blocks; the class-A invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KernelIdeal.R1Base.lean ====
/-
  Region 1 (the pairwise-MLP attention): a grid of 16 heads by 4 query tiles, run head by head.  What
  the runs of its body are stated over: the one condition the body branches on (the query tile is the
  first of its head, where the key-side projection is computed and stored into the scratch that the
  other three tiles of the head read), each window's block at a point, the staging memrefs the
  pipeline passes, and the class invariant with the carried scratch split out.
-/
import proofs.«151802_j67714454389137_2_alg».proof.Proof.Gen.KernelIdeal.Launch
import proofs.«151802_j67714454389137_2_alg».proof.Proof.Gen.KernelIdeal.Skeleton
import proofs.«151802_j67714454389137_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition from the grid coordinates: the query-tile coordinate is zero. -/
abbrev cond1_0 (i : grid1.Coords) : Prop := (Scalar.cmpi .ne (Scalar.extui (Scalar.cmpi .eq (BitVec.ofNat 32 (i 1).val) 0#32)) 0#32) = 1#1
/-- It holds at the first of every four consecutive points. -/
theorem hcond1_0 : ∀ t : Fin cfg1.N, cond1_0 (grid1.coords t) ↔ t.val % 4 = 0 :=
  (by decide +kernel : ∀ t : Fin grid1.N, cond1_0 (grid1.coords t) ↔ t.val % 4 = 0)

/-- No window of the region is idle anywhere. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem liveAt1_11 : ∀ t : Fin cfg1.N, cfg1.idle 11 (grid1.coords t) = false := by decide +kernel
theorem liveAt1_12 : ∀ t : Fin cfg1.N, cfg1.idle 12 (grid1.coords t) = false := by decide +kernel
theorem liveAt1_13 : ∀ t : Fin cfg1.N, cfg1.idle 13 (grid1.coords t) = false := by decide +kernel
theorem liveAt1_14 : ∀ t : Fin cfg1.N, cfg1.idle 14 (grid1.coords t) = false := by decide +kernel

/-- Each window's current staging memref at point `t`, as the pipeline passes it, and its wholeness. -/
abbrev ms1_0 (t : Fin cfg1.N) : Memref sig .tc .vmem S1x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x16 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x1 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x128x64 .f32 := win1_14.stage (cfg1.slots t 14)
abbrev hs1_14 (t : Fin cfg1.N) : (ms1_14 t).IsWhole := hstage1_14 ((cfg1.slots t 14).cast nbuf1_14)
/-- The scratch operand: a whole scoped buffer of the kernel's own. -/
abbrev scM1_0 : Memref sig .tc .vmem S512x32 .f32 := Memref.whole cc1_scratch0
/-- Views through which the output block's and the scratch's contents are stated. -/
abbrev VO1_14 : View sig .tc .vmem S1x128x64 .f32 := (Memref.whole cc1_stg14_0 : Memref sig .tc .vmem S1x128x64 .f32).view
abbrev VS1_0 : View sig .tc .vmem S512x32 .f32 := scM1_0.view

/-- The scoped buffers of the core that are neither a staging buffer of this region nor its scratch. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

end Region

end Cert.KernelIdeal.Hand

end
-- ==== Proof.KernelIdeal.R1RunA.lean ====
/-
  The whole body of region 1 run once, at the first query tile of a head: the branch is taken, the key-side projection is stored over the whole scratch (whatever it held) and read back.
  The pieces the output block ends with and the pieces the scratch ends with are found by the run.
-/
import proofs.«151802_j67714454389137_2_alg».proof.Proof.KernelIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i)
    (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) :
    Σ' (L14 : List (View.Piece (Elt F) S1x128x64 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc1__attn_mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1__attn_mlp_kernel_eq_skeleton]; unfold cc1__attn_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    iexists _; iexact HS0

end Cert.KernelIdeal.Hand

end
-- ==== Proof.KernelIdeal.R1RunB.lean ====
/-
  The whole body of region 1 run once, at a later query tile of a head: the branch is not taken, the scratch is only read, at what the tile before left in it.
  The pieces the output block ends with are found by the run.
-/
import proofs.«151802_j67714454389137_2_alg».proof.Proof.KernelIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : ¬cond1_0 i)
    (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (xs0 : Vec F S512x32 .f32) :
    { L14 : List (View.Piece (Elt F) S1x128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ owns (c : Thread nD τ) arg17 fullShare xs0) -∗ K ⟨⟩))
          ⊢ wp frame (wpE (defs₀ (F := F)) Variants.none c none) E (cc1__attn_mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc1__attn_mlp_kernel_eq_skeleton]; unfold cc1__attn_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    iexists _; isplitr; · ipureintro; exact harg17.read_unread _
    iexact HS0

end Cert.KernelIdeal.Hand

end
-- ==== Proof.KernelIdeal.R1.lean ====
/-
  Region 1, point by point.  At the first query tile of a head the body stores the head's key-side
  projection into the scratch and every tile reads it; so after position n the scratch holds what
  the last first-tile at or before n stored, and the output block holds the tile's attention output
  computed from the point's blocks and that scratch.  The invariant between points carries the
  scratch at exactly these contents (before the first point: at anything); the body obligation at a
  point applies the run of the point's case.
-/
import proofs.«151802_j67714454389137_2_alg».proof.Proof.KernelIdeal.R1RunA
import proofs.«151802_j67714454389137_2_alg».proof.Proof.KernelIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem cover1_A_14 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (y : S1x128x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).1 S1x128x64.size (by sl_kernel_rfl) y

/-- The output block after a first-tile point: its pieces read back. -/
def out1_A_14 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) : Vec F S1x128x64 .f32 :=
  VO1_14.read (Elt F) (VO1_14.writes (Elt F) VO1_14.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).1)

theorem scover1_A_0 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (y : S512x32.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).2.1 S512x32.size (by sl_kernel_rfl) y

/-- The scratch after a first-tile point: its pieces read back. -/
def sout1_A_0 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) : Vec F S512x32 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13).2.1)

theorem cover1_B_14 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : ¬cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (xs0 : Vec F S512x32 .f32) (y : S1x128x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs0).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs0).1 S1x128x64.size (by sl_kernel_rfl) y

/-- The output block after a later-tile point, the scratch at `xs0`: its pieces read back. -/
def out1_B_14 (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : ¬cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (xs0 : Vec F S512x32 .f32) : Vec F S1x128x64 .f32 :=
  VO1_14.read (Elt F) (VO1_14.writes (Elt F) VO1_14.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs0).1)

section Region
variable (V : (c : Dev nD) → (b : Ref sig .tc) → Buf (Elt F) ((c : Thread nD τ).loc b))

/-! ## What the output block and the scratch hold after each point -/

/-- A first-tile point: the output block and the scratch from the point's blocks. -/
def atFirst (c : Dev nD) (t : Fin cfg1.N) (h : cond1_0 (grid1.coords t)) : Vec F S1x128x64 .f32 × Vec F S512x32 .f32 :=
  (out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t))

/-- A later-tile point: the output block from the point's blocks and the scratch as found, which stays. -/
def atLater (c : Dev nD) (t : Fin cfg1.N) (h : ¬cond1_0 (grid1.coords t)) (xs : Vec F S512x32 .f32) : Vec F S1x128x64 .f32 × Vec F S512x32 .f32 :=
  (out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) xs, xs)

/-- The accumulation over positions. -/
def outsAt1 (c : Dev nD) : (n : ℕ) → n < cfg1.N → Vec F S1x128x64 .f32 × Vec F S512x32 .f32
  | 0, hn => atFirst V c ⟨0, hn⟩ ((hcond1_0 ⟨0, hn⟩).mpr (Nat.zero_mod _))
  | n + 1, hn =>
    if h0 : (n + 1) % 4 = 0 then atFirst V c ⟨n + 1, hn⟩ ((hcond1_0 ⟨n + 1, hn⟩).mpr h0)
    else atLater V c ⟨n + 1, hn⟩ (fun h => h0 ((hcond1_0 ⟨n + 1, hn⟩).mp h)) (outsAt1 c n (Nat.lt_of_succ_lt hn)).2

theorem outsAt1_first (c : Dev nD) (t : Fin cfg1.N) (h0 : t.val % 4 = 0) :
    outsAt1 V c t.val t.isLt = atFirst V c t ((hcond1_0 t).mpr h0) := by
  obtain ⟨n, hn⟩ := t
  cases n with
  | zero => rfl
  | succ n => exact dif_pos h0

theorem outsAt1_later (c : Dev nD) (t : Fin cfg1.N) (h0 : ¬t.val % 4 = 0) :
    outsAt1 V c t.val t.isLt = atLater V c t (fun h => h0 ((hcond1_0 t).mp h)) (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-! ## The invariant between points -/

/-- The class invariant with the scratch split out of the scoped buffers. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  unfold Pipeline.ΦA; rw [scopedRest1_eq]; simp only [scM1_0, owns_whole]; try rfl

/-- Before position `n`: before the first point the class invariant; afterwards the same with the
    scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  rw [show (dat1 V c).leavesExact 12 t = owns (c : Thread nD τ) (ms1_12 t) fullShare ((dat1 V c).after 12 t) from by
    unfold Dat.leavesExact; rw [liveAt1_12 t], after1_12]
  rw [show (dat1 V c).leavesExact 13 t = owns (c : Thread nD τ) (ms1_13 t) fullShare ((dat1 V c).after 13 t) from by
    unfold Dat.leavesExact; rw [liveAt1_13 t], after1_13]
  rw [show (dat1 V c).leavesExact 14 t = owns (c : Thread nD τ) (ms1_14 t) fullShare ((dat1 V c).after 14 t) from by
    unfold Dat.leavesExact; rw [liveAt1_14 t], after1_14]
  by_cases h0 : t.val % 4 = 0
  · rw [outsAt1_first V c t h0]
    unfold atFirst out1_A_14 sout1_A_0; (try dsimp only)
    by_cases hz : t.val = 0
    · rw [PhiS1_castSucc V c t, PhiS1_zero V c _ _ hz, PhiA1_eq]
      iintro ⟨⟨⟨B1, B2, B3, B4, B5, HS0, B7, B8, B9, B10, B11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_A c (grid1.coords t) _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, ⟨%es0, HS0⟩⟩
      isplitl [B1 B2 B3 B4 B5 HS0 B7 B8 B9 B10 B11 Hg]
      · isplitl [B1 B2 B3 B4 B5 HS0 B7 B8 B9 B10 B11]
        · isplitl [B1]; · iexact B1
          isplitl [B2]; · iexact B2
          isplitl [B3]; · iexact B3
          isplitl [B4]; · iexact B4
          isplitl [B5]; · iexact B5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _ _ _ _)
          isplitl [B7]; · iexact B7
          isplitl [B8]; · iexact B8
          isplitl [B9]; · iexact B9
          isplitl [B10]; · iexact B10
          iexact B11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _ _ _ _)
    · rw [PhiS1_castSucc V c t, PhiS1_pos V c _ _ hz]
      iintro ⟨⟨⟨B1, B2, B3, B4, B5, HS0, B7, B8, B9, B10, B11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_A c (grid1.coords t) _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexists _; iexact HS0
      iintro ⟨H0, H1, H2, H3, H4, H5, H6, H7, H8, H9, H10, H11, H12, H13, ⟨%e14, H14⟩, ⟨%es0, HS0⟩⟩
      isplitl [B1 B2 B3 B4 B5 HS0 B7 B8 B9 B10 B11 Hg]
      · isplitl [B1 B2 B3 B4 B5 HS0 B7 B8 B9 B10 B11]
        · isplitl [B1]; · iexact B1
          isplitl [B2]; · iexact B2
          isplitl [B3]; · iexact B3
          isplitl [B4]; · iexact B4
          isplitl [B5]; · iexact B5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _ _ _ _)
          isplitl [B7]; · iexact B7
          isplitl [B8]; · iexact B8
          isplitl [B9]; · iexact B9
          isplitl [B10]; · iexact B10
          iexact B11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _ _ _ _)
  · have hz : t.val ≠ 0 := fun e => h0 (by rw [e])
    rw [outsAt1_later V c t h0]
    unfold atLater out1_B_14; (try dsimp only)
    rw [PhiS1_castSucc V c t, PhiS1_pos V c _ _ hz]
    · iintro ⟨⟨⟨B1, B2, B3, B4, B5, HS0, B7, B8, B9, B10, B11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_B c (grid1.coords t) _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, HS0⟩
      isplitl [B1 B2 B3 B4 B5 HS0 B7 B8 B9 B10 B11 Hg]
      · isplitl [B1 B2 B3 B4 B5 HS0 B7 B8 B9 B10 B11]
        · isplitl [B1]; · iexact B1
          isplitl [B2]; · iexact B2
          isplitl [B3]; · iexact B3
          isplitl [B4]; · iexact B4
          isplitl [B5]; · iexact B5
          isplitl [HS0]
          · iexact HS0
          isplitl [B7]; · iexact B7
          isplitl [B8]; · iexact B8
          isplitl [B9]; · iexact B9
          isplitl [B10]; · iexact B10
          iexact B11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover1_B_14 c _ _ _ _ _ _ _ _ _ _ _ _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨B1, B2, B3, B4, B5, HS0, B7, B8, B9, B10, B11⟩, Hg⟩
  isplitl [B1 B2 B3 B4 B5 HS0 B7 B8 B9 B10 B11]
  · isplitl [B1]; · iexact B1
    isplitl [B2]; · iexact B2
    isplitl [B3]; · iexact B3
    isplitl [B4]; · iexact B4
    isplitl [B5]; · iexact B5
    isplitl [HS0]; · iexists _; iexact HS0
    isplitl [B7]; · iexact B7
    isplitl [B8]; · iexact B8
    isplitl [B9]; · iexact B9
    isplitl [B10]; · iexact B10
    iexact B11
  iexact Hg

theorem hout1 (c : Dev nD) : (dat1 V c).Φ (Fin.last cfg1.N) ⊢ Pipeline.ΦA spec1 c :=
  Phi_out1 V c _ (by rw [Fin.val_last]; have : cfg1.N = 64 := N_1; omega)

end Region

end Cert.KernelIdeal.Hand

end
-- ==== Proof.KernelIdeal.R2.lean ====
/-
  Region 2 (the output projection): one grid axis over column blocks of the result.  At a point the
  body reads the whole left operand (512 × 1024), one 512-row block of the right operand, and
  stores their product over the contracted axis (the 1024 columns of both) as one 512 × 512 block
  of the result.  This module states what the body leaves in the result's block as a function of
  the two input blocks, runs the body, and packages the per-point facts the launch needs; nothing
  is carried from one point to the next.
-/
import proofs.«151802_j67714454389137_2_alg».proof.Proof.Gen.KernelIdeal.Launch
import proofs.«151802_j67714454389137_2_alg».proof.Proof.Gen.KernelIdeal.Skeleton
import proofs.«151802_j67714454389137_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of an input block and of the result block. -/
abbrev rIn2 : Rect S512x1024 := Rect.unit (s := S512x1024) ![0, 0] S512x1024.size inb_S512x1024_S512x1024_0_0
abbrev rOut2 : Rect S512x512 := Rect.unit (s := S512x512) ![0, 0] S512x512.size inb_S512x512_S512x512_0_0

/-- The result block after the body: its one store, the product of the two input blocks. -/
def out2_2 (x0 : Vec F S512x1024 .f32) (x1 : Vec F S512x1024 .f32) : Vec F S512x512 .f32 :=
  View.canon [⟨rOut2, k2_pay1 (View.ld x0 rIn2) (View.ld x1 rIn2)⟩]

/-- The one store covers the block. -/
theorem cover2_2 (p0 : Vec F S512x512 .f32) (y : S512x512.Idx) :
    ∃ pc ∈ ([⟨rOut2, p0⟩] : List (View.Piece (Elt F) S512x512 .f32)), y ∈ pc.1.set :=
  View.cover_of_tiled [⟨rOut2, p0⟩] S512x512.size (by rfl) y

set_option maxHeartbeats 1000000 in
/-- The body on whole staging buffers, the inputs at `x0`, `x1` and the result's at anything, ends with
    the inputs as they were and the result's buffer at `out2_2 x0 x1`. -/
theorem sound_kernel2 (c : Dev nD) (E : Set ℕ) (i : grid2.Coords) (arg1 : Memref sig .tc .vmem S512x1024 .f32) (harg1 : arg1.IsWhole) (arg2 : Memref sig .tc .vmem S512x1024 .f32) (harg2 : arg2.IsWhole) (arg3 : Memref sig .tc .vmem S512x512 .f32) (harg3 : arg3.IsWhole)
    (x0 : Vec F S512x1024 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data: the arrays as the region finds them; after the body each input's buffer at its
    block and the result's at the product of the point's input blocks; the class-A invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KernelIdeal.Run.lean ====
/-
  The whole program as a run: the host stretches and the three regions in order, each entered with
  every unscoped buffer of the core at the contents the segment before left.  The contents at each
  boundary are a fold from the launch memory: a host stretch applies its operations; a region puts
  each of its arrays at what its write-backs leave and leaves every other buffer alone.  The run
  ends with every unscoped buffer read at the last boundary's contents; the frame (the argument
  arrays end as launched) is that run read at the arguments, which nothing writes.
-/
import proofs.«151802_j67714454389137_2_alg».proof.Proof.KernelIdeal.R0
import proofs.«151802_j67714454389137_2_alg».proof.Proof.KernelIdeal.R1
import proofs.«151802_j67714454389137_2_alg».proof.Proof.KernelIdeal.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b

/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

abbrev W9 : Dev nD → Valuation τ sig (Elt F) := fun c => StableHlo.after hostOps3 (W8 m c)

/-! ## The proof data family and the thread state -/

abbrev hadm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) hadm p) c
  | ⟨0, _⟩ => fun c => dat0 (V1 m) c
  | ⟨1, _⟩ => fun c => dat1 (V5 m) c
  | ⟨2, _⟩ => fun c => dat2 (V7 m) c
abbrev 𝒱₀ : Variants := Variants.none
abbrev hL : GSem nD τ sig → Finset Unit := fun _ => ∅
abbrev hlv : GSem nD τ sig → Unit → ℕ := fun _ _ => 0
/-- What rides beside the buffers through every segment: the generator register at some state and the
    core owing nothing. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered with every unscoped buffer at `W1`, left with them at `W2`. -/
def reg0 : Pipeline.RegionSeg (pcfgs (F := F)) hadm (pdats m) () defs₀ 𝒱₀ hL hlv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ hL hlv 0 fun _ _ => rfl
  pre c := iprop(StableHlo.held (c : Thread nD τ) (Pipeline.ucRefs τ sig) (W1 m c) ∗ hR c)
  post c := iprop(StableHlo.held (c : Thread nD τ) (Pipeline.ucRefs τ sig) (W2 m c) ∗ hR c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. -/
def reg1 : Pipeline.RegionSeg (pcfgs (F := F)) hadm (pdats m) () defs₀ 𝒱₀ hL hlv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ hL hlv 1 fun _ _ => rfl
  pre c := iprop(StableHlo.held (c : Thread nD τ) (Pipeline.ucRefs τ sig) (W5 m c) ∗ hR c)
  post c := iprop(StableHlo.held (c : Thread nD τ) (Pipeline.ucRefs τ sig) (W6 m c) ∗ hR c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V5 m) c)
    unfold Pipeline.ΦA
    iintro ⟨Hp, -, Hr⟩
    isplitl [Hr]; · iexact Hr
    iexact Hp
  hout c := by
    rw [Pipeline.ownSems0_none]
    refine (hout1 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. -/
def reg2 : Pipeline.RegionSeg (pcfgs (F := F)) hadm (pdats m) () defs₀ 𝒱₀ hL hlv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ hL hlv 2 fun _ _ => rfl
  pre c := iprop(StableHlo.held (c : Thread nD τ) (Pipeline.ucRefs τ sig) (W7 m c) ∗ hR c)
  post c := iprop(StableHlo.held (c : Thread nD τ) (Pipeline.ucRefs τ sig) (W8 m c) ∗ hR c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) hadm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev hsegs : List (Pipeline.Seg (pcfgs (F := F)) hadm (pdats m) () defs₀ 𝒱₀ hL hlv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)) ]

theorem main_run (c : Dev nD) : main (F := F) c = Pipeline.Seg.run (hsegs m) := (main_chain c).trans (by chain_rfl)

set_option backward.isDefEq.respectTransparency.types false in
/-- Every weakly fair execution of the program from memory `m` terminates without a fault, and every
    final memory holds each unscoped buffer of each core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) hadm (pdats m) () cellOf_inj emb₁ defs₀ 𝒱₀ hL hlv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ hR c)) (Tₙ := hTₙ m)
    (hch := ⟨fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W9 m c) ∗ hR c) ⊢ iprop(hTₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach hL hlv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.KernelIdeal.Hand

end
-- ==== Proof.KernelIdeal.Frame.lean ====
/-
  The frame: no host operation and no region writes an argument array (a region reads it through an
  input window, whose array ends as entered, or does not touch it), so the last boundary's contents
  at an argument walk back to the launch memory; the run read at the arguments is the frame claim.
-/
import proofs.«151802_j67714454389137_2_alg».proof.Proof.KernelIdeal.Run
import proofs.«151802_j67714454389137_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W9_main_arg0 (c : Dev nD) : W9 m c main_arg0 = m ((c : Thread nD τ).loc main_arg0) :=
  calc W9 m c main_arg0
    _ = W8 m c main_arg0 := StableHlo.after_of_writes_sub hostOps3 _ hostOps3_writes (by decide : main_arg0 ∉ hostOps3_W)
    _ = W7 m c main_arg0 := W8_of_ne m c main_arg0 (by decide)
    _ = W6 m c main_arg0 := StableHlo.after_of_writes_sub hostOps2 _ hostOps2_writes (by decide : main_arg0 ∉ hostOps2_W)
    _ = W5 m c main_arg0 := W6_of_ne m c main_arg0 (by decide)
    _ = W4 m c main_arg0 := StableHlo.after_of_writes_sub hostOps1_2 _ hostOps1_2_writes (by decide : main_arg0 ∉ hostOps1_2_W)
    _ = W3 m c main_arg0 := StableHlo.after_of_writes_sub hostOps1_1 _ hostOps1_1_writes (by decide : main_arg0 ∉ hostOps1_1_W)
    _ = W2 m c main_arg0 := StableHlo.after_of_writes_sub hostOps1 _ hostOps1_writes (by decide : main_arg0 ∉ hostOps1_W)
    _ = W1 m c main_arg0 := W2_of_ne m c main_arg0 (by decide)
    _ = W0 m c main_arg0 := StableHlo.after_of_writes_sub hostOps0 _ hostOps0_writes (by decide : main_arg0 ∉ hostOps0_W)
    _ = m ((c : Thread nD τ).loc main_arg0) := rfl

theorem W9_main_arg1 (c : Dev nD) : W9 m c main_arg1 = m ((c : Thread nD τ).loc main_arg1) :=
  calc W9 m c main_arg1
    _ = W8 m c main_arg1 := StableHlo.after_of_writes_sub hostOps3 _ hostOps3_writes (by decide : main_arg1 ∉ hostOps3_W)
    _ = W7 m c main_arg1 := W8_of_ne m c main_arg1 (by decide)
    _ = W6 m c main_arg1 := StableHlo.after_of_writes_sub hostOps2 _ hostOps2_writes (by decide : main_arg1 ∉ hostOps2_W)
    _ = W5 m c main_arg1 := W6_of_ne m c main_arg1 (by decide)
    _ = W4 m c main_arg1 := StableHlo.after_of_writes_sub hostOps1_2 _ hostOps1_2_writes (by decide : main_arg1 ∉ hostOps1_2_W)
    _ = W3 m c main_arg1 := StableHlo.after_of_writes_sub hostOps1_1 _ hostOps1_1_writes (by decide : main_arg1 ∉ hostOps1_1_W)
    _ = W2 m c main_arg1 := StableHlo.after_of_writes_sub hostOps1 _ hostOps1_writes (by decide : main_arg1 ∉ hostOps1_W)
    _ = W1 m c main_arg1 := (W2_arr m c 1).trans (((dat0 (V1 m) c).arrAt_in 1 rfl _).trans (A_eq0 (V1 m) c 1))
    _ = W0 m c main_arg1 := StableHlo.after_of_writes_sub hostOps0 _ hostOps0_writes (by decide : main_arg1 ∉ hostOps0_W)
    _ = m ((c : Thread nD τ).loc main_arg1) := rfl

theorem W9_main_arg2 (c : Dev nD) : W9 m c main_arg2 = m ((c : Thread nD τ).loc main_arg2) :=
  calc W9 m c main_arg2
    _ = W8 m c main_arg2 := StableHlo.after_of_writes_sub hostOps3 _ hostOps3_writes (by decide : main_arg2 ∉ hostOps3_W)
    _ = W7 m c main_arg2 := (W8_arr m c 1).trans (((dat2 (V7 m) c).arrAt_in 1 rfl _).trans (A_eq2 (V7 m) c 1))
    _ = W6 m c main_arg2 := StableHlo.after_of_writes_sub hostOps2 _ hostOps2_writes (by decide : main_arg2 ∉ hostOps2_W)
    _ = W5 m c main_arg2 := W6_of_ne m c main_arg2 (by decide)
    _ = W4 m c main_arg2 := StableHlo.after_of_writes_sub hostOps1_2 _ hostOps1_2_writes (by decide : main_arg2 ∉ hostOps1_2_W)
    _ = W3 m c main_arg2 := StableHlo.after_of_writes_sub hostOps1_1 _ hostOps1_1_writes (by decide : main_arg2 ∉ hostOps1_1_W)
    _ = W2 m c main_arg2 := StableHlo.after_of_writes_sub hostOps1 _ hostOps1_writes (by decide : main_arg2 ∉ hostOps1_W)
    _ = W1 m c main_arg2 := W2_of_ne m c main_arg2 (by decide)
    _ = W0 m c main_arg2 := StableHlo.after_of_writes_sub hostOps0 _ hostOps0_writes (by decide : main_arg2 ∉ hostOps0_W)
    _ = m ((c : Thread nD τ).loc main_arg2) := rfl

theorem W9_main_arg3 (c : Dev nD) : W9 m c main_arg3 = m ((c : Thread nD τ).loc main_arg3) :=
  calc W9 m c main_arg3
    _ = W8 m c main_arg3 := StableHlo.after_of_writes_sub hostOps3 _ hostOps3_writes (by decide : main_arg3 ∉ hostOps3_W)
    _ = W7 m c main_arg3 := W8_of_ne m c main_arg3 (by decide)
    _ = W6 m c main_arg3 := StableHlo.after_of_writes_sub hostOps2 _ hostOps2_writes (by decide : main_arg3 ∉ hostOps2_W)
    _ = W5 m c main_arg3 := (W6_arr m c 3).trans (((dat1 (V5 m) c).arrAt_in 3 rfl _).trans (A_eq1 (V5 m) c 3))
    _ = W4 m c main_arg3 := StableHlo.after_of_writes_sub hostOps1_2 _ hostOps1_2_writes (by decide : main_arg3 ∉ hostOps1_2_W)
    _ = W3 m c main_arg3 := StableHlo.after_of_writes_sub hostOps1_1 _ hostOps1_1_writes (by decide : main_arg3 ∉ hostOps1_1_W)
    _ = W2 m c main_arg3 := StableHlo.after_of_writes_sub hostOps1 _ hostOps1_writes (by decide : main_arg3 ∉ hostOps1_W)
    _ = W1 m c main_arg3 := W2_of_ne m c main_arg3 (by decide)
    _ = W0 m c main_arg3 := StableHlo.after_of_writes_sub hostOps0 _ hostOps0_writes (by decide : main_arg3 ∉ hostOps0_W)
    _ = m ((c : Thread nD τ).loc main_arg3) := rfl

theorem W9_main_arg4 (c : Dev nD) : W9 m c main_arg4 = m ((c : Thread nD τ).loc main_arg4) :=
  calc W9 m c main_arg4
    _ = W8 m c main_arg4 := StableHlo.after_of_writes_sub hostOps3 _ hostOps3_writes (by decide : main_arg4 ∉ hostOps3_W)
    _ = W7 m c main_arg4 := W8_of_ne m c main_arg4 (by decide)
    _ = W6 m c main_arg4 := StableHlo.after_of_writes_sub hostOps2 _ hostOps2_writes (by decide : main_arg4 ∉ hostOps2_W)
    _ = W5 m c main_arg4 := W6_of_ne m c main_arg4 (by decide)
    _ = W4 m c main_arg4 := StableHlo.after_of_writes_sub hostOps1_2 _ hostOps1_2_writes (by decide : main_arg4 ∉ hostOps1_2_W)
    _ = W3 m c main_arg4 := StableHlo.after_of_writes_sub hostOps1_1 _ hostOps1_1_writes (by decide : main_arg4 ∉ hostOps1_1_W)
    _ = W2 m c main_arg4 := StableHlo.after_of_writes_sub hostOps1 _ hostOps1_writes (by decide : main_arg4 ∉ hostOps1_W)
    _ = W1 m c main_arg4 := W2_of_ne m c main_arg4 (by decide)
    _ = W0 m c main_arg4 := StableHlo.after_of_writes_sub hostOps0 _ hostOps0_writes (by decide : main_arg4 ∉ hostOps0_W)
    _ = m ((c : Thread nD τ).loc main_arg4) := rfl

theorem W9_main_arg5 (c : Dev nD) : W9 m c main_arg5 = m ((c : Thread nD τ).loc main_arg5) :=
  calc W9 m c main_arg5
    _ = W8 m c main_arg5 := StableHlo.after_of_writes_sub hostOps3 _ hostOps3_writes (by decide : main_arg5 ∉ hostOps3_W)
    _ = W7 m c main_arg5 := W8_of_ne m c main_arg5 (by decide)
    _ = W6 m c main_arg5 := StableHlo.after_of_writes_sub hostOps2 _ hostOps2_writes (by decide : main_arg5 ∉ hostOps2_W)
    _ = W5 m c main_arg5 := (W6_arr m c 5).trans (((dat1 (V5 m) c).arrAt_in 5 rfl _).trans (A_eq1 (V5 m) c 5))
    _ = W4 m c main_arg5 := StableHlo.after_of_writes_sub hostOps1_2 _ hostOps1_2_writes (by decide : main_arg5 ∉ hostOps1_2_W)
    _ = W3 m c main_arg5 := StableHlo.after_of_writes_sub hostOps1_1 _ hostOps1_1_writes (by decide : main_arg5 ∉ hostOps1_1_W)
    _ = W2 m c main_arg5 := StableHlo.after_of_writes_sub hostOps1 _ hostOps1_writes (by decide : main_arg5 ∉ hostOps1_W)
    _ = W1 m c main_arg5 := W2_of_ne m c main_arg5 (by decide)
    _ = W0 m c main_arg5 := StableHlo.after_of_writes_sub hostOps0 _ hostOps0_writes (by decide : main_arg5 ∉ hostOps0_W)
    _ = m ((c : Thread nD τ).loc main_arg5) := rfl

theorem W9_main_arg6 (c : Dev nD) : W9 m c main_arg6 = m ((c : Thread nD τ).loc main_arg6) :=
  calc W9 m c main_arg6
    _ = W8 m c main_arg6 := StableHlo.after_of_writes_sub hostOps3 _ hostOps3_writes (by decide : main_arg6 ∉ hostOps3_W)
    _ = W7 m c main_arg6 := W8_of_ne m c main_arg6 (by decide)
    _ = W6 m c main_arg6 := StableHlo.after_of_writes_sub hostOps2 _ hostOps2_writes (by decide : main_arg6 ∉ hostOps2_W)
    _ = W5 m c main_arg6 := W6_of_ne m c main_arg6 (by decide)
    _ = W4 m c main_arg6 := StableHlo.after_of_writes_sub hostOps1_2 _ hostOps1_2_writes (by decide : main_arg6 ∉ hostOps1_2_W)
    _ = W3 m c main_arg6 := StableHlo.after_of_writes_sub hostOps1_1 _ hostOps1_1_writes (by decide : main_arg6 ∉ hostOps1_1_W)
    _ = W2 m c main_arg6 := StableHlo.after_of_writes_sub hostOps1 _ hostOps1_writes (by decide : main_arg6 ∉ hostOps1_W)
    _ = W1 m c main_arg6 := W2_of_ne m c main_arg6 (by decide)
    _ = W0 m c main_arg6 := StableHlo.after_of_writes_sub hostOps0 _ hostOps0_writes (by decide : main_arg6 ∉ hostOps0_W)
    _ = m ((c : Thread nD τ).loc main_arg6) := rfl

theorem W9_main_arg7 (c : Dev nD) : W9 m c main_arg7 = m ((c : Thread nD τ).loc main_arg7) :=
  calc W9 m c main_arg7
    _ = W8 m c main_arg7 := StableHlo.after_of_writes_sub hostOps3 _ hostOps3_writes (by decide : main_arg7 ∉ hostOps3_W)
    _ = W7 m c main_arg7 := W8_of_ne m c main_arg7 (by decide)
    _ = W6 m c main_arg7 := StableHlo.after_of_writes_sub hostOps2 _ hostOps2_writes (by decide : main_arg7 ∉ hostOps2_W)
    _ = W5 m c main_arg7 := W6_of_ne m c main_arg7 (by decide)
    _ = W4 m c main_arg7 := StableHlo.after_of_writes_sub hostOps1_2 _ hostOps1_2_writes (by decide : main_arg7 ∉ hostOps1_2_W)
    _ = W3 m c main_arg7 := StableHlo.after_of_writes_sub hostOps1_1 _ hostOps1_1_writes (by decide : main_arg7 ∉ hostOps1_1_W)
    _ = W2 m c main_arg7 := StableHlo.after_of_writes_sub hostOps1 _ hostOps1_writes (by decide : main_arg7 ∉ hostOps1_W)
    _ = W1 m c main_arg7 := W2_of_ne m c main_arg7 (by decide)
    _ = W0 m c main_arg7 := StableHlo.after_of_writes_sub hostOps0 _ hostOps0_writes (by decide : main_arg7 ∉ hostOps0_W)
    _ = m ((c : Thread nD τ).loc main_arg7) := rfl

theorem W9_main_arg8 (c : Dev nD) : W9 m c main_arg8 = m ((c : Thread nD τ).loc main_arg8) :=
  calc W9 m c main_arg8
    _ = W8 m c main_arg8 := StableHlo.after_of_writes_sub hostOps3 _ hostOps3_writes (by decide : main_arg8 ∉ hostOps3_W)
    _ = W7 m c main_arg8 := W8_of_ne m c main_arg8 (by decide)
    _ = W6 m c main_arg8 := StableHlo.after_of_writes_sub hostOps2 _ hostOps2_writes (by decide : main_arg8 ∉ hostOps2_W)
    _ = W5 m c main_arg8 := W6_of_ne m c main_arg8 (by decide)
    _ = W4 m c main_arg8 := StableHlo.after_of_writes_sub hostOps1_2 _ hostOps1_2_writes (by decide : main_arg8 ∉ hostOps1_2_W)
    _ = W3 m c main_arg8 := StableHlo.after_of_writes_sub hostOps1_1 _ hostOps1_1_writes (by decide : main_arg8 ∉ hostOps1_1_W)
    _ = W2 m c main_arg8 := StableHlo.after_of_writes_sub hostOps1 _ hostOps1_writes (by decide : main_arg8 ∉ hostOps1_W)
    _ = W1 m c main_arg8 := W2_of_ne m c main_arg8 (by decide)
    _ = W0 m c main_arg8 := StableHlo.after_of_writes_sub hostOps0 _ hostOps0_writes (by decide : main_arg8 ∉ hostOps0_W)
    _ = m ((c : Thread nD τ).loc main_arg8) := rfl

theorem W9_main_arg9 (c : Dev nD) : W9 m c main_arg9 = m ((c : Thread nD τ).loc main_arg9) :=
  calc W9 m c main_arg9
    _ = W8 m c main_arg9 := StableHlo.after_of_writes_sub hostOps3 _ hostOps3_writes (by decide : main_arg9 ∉ hostOps3_W)
    _ = W7 m c main_arg9 := W8_of_ne m c main_arg9 (by decide)
    _ = W6 m c main_arg9 := StableHlo.after_of_writes_sub hostOps2 _ hostOps2_writes (by decide : main_arg9 ∉ hostOps2_W)
    _ = W5 m c main_arg9 := W6_of_ne m c main_arg9 (by decide)
    _ = W4 m c main_arg9 := StableHlo.after_of_writes_sub hostOps1_2 _ hostOps1_2_writes (by decide : main_arg9 ∉ hostOps1_2_W)
    _ = W3 m c main_arg9 := StableHlo.after_of_writes_sub hostOps1_1 _ hostOps1_1_writes (by decide : main_arg9 ∉ hostOps1_1_W)
    _ = W2 m c main_arg9 := StableHlo.after_of_writes_sub hostOps1 _ hostOps1_writes (by decide : main_arg9 ∉ hostOps1_W)
    _ = W1 m c main_arg9 := W2_of_ne m c main_arg9 (by decide)
    _ = W0 m c main_arg9 := StableHlo.after_of_writes_sub hostOps0 _ hostOps0_writes (by decide : main_arg9 ∉ hostOps0_W)
    _ = m ((c : Thread nD τ).loc main_arg9) := rfl

theorem W9_main_arg10 (c : Dev nD) : W9 m c main_arg10 = m ((c : Thread nD τ).loc main_arg10) :=
  calc W9 m c main_arg10
    _ = W8 m c main_arg10 := StableHlo.after_of_writes_sub hostOps3 _ hostOps3_writes (by decide : main_arg10 ∉ hostOps3_W)
    _ = W7 m c main_arg10 := W8_of_ne m c main_arg10 (by decide)
    _ = W6 m c main_arg10 := StableHlo.after_of_writes_sub hostOps2 _ hostOps2_writes (by decide : main_arg10 ∉ hostOps2_W)
    _ = W5 m c main_arg10 := W6_of_ne m c main_arg10 (by decide)
    _ = W4 m c main_arg10 := StableHlo.after_of_writes_sub hostOps1_2 _ hostOps1_2_writes (by decide : main_arg10 ∉ hostOps1_2_W)
    _ = W3 m c main_arg10 := StableHlo.after_of_writes_sub hostOps1_1 _ hostOps1_1_writes (by decide : main_arg10 ∉ hostOps1_1_W)
    _ = W2 m c main_arg10 := StableHlo.after_of_writes_sub hostOps1 _ hostOps1_writes (by decide : main_arg10 ∉ hostOps1_W)
    _ = W1 m c main_arg10 := W2_of_ne m c main_arg10 (by decide)
    _ = W0 m c main_arg10 := StableHlo.after_of_writes_sub hostOps0 _ hostOps0_writes (by decide : main_arg10 ∉ hostOps0_W)
    _ = m ((c : Thread nD τ).loc main_arg10) := rfl

theorem W9_main_arg11 (c : Dev nD) : W9 m c main_arg11 = m ((c : Thread nD τ).loc main_arg11) :=
  calc W9 m c main_arg11
    _ = W8 m c main_arg11 := StableHlo.after_of_writes_sub hostOps3 _ hostOps3_writes (by decide : main_arg11 ∉ hostOps3_W)
    _ = W7 m c main_arg11 := W8_of_ne m c main_arg11 (by decide)
    _ = W6 m c main_arg11 := StableHlo.after_of_writes_sub hostOps2 _ hostOps2_writes (by decide : main_arg11 ∉ hostOps2_W)
    _ = W5 m c main_arg11 := (W6_arr m c 12).trans (((dat1 (V5 m) c).arrAt_in 12 rfl _).trans (A_eq1 (V5 m) c 12))
    _ = W4 m c main_arg11 := StableHlo.after_of_writes_sub hostOps1_2 _ hostOps1_2_writes (by decide : main_arg11 ∉ hostOps1_2_W)
    _ = W3 m c main_arg11 := StableHlo.after_of_writes_sub hostOps1_1 _ hostOps1_1_writes (by decide : main_arg11 ∉ hostOps1_1_W)
    _ = W2 m c main_arg11 := StableHlo.after_of_writes_sub hostOps1 _ hostOps1_writes (by decide : main_arg11 ∉ hostOps1_W)
    _ = W1 m c main_arg11 := W2_of_ne m c main_arg11 (by decide)
    _ = W0 m c main_arg11 := StableHlo.after_of_writes_sub hostOps0 _ hostOps0_writes (by decide : main_arg11 ∉ hostOps0_W)
    _ = m ((c : Thread nD τ).loc main_arg11) := rfl

theorem W9_main_arg12 (c : Dev nD) : W9 m c main_arg12 = m ((c : Thread nD τ).loc main_arg12) :=
  calc W9 m c main_arg12
    _ = W8 m c main_arg12 := StableHlo.after_of_writes_sub hostOps3 _ hostOps3_writes (by decide : main_arg12 ∉ hostOps3_W)
    _ = W7 m c main_arg12 := W8_of_ne m c main_arg12 (by decide)
    _ = W6 m c main_arg12 := StableHlo.after_of_writes_sub hostOps2 _ hostOps2_writes (by decide : main_arg12 ∉ hostOps2_W)
    _ = W5 m c main_arg12 := W6_of_ne m c main_arg12 (by decide)
    _ = W4 m c main_arg12 := StableHlo.after_of_writes_sub hostOps1_2 _ hostOps1_2_writes (by decide : main_arg12 ∉ hostOps1_2_W)
    _ = W3 m c main_arg12 := StableHlo.after_of_writes_sub hostOps1_1 _ hostOps1_1_writes (by decide : main_arg12 ∉ hostOps1_1_W)
    _ = W2 m c main_arg12 := StableHlo.after_of_writes_sub hostOps1 _ hostOps1_writes (by decide : main_arg12 ∉ hostOps1_W)
    _ = W1 m c main_arg12 := W2_of_ne m c main_arg12 (by decide)
    _ = W0 m c main_arg12 := StableHlo.after_of_writes_sub hostOps0 _ hostOps0_writes (by decide : main_arg12 ∉ hostOps0_W)
    _ = m ((c : Thread nD τ).loc main_arg12) := rfl

/-- Every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c),
     (h c _ (mem_uc main_arg12 (by decide))).trans (W9_main_arg12 m c)⟩) (run_all m ρ)

/-- The same run read at the result and at the arguments: the result ends at the last boundary's contents. -/
theorem run_value : θ_run defs (onTc (τ := τ) (main (F := F))) ⟨m, fun _ => 0, ρ⟩ (fun r => ∀ c : Dev nD,
      r.2.mem ((c.tc : Thread nD τ).loc main_v40) = W9 m c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v40 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c),
     (h c _ (mem_uc main_arg12 (by decide))).trans (W9_main_arg12 m c)⟩) (run_all m ρ)

end Cert.KernelIdeal.Hand

end
-- ==== Proof.KernelIdeal.Pieces.lean ====
/-
  What the runs of the attention body found, named: the scratch after a first-tile point is the
  key-side projection of the point's key block; the output block after any point is the attention
  output computed from the point's blocks and the scratch it read — at a first tile the projection
  just stored, at a later tile whatever the scratch held.
-/
import proofs.«151802_j67714454389137_2_alg».proof.Proof.KernelIdeal.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2S : (![0, 0] : Fin 2 → Nat) = fun _ => 0 := funext fun a => by fin_cases a <;> rfl
theorem hz3S : (![0, 0, 0] : Fin 3 → Nat) = fun _ => 0 := funext fun a => by fin_cases a <;> rfl

theorem sout1_A_0_eq (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) :
    sout1_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 = k1_pay13 (k1_pay3 x1) x5 (k1_pay6 x6) (k1_pay8 x8) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13)]
  unfold kernelRun1_A
  dsimp only
  sl_unfold_words
  rw [View.canon_unit_zero hz2S]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x128x64) hz3S, View.ld_unit_zero (S := S1x512x64) hz3S, View.ld_unit_zero (S := S32x64) hz2S, View.ld_unit_zero (S := S1x32) hz2S, View.ld_unit_zero (S := S32x32) hz2S, View.ld_unit_zero (S := S1x256) hz2S, View.ld_unit_zero (S := S256x128) hz2S, View.ld_unit_zero (S := S1x128) hz2S, View.ld_unit_zero (S := S1x16) hz2S, View.ld_unit_zero (S := S1x1) hz2S, View.ld_unit_zero (S := S512x32) hz2S]
  rfl

theorem out1_A_14_eq (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) :
    out1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 = k1_pay1 (k1_pay4 x2) (k1_pay14 (k1_pay2 x0) x3 (k1_pay5 x4) (k1_pay7 x7) (k1_pay9 x9) (k1_pay10 x10) (k1_pay11 x11) (k1_pay12 x12) x13 (k1_pay13 (k1_pay3 x1) x5 (k1_pay6 x6) (k1_pay8 x8))) (k1_pay15 (BitVec.ofNat 32 (i 1).val)) (iota .tc S128x512 32 [1] iota_S128x512_d1_w32) := by
  unfold out1_A_14
  rw [View.read_writes_eq_canon _ _ _ (cover1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13)]
  unfold kernelRun1_A
  dsimp only
  sl_unfold_words
  rw [View.canon_unit_zero hz3S]
  rw [View.readCov_unit_zero (S := S512x32) _ hz2S]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x128x64) hz3S, View.ld_unit_zero (S := S1x512x64) hz3S, View.ld_unit_zero (S := S32x64) hz2S, View.ld_unit_zero (S := S1x32) hz2S, View.ld_unit_zero (S := S32x32) hz2S, View.ld_unit_zero (S := S1x256) hz2S, View.ld_unit_zero (S := S256x128) hz2S, View.ld_unit_zero (S := S1x128) hz2S, View.ld_unit_zero (S := S1x16) hz2S, View.ld_unit_zero (S := S1x1) hz2S, View.ld_unit_zero (S := S512x32) hz2S]
  rfl

theorem out1_B_14_eq (c : Dev nD) (i : grid1.Coords) (arg2 : Memref sig .tc .vmem S1x128x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x16 .f32) (harg14 : arg14.IsWhole) (arg15 : Memref sig .tc .vmem S1x1 .f32) (harg15 : arg15.IsWhole) (arg16 : Memref sig .tc .vmem S1x128x64 .f32) (harg16 : arg16.IsWhole) (arg17 : Memref sig .tc .vmem S512x32 .f32) (harg17 : arg17.IsWhole) (hc0 : ¬cond1_0 i) (x0 : Vec F S1x128x64 .f32) (x1 : Vec F S1x512x64 .f32) (x2 : Vec F S1x512x64 .f32) (x3 : Vec F S32x64 .f32) (x4 : Vec F S1x32 .f32) (x5 : Vec F S32x64 .f32) (x6 : Vec F S1x32 .f32) (x7 : Vec F S32x32 .f32) (x8 : Vec F S32x32 .f32) (x9 : Vec F S1x256 .f32) (x10 : Vec F S256x128 .f32) (x11 : Vec F S1x128 .f32) (x12 : Vec F S1x16 .f32) (x13 : Vec F S1x1 .f32) (xs0 : Vec F S512x32 .f32) :
    out1_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs0 = k1_pay1 (k1_pay4 x2) (k1_pay14 (k1_pay2 x0) x3 (k1_pay5 x4) (k1_pay7 x7) (k1_pay9 x9) (k1_pay10 x10) (k1_pay11 x11) (k1_pay12 x12) x13 xs0) (k1_pay15 (BitVec.ofNat 32 (i 1).val)) (iota .tc S128x512 32 [1] iota_S128x512_d1_w32) := by
  unfold out1_B_14
  rw [View.read_writes_eq_canon _ _ _ (cover1_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs0)]
  unfold kernelRun1_B
  dsimp only
  sl_unfold_words
  rw [View.canon_unit_zero hz3S]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x128x64) hz3S, View.ld_unit_zero (S := S1x512x64) hz3S, View.ld_unit_zero (S := S32x64) hz2S, View.ld_unit_zero (S := S1x32) hz2S, View.ld_unit_zero (S := S32x32) hz2S, View.ld_unit_zero (S := S1x256) hz2S, View.ld_unit_zero (S := S256x128) hz2S, View.ld_unit_zero (S := S1x128) hz2S, View.ld_unit_zero (S := S1x16) hz2S, View.ld_unit_zero (S := S1x1) hz2S, View.ld_unit_zero (S := S512x32) hz2S]
  rfl

end Cert.KernelIdeal.Hand

end
-- ==== Proof.KernelIdeal.PayCasts.lean ====
/-
  The loaded blocks as the attention body's arithmetic sees them: a block with a leading unit axis
  is used without it, a [1, a] row as the vector of its a entries.
-/
import proofs.«151802_j67714454389137_2_alg».proof.Proof.Gen.KernelIdeal.Skeleton
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

variable {F : FTy → Type} [FloatOps F]

theorem k1_pay2_apply (v0 : Vec F S1x128x64 .f32) (n : Fin 128) (d : Fin 64) : k1_pay2 v0 (ix2 n d) = v0 (ix3 (0 : Fin 1) n d) :=
  shapeCast_1ab_ab_apply v0 _ n d
theorem k1_pay3_apply (v2 : Vec F S1x512x64 .f32) (j : Fin 512) (d : Fin 64) : k1_pay3 v2 (ix2 j d) = v2 (ix3 (0 : Fin 1) j d) :=
  shapeCast_1ab_ab_apply v2 _ j d
theorem k1_pay4_apply (v4 : Vec F S1x512x64 .f32) (j : Fin 512) (d : Fin 64) : k1_pay4 v4 (ix2 j d) = v4 (ix3 (0 : Fin 1) j d) :=
  shapeCast_1ab_ab_apply v4 _ j d
theorem k1_pay5_apply (v7 : Vec F S1x32 .f32) (p : Fin 32) : k1_pay5 v7 (ix1 p) = v7 (ix2 (0 : Fin 1) p) := by
  unfold k1_pay5
  refine (shapeCast_1a_a_apply _ _ p).trans ?_
  exact congrFun (shapeCast_self v7 _) _
theorem k1_pay6_apply (v11 : Vec F S1x32 .f32) (p : Fin 32) : k1_pay6 v11 (ix1 p) = v11 (ix2 (0 : Fin 1) p) := by
  unfold k1_pay6
  refine (shapeCast_1a_a_apply _ _ p).trans ?_
  exact congrFun (shapeCast_self v11 _) _
theorem k1_pay7_eq (v14 : Vec F S32x32 .f32) : k1_pay7 v14 = v14 := shapeCast_self v14 _
theorem k1_pay8_eq (v16 : Vec F S32x32 .f32) : k1_pay8 v16 = v16 := shapeCast_self v16 _
theorem k1_pay9_apply (v18 : Vec F S1x256 .f32) (l : Fin 256) : k1_pay9 v18 (ix1 l) = v18 (ix2 (0 : Fin 1) l) := by
  unfold k1_pay9
  refine (shapeCast_1a_a_apply _ _ l).trans ?_
  exact congrFun (shapeCast_self v18 _) _
theorem k1_pay10_eq (v21 : Vec F S256x128 .f32) : k1_pay10 v21 = v21 := shapeCast_self v21 _
theorem k1_pay11_apply (v23 : Vec F S1x128 .f32) (l : Fin 128) : k1_pay11 v23 (ix1 l) = v23 (ix2 (0 : Fin 1) l) := by
  unfold k1_pay11
  refine (shapeCast_1a_a_apply _ _ l).trans ?_
  exact congrFun (shapeCast_self v23 _) _
theorem k1_pay12_apply (v26 : Vec F S1x16 .f32) (r : Fin 16) : k1_pay12 v26 (ix1 r) = v26 (ix2 (0 : Fin 1) r) :=
  shapeCast_1a_a_apply v26 _ r

end Cert.KernelIdeal.Hand

end
-- ==== Proof.KernelIdeal.Pay13.lean ====
/-
  The key side of the first hidden layer, as the body stores it in its scratch, read at an index on
  the extended reals.  Row j of the keys (64 features) goes through the 64 → 32 affine map (weights
  v10, bias v13) and then through the 32 × 32 matrix v17: entry (j, p) is
      ∑ p', ((∑ d, key j d · v10 p' d) + v13 p') · v17 p p'.
  Both products contract the left operand's columns with the rows of a transposed matrix, so the
  transposes cancel against the way the weights are stored (output feature first).
-/
import proofs.«151802_j67714454389137_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen
open Idealize.ShloMosaic Idealize.ShloMosaic.ValueIdx Idealize.SL.Sem

private abbrev D1 := dot_S512x64_S64x32_S512x32_1_0_0_1_n_n
private abbrev D2 := dot_S512x32_S32x32_S512x32_1_0_0_1_n_n

private theorem D1_lhs0 (i : S512x32.Idx) (q : D1.contr.Idx) : (D1.lhsIdx i q 0).val = (i 0).val := by
  unfold DotDims.lhsIdx
  rw [dif_neg (show ¬(0 : Fin S512x64.rank) ∈ D1.lhsBatch by decide), dif_pos (show (0 : Fin S512x64.rank) ∈ D1.lhsNonContracting by decide)]
  rfl
private theorem D1_rhs1 (i : S512x32.Idx) (q : D1.contr.Idx) : (D1.rhsIdx i q 1).val = (i 1).val := by
  unfold DotDims.rhsIdx
  rw [dif_neg (show ¬(1 : Fin S64x32.rank) ∈ D1.rhsBatch by decide), dif_pos (show (1 : Fin S64x32.rank) ∈ D1.rhsNonContracting by decide)]
  rfl

/-- A [512, 64] by [64, 32] product into the zero splat, at (j, p): the sum over the 64 shared coordinates. -/
theorem mm_512x64_64x32 (a : FVec Ideal S512x64 .f32) (b : FVec Ideal S64x32 .f32) (j : Fin 512) (p : Fin 32) :
    matmul D1 none a b (constant (F := Ideal) S512x32 .f32 0x00000000#32) (ix2 j p)
      = ∑ d : Fin 64, a (ix2 j d) * b (ix2 d p) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 j p) ((contrEquiv1 D1 64 rfl rfl).symm k) = ix2 j k := funext fun c => Fin.ext (by
    match c with
    | ⟨0, _⟩ => exact D1_lhs0 _ _
    | ⟨1, _⟩ => exact (D1.lhsIdx_val_of_single rfl _ _).trans hk)
  have er : D1.rhsIdx (ix2 j p) ((contrEquiv1 D1 64 rfl rfl).symm k) = ix2 k p := funext fun c => Fin.ext (by
    match c with
    | ⟨0, _⟩ => exact (D1.rhsIdx_val_of_single rfl _ _).trans hk
    | ⟨1, _⟩ => exact D1_rhs1 _ _)
  rw [el, er]

private theorem D2_lhs0 (i : S512x32.Idx) (q : D2.contr.Idx) : (D2.lhsIdx i q 0).val = (i 0).val := by
  unfold DotDims.lhsIdx
  rw [dif_neg (show ¬(0 : Fin S512x32.rank) ∈ D2.lhsBatch by decide), dif_pos (show (0 : Fin S512x32.rank) ∈ D2.lhsNonContracting by decide)]
  rfl
private theorem D2_rhs1 (i : S512x32.Idx) (q : D2.contr.Idx) : (D2.rhsIdx i q 1).val = (i 1).val := by
  unfold DotDims.rhsIdx
  rw [dif_neg (show ¬(1 : Fin S32x32.rank) ∈ D2.rhsBatch by decide), dif_pos (show (1 : Fin S32x32.rank) ∈ D2.rhsNonContracting by decide)]
  rfl

/-- A [512, 32] by [32, 32] product into the zero splat, at (j, p): the sum over the 32 shared coordinates. -/
theorem mm_512x32_32x32 (a : FVec Ideal S512x32 .f32) (b : FVec Ideal S32x32 .f32) (j : Fin 512) (p : Fin 32) :
    matmul D2 none a b (constant (F := Ideal) S512x32 .f32 0x00000000#32) (ix2 j p)
      = ∑ d : Fin 32, a (ix2 j d) * b (ix2 d p) := by
  simp only [matmul]
  rw [Ideal.matmul_constant_zero_apply, ← Equiv.sum_comp (contrEquiv1 D2 32 rfl rfl).symm]
  refine Finset.sum_congr rfl fun k _ => ?_
  have hk := contrEquiv1_symm_val D2 32 rfl rfl k
  have el : D2.lhsIdx (ix2 j p) ((contrEquiv1 D2 32 rfl rfl).symm k) = ix2 j k := funext fun c => Fin.ext (by
    match c with
    | ⟨0, _⟩ => exact D2_lhs0 _ _
    | ⟨1, _⟩ => exact (D2.lhsIdx_val_of_single rfl _ _).trans hk)
  have er : D2.rhsIdx (ix2 j p) ((contrEquiv1 D2 32 rfl rfl).symm k) = ix2 k p := funext fun c => Fin.ext (by
    match c with
    | ⟨0, _⟩ => exact (D2.rhsIdx_val_of_single rfl _ _).trans hk
    | ⟨1, _⟩ => exact D2_rhs1 _ _)
  rw [el, er]

/-- The stored key-side projection at (j, p). -/
theorem k1_pay13_apply (v3 : FVec Ideal S512x64 .f32) (v10 : Vec Ideal S32x64 .f32) (v13 : FVec Ideal S32 .f32)
    (v17 : FVec Ideal S32x32 .f32) (j : Fin 512) (p : Fin 32) :
    k1_pay13 (F := Ideal) v3 v10 v13 v17 (ix2 j p)
      = ∑ p' : Fin 32, ((∑ d : Fin 64, v3 (ix2 j d) * v10 (ix2 p' d)) + v13 (ix1 p')) * v17 (ix2 p p') := by
  unfold k1_pay13
  rw [shapeCast_self]
  refine (mm_512x32_32x32 _ _ j p).trans ?_
  refine Finset.sum_congr rfl fun p' _ => ?_
  rw [transpose_ix2_apply, addf_apply, mm_512x64_64x32, broadcastTo_1b_ab_apply, shapeCast_a_1a_apply]
  refine congrArg (fun z => (z + v13 (ix1 p')) * v17 (ix2 p p')) ?_
  refine Finset.sum_congr rfl fun d _ => ?_
  rw [transpose_ix2_apply]

end Cert.KernelIdeal.Pay

end
-- ==== Proof.Spec.lean ====
/-
  The computation both programs perform, index by index, on the extended reals.

  From a [512, 1024] input and a [3072, 1024] weight the projection row n has 3072 columns, laid out
  as (d, k, h) with d the slowest of 64, k one of the three of query / key / value, h the fastest of
  16 heads: column d·48 + k·16 + h.  Per head, queries and keys are mapped through 64 → 32 affine
  maps, then through the two halves of a 32 × 64 matrix; a pair (query n, key j) gets the hidden
  vector relu(a n + c j + b1), a second hidden vector relu(W2 · + b2), and the score W3 · + b3.
  Scores of keys after the query are replaced by a large negative constant, a row is shifted by its
  maximum, exponentiated and normalised, and the weights average the values.  The heads' outputs,
  laid side by side (column h·64 + d), go through the output weight.
-/
import Idealize.ShloMosaic.PureOps.Ideal

noncomputable section

namespace Cert.Spec

open Idealize.ShloMosaic

/-- The thirteen argument arrays, by coordinates. -/
structure In where
  x : Fin 512 → Fin 1024 → EReal
  wqkv : Fin 3072 → Fin 1024 → EReal
  wout : Fin 1024 → Fin 1024 → EReal
  wq : Fin 32 → Fin 64 → EReal
  bq : Fin 32 → EReal
  wk : Fin 32 → Fin 64 → EReal
  bk : Fin 32 → EReal
  w1 : Fin 32 → Fin 64 → EReal
  b1 : Fin 32 → EReal
  w2 : Fin 16 → Fin 32 → EReal
  b2 : Fin 16 → EReal
  w3 : Fin 16 → EReal
  b3 : EReal

variable (I : In)

/-- The projection of row `n` at column `o`. -/
def proj (n : Fin 512) (o : Fin 3072) : EReal := ∑ c : Fin 1024, I.x n c * I.wqkv o c

/-- The column of (d, k, h). -/
def col (d : Fin 64) (k : Fin 3) (h : Fin 16) : Fin 3072 := ⟨d.val * 48 + k.val * 16 + h.val, by omega⟩

def q (h : Fin 16) (n : Fin 512) (d : Fin 64) : EReal := proj I n (col d 0 h)
def k (h : Fin 16) (n : Fin 512) (d : Fin 64) : EReal := proj I n (col d 1 h)
def v (h : Fin 16) (n : Fin 512) (d : Fin 64) : EReal := proj I n (col d 2 h)

def qp (h : Fin 16) (n : Fin 512) (p : Fin 32) : EReal := (∑ d : Fin 64, q I h n d * I.wq p d) + I.bq p
def kp (h : Fin 16) (j : Fin 512) (p : Fin 32) : EReal := (∑ d : Fin 64, k I h j d * I.wk p d) + I.bk p

/-- The query side and the key side of the first hidden layer: the left and right halves of `w1`. -/
def a (h : Fin 16) (n : Fin 512) (p : Fin 32) : EReal := ∑ p' : Fin 32, qp I h n p' * I.w1 p ⟨p'.val, by omega⟩
def c (h : Fin 16) (j : Fin 512) (p : Fin 32) : EReal := ∑ p' : Fin 32, kp I h j p' * I.w1 p ⟨32 + p'.val, by omega⟩

def h1 (h : Fin 16) (n j : Fin 512) (p : Fin 32) : EReal := max ((a I h n p + c I h j p) + I.b1 p) 0
def h2 (h : Fin 16) (n j : Fin 512) (r : Fin 16) : EReal := max ((∑ p : Fin 32, h1 I h n j p * I.w2 r p) + I.b2 r) 0
def score (h : Fin 16) (n j : Fin 512) : EReal := (∑ r : Fin 16, h2 I h n j r * I.w3 r) + I.b3

/-- The constant that replaces the score of a key after the query, and the start of a row's maximum. -/
def negBig : EReal := Ideal.ofBits .f32 0xF149F2CA#32
def negInf : EReal := Ideal.ofBits .f32 0xFF800000#32

def masked (h : Fin 16) (n j : Fin 512) : EReal := if n.val < j.val then negBig else score I h n j
def rowMax (h : Fin 16) (n : Fin 512) : EReal :=
  max negInf ((Finset.univ : Finset (Fin 512)).fold max negInf (fun j => masked I h n j))
def e (h : Fin 16) (n j : Fin 512) : EReal := Ideal.exp (masked I h n j - rowMax I h n)
def den (h : Fin 16) (n : Fin 512) : EReal := ∑ j : Fin 512, e I h n j
def attn (h : Fin 16) (n j : Fin 512) : EReal := Ideal.div (e I h n j) (den I h n)
def out (h : Fin 16) (n : Fin 512) (d : Fin 64) : EReal := ∑ j : Fin 512, attn I h n j * v I h j d

/-- The result at row `n`, column `o`. -/
def final (n : Fin 512) (o : Fin 1024) : EReal :=
  ∑ e' : Fin 1024, out I ⟨e'.val / 64, by omega⟩ n ⟨e'.val % 64, by omega⟩ * I.wout o e'

end Cert.Spec

end
-- ==== Proof.SpecIn.lean ====
/-
  The specification's inputs read off the thirteen argument arrays, by coordinates.
-/
import proofs.«151802_j67714454389137_2_alg».proof.Proof.Spec
import Idealize.ShloMosaic.Lib.ValueIdx

noncomputable section

namespace Cert.Spec

open Idealize.ShloMosaic Idealize.ShloMosaic.ValueIdx

/-- The argument arrays (in the order of the programs' arguments) as the specification's inputs. -/
def inOf (x0 : (⟨3, ![1, 512, 1024]⟩ : Shape).Idx → EReal) (x1 : (⟨2, ![3072, 1024]⟩ : Shape).Idx → EReal)
    (x2 : (⟨2, ![1024, 1024]⟩ : Shape).Idx → EReal) (x3 : (⟨2, ![32, 64]⟩ : Shape).Idx → EReal) (x4 : (⟨1, ![32]⟩ : Shape).Idx → EReal)
    (x5 : (⟨2, ![32, 64]⟩ : Shape).Idx → EReal) (x6 : (⟨1, ![32]⟩ : Shape).Idx → EReal) (x7 : (⟨2, ![32, 64]⟩ : Shape).Idx → EReal)
    (x8 : (⟨1, ![32]⟩ : Shape).Idx → EReal) (x9 : (⟨2, ![16, 32]⟩ : Shape).Idx → EReal) (x10 : (⟨1, ![16]⟩ : Shape).Idx → EReal)
    (x11 : (⟨2, ![1, 16]⟩ : Shape).Idx → EReal) (x12 : (⟨1, ![1]⟩ : Shape).Idx → EReal) : In where
  x n c := x0 (ix3 (0 : Fin 1) n c)
  wqkv o c := x1 (ix2 o c)
  wout o e := x2 (ix2 o e)
  wq p d := x3 (ix2 p d)
  bq p := x4 (ix1 p)
  wk p d := x5 (ix2 p d)
  bk p := x6 (ix1 p)
  w1 p r := x7 (ix2 p r)
  b1 p := x8 (ix1 p)
  w2 r p := x9 (ix2 r p)
  b2 r := x10 (ix1 r)
  w3 r := x11 (ix2 (0 : Fin 1) r)
  b3 := x12 (ix1 (0 : Fin 1))

end Cert.Spec

end
-- ==== Proof.KernelIdeal.Val1.lean ====
/-
  Region 1's result array after the run.  The grid runs the 16 heads in order, four query tiles of
  128 rows per head; point t is head t / 4, tile t % 4.  The key block and the weight blocks are the
  same at the four points of a head, so the scratch — stored at the head's first tile — holds the
  head's key-side projection at all four; the output block of a point is then the attention output
  of its 128 query rows.  The 64 output blocks tile the [16, 512, 64] array.
-/
import proofs.«151802_j67714454389137_2_alg».proof.Proof.KernelIdeal.Pieces
import proofs.«151802_j67714454389137_2_alg».proof.Proof.KernelIdeal.PayCasts
import proofs.«151802_j67714454389137_2_alg».proof.Proof.KernelIdeal.Pay13
import proofs.«151802_j67714454389137_2_alg».proof.Proof.SpecIn

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- One point's mathematics, as the assembly below uses it: the output block of head `h`, tile `qt`
    from blocks that hold the specification's quantities is the specification's attention output. -/
def BlockMath : Prop := ∀ (I : Spec.In) (h : Fin 16) (qt : Nat) (hqt : qt < 4)
    (x0 : Vec Ideal S1x128x64 .f32) (x2 : Vec Ideal S1x512x64 .f32) (x3 : Vec Ideal S32x64 .f32) (x4 : Vec Ideal S1x32 .f32)
    (x7 : Vec Ideal S32x32 .f32) (x9 : Vec Ideal S1x256 .f32) (x10 : Vec Ideal S256x128 .f32) (x11 : Vec Ideal S1x128 .f32)
    (x12 : Vec Ideal S1x16 .f32) (x13 : Vec Ideal S1x1 .f32) (S : Vec Ideal S512x32 .f32)
    (hx0 : ∀ (n : Fin 128) (d : Fin 64), x0 (ix3 (0 : Fin 1) n d) = Spec.q I h ⟨qt * 128 + n.val, by omega⟩ d)
    (hx2 : ∀ (j : Fin 512) (d : Fin 64), x2 (ix3 (0 : Fin 1) j d) = Spec.v I h j d)
    (hx3 : ∀ (p : Fin 32) (d : Fin 64), x3 (ix2 p d) = I.wq p d)
    (hx4 : ∀ p : Fin 32, x4 (ix2 (0 : Fin 1) p) = I.bq p)
    (hx7 : ∀ p p' : Fin 32, x7 (ix2 p p') = I.w1 p ⟨p'.val, by omega⟩)
    (hx9 : ∀ l : Fin 256, x9 (ix2 (0 : Fin 1) l) = I.b1 ⟨l.val % 32, by omega⟩)
    (hx10 : ∀ (l : Fin 256) (l' : Fin 128), x10 (ix2 l l') = (if l.val / 32 = l'.val / 16 then (1 : EReal) else 0) * I.w2 ⟨l'.val % 16, by omega⟩ ⟨l.val % 32, by omega⟩)
    (hx11 : ∀ l' : Fin 128, x11 (ix2 (0 : Fin 1) l') = I.b2 ⟨l'.val % 16, by omega⟩)
    (hx12 : ∀ r : Fin 16, x12 (ix2 (0 : Fin 1) r) = I.w3 r)
    (hx13 : x13 (ix2 (0 : Fin 1) (0 : Fin 1)) = I.b3)
    (hS : ∀ (j : Fin 512) (p : Fin 32), S (ix2 j p) = Spec.c I h j p)
    (n : Fin 128) (d : Fin 64),
    k1_pay1 (F := Ideal) (k1_pay4 x2)
        (k1_pay14 (k1_pay2 x0) x3 (k1_pay5 x4) (k1_pay7 x7) (k1_pay9 x9) (k1_pay10 x10) (k1_pay11 x11) (k1_pay12 x12) x13 S)
        (k1_pay15 (BitVec.ofNat 32 qt)) (iota .tc S128x512 32 [1] iota_S128x512_d1_w32) (ix3 (0 : Fin 1) n d)
      = Spec.out I h ⟨qt * 128 + n.val, by omega⟩ d

variable (V : (c : Dev nD) → (b : Ref sig .tc) → Buf (Elt Ideal) ((c : Thread nD τ).loc b)) (I : Spec.In)

/-- The printed index maps over the grid. -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_14.index t (0 : Fin 3) = t.val / 4 ∧ win1_14.index t (1 : Fin 3) = t.val % 4 ∧ win1_14.index t (2 : Fin 3) = 0 :=
  (by decide +kernel : ∀ t : Fin grid1.N, _)
theorem idx_whole1 : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0 :=
  (by decide +kernel : ∀ t : Fin grid1.N, _)
/-- The grid coordinates of point `t`: head and query tile. -/
theorem coords1 : ∀ t : Fin cfg1.N, (grid1.coords t 0).val = t.val / 4 ∧ (grid1.coords t 1).val = t.val % 4 :=
  (by decide +kernel : ∀ t : Fin grid1.N, _)

/-! ## The blocks at an index -/

theorem blk1_0 (c : Dev nD) (t : Fin cfg1.N) (n : Fin 128) (d : Fin 64) :
    iblk1 V c 0 t (ix3 (0 : Fin 1) n d) = (V c main_v6 : S16x512x64.Idx → EReal) (ix3 ⟨t.val / 4, by have := t.isLt; have hN : cfg1.N = 64 := N_1; omega⟩ ⟨t.val % 4 * 128 + n.val, by omega⟩ d) := by
  obtain ⟨e0, e1, e2, -⟩ := idx_facts1 t
  refine congrArg (V c main_v6 : S16x512x64.Idx → EReal) ?_
  funext x; apply Fin.ext
  match x with
  | ⟨0, _⟩ => show win1_0.index t (0 : Fin 3) * 1 + 1 * 0 = t.val / 4; omega
  | ⟨1, _⟩ => show win1_0.index t (1 : Fin 3) * 128 + 1 * n.val = t.val % 4 * 128 + n.val; omega
  | ⟨2, _⟩ => show win1_0.index t (2 : Fin 3) * 64 + 1 * d.val = d.val; omega

theorem blk1_1 (c : Dev nD) (t : Fin cfg1.N) (j : Fin 512) (d : Fin 64) :
    iblk1 V c 1 t (ix3 (0 : Fin 1) j d) = (V c main_v10 : S16x512x64.Idx → EReal) (ix3 ⟨t.val / 4, by have := t.isLt; have hN : cfg1.N = 64 := N_1; omega⟩ j d) := by
  obtain ⟨-, -, -, e0, e1, e2, -⟩ := idx_facts1 t
  refine congrArg (V c main_v10 : S16x512x64.Idx → EReal) ?_
  funext x; apply Fin.ext
  match x with
  | ⟨0, _⟩ => show win1_1.index t (0 : Fin 3) * 1 + 1 * 0 = t.val / 4; omega
  | ⟨1, _⟩ => show win1_1.index t (1 : Fin 3) * 512 + 1 * j.val = j.val; omega
  | ⟨2, _⟩ => show win1_1.index t (2 : Fin 3) * 64 + 1 * d.val = d.val; omega

theorem blk1_2 (c : Dev nD) (t : Fin cfg1.N) (j : Fin 512) (d : Fin 64) :
    iblk1 V c 2 t (ix3 (0 : Fin 1) j d) = (V c main_v14 : S16x512x64.Idx → EReal) (ix3 ⟨t.val / 4, by have := t.isLt; have hN : cfg1.N = 64 := N_1; omega⟩ j d) := by
  obtain ⟨-, -, -, -, -, -, e0, e1, e2, -⟩ := idx_facts1 t
  refine congrArg (V c main_v14 : S16x512x64.Idx → EReal) ?_
  funext x; apply Fin.ext
  match x with
  | ⟨0, _⟩ => show win1_2.index t (0 : Fin 3) * 1 + 1 * 0 = t.val / 4; omega
  | ⟨1, _⟩ => show win1_2.index t (1 : Fin 3) * 512 + 1 * j.val = j.val; omega
  | ⟨2, _⟩ => show win1_2.index t (2 : Fin 3) * 64 + 1 * d.val = d.val; omega

theorem blk1_3 (c : Dev nD) (t : Fin cfg1.N) (i : S32x64.Idx) : iblk1 V c 3 t i = (V c main_arg3 : S32x64.Idx → EReal) i := by
  have hf := idx_whole1 t
  obtain ⟨e0, e1, -, -, -, -, -, -, -, -, -, -, -, -, -, -, -, -, -, -, -, -⟩ := hf
  refine congrArg (V c main_arg3 : S32x64.Idx → EReal) ?_
  funext x; apply Fin.ext
  match x with
  | ⟨0, _⟩ => show win1_3.index t (0 : Fin 2) * 32 + 1 * (i 0).val = (i 0).val; omega
  | ⟨1, _⟩ => show win1_3.index t (1 : Fin 2) * 64 + 1 * (i 1).val = (i 1).val; omega

theorem blk1_4 (c : Dev nD) (t : Fin cfg1.N) (i : S1x32.Idx) : iblk1 V c 4 t i = (V c main_v31 : S1x32.Idx → EReal) i := by
  have hf := idx_whole1 t
  obtain ⟨-, -, e0, e1, -, -, -, -, -, -, -, -, -, -, -, -, -, -, -, -, -, -⟩ := hf
  refine congrArg (V c main_v31 : S1x32.Idx → EReal) ?_
  funext x; apply Fin.ext
  match x with
  | ⟨0, _⟩ => show win1_4.index t (0 : Fin 2) * 1 + 1 * (i 0).val = (i 0).val; omega
  | ⟨1, _⟩ => show win1_4.index t (1 : Fin 2) * 32 + 1 * (i 1).val = (i 1).val; omega

theorem blk1_5 (c : Dev nD) (t : Fin cfg1.N) (i : S32x64.Idx) : iblk1 V c 5 t i = (V c main_arg5 : S32x64.Idx → EReal) i := by
  have hf := idx_whole1 t
  obtain ⟨-, -, -, -, e0, e1, -, -, -, -, -, -, -, -, -, -, -, -, -, -, -, -⟩ := hf
  refine congrArg (V c main_arg5 : S32x64.Idx → EReal) ?_
  funext x; apply Fin.ext
  match x with
  | ⟨0, _⟩ => show win1_5.index t (0 : Fin 2) * 32 + 1 * (i 0).val = (i 0).val; omega
  | ⟨1, _⟩ => show win1_5.index t (1 : Fin 2) * 64 + 1 * (i 1).val = (i 1).val; omega

theorem blk1_6 (c : Dev nD) (t : Fin cfg1.N) (i : S1x32.Idx) : iblk1 V c 6 t i = (V c main_v32 : S1x32.Idx → EReal) i := by
  have hf := idx_whole1 t
  obtain ⟨-, -, -, -, -, -, e0, e1, -, -, -, -, -, -, -, -, -, -, -, -, -, -⟩ := hf
  refine congrArg (V c main_v32 : S1x32.Idx → EReal) ?_
  funext x; apply Fin.ext
  match x with
  | ⟨0, _⟩ => show win1_6.index t (0 : Fin 2) * 1 + 1 * (i 0).val = (i 0).val; omega
  | ⟨1, _⟩ => show win1_6.index t (1 : Fin 2) * 32 + 1 * (i 1).val = (i 1).val; omega

theorem blk1_7 (c : Dev nD) (t : Fin cfg1.N) (i : S32x32.Idx) : iblk1 V c 7 t i = (V c main_v15 : S32x32.Idx → EReal) i := by
  have hf := idx_whole1 t
  obtain ⟨-, -, -, -, -, -, -, -, e0, e1, -, -, -, -, -, -, -, -, -, -, -, -⟩ := hf
  refine congrArg (V c main_v15 : S32x32.Idx → EReal) ?_
  funext x; apply Fin.ext
  match x with
  | ⟨0, _⟩ => show win1_7.index t (0 : Fin 2) * 32 + 1 * (i 0).val = (i 0).val; omega
  | ⟨1, _⟩ => show win1_7.index t (1 : Fin 2) * 32 + 1 * (i 1).val = (i 1).val; omega

theorem blk1_8 (c : Dev nD) (t : Fin cfg1.N) (i : S32x32.Idx) : iblk1 V c 8 t i = (V c main_v16 : S32x32.Idx → EReal) i := by
  have hf := idx_whole1 t
  obtain ⟨-, -, -, -, -, -, -, -, -, -, e0, e1, -, -, -, -, -, -, -, -, -, -⟩ := hf
  refine congrArg (V c main_v16 : S32x32.Idx → EReal) ?_
  funext x; apply Fin.ext
  match x with
  | ⟨0, _⟩ => show win1_8.index t (0 : Fin 2) * 32 + 1 * (i 0).val = (i 0).val; omega
  | ⟨1, _⟩ => show win1_8.index t (1 : Fin 2) * 32 + 1 * (i 1).val = (i 1).val; omega

theorem blk1_9 (c : Dev nD) (t : Fin cfg1.N) (i : S1x256.Idx) : iblk1 V c 9 t i = (V c main_v33 : S1x256.Idx → EReal) i := by
  have hf := idx_whole1 t
  obtain ⟨-, -, -, -, -, -, -, -, -, -, -, -, e0, e1, -, -, -, -, -, -, -, -⟩ := hf
  refine congrArg (V c main_v33 : S1x256.Idx → EReal) ?_
  funext x; apply Fin.ext
  match x with
  | ⟨0, _⟩ => show win1_9.index t (0 : Fin 2) * 1 + 1 * (i 0).val = (i 0).val; omega
  | ⟨1, _⟩ => show win1_9.index t (1 : Fin 2) * 256 + 1 * (i 1).val = (i 1).val; omega

theorem blk1_10 (c : Dev nD) (t : Fin cfg1.N) (i : S256x128.Idx) : iblk1 V c 10 t i = (V c main_v24 : S256x128.Idx → EReal) i := by
  have hf := idx_whole1 t
  obtain ⟨-, -, -, -, -, -, -, -, -, -, -, -, -, -, e0, e1, -, -, -, -, -, -⟩ := hf
  refine congrArg (V c main_v24 : S256x128.Idx → EReal) ?_
  funext x; apply Fin.ext
  match x with
  | ⟨0, _⟩ => show win1_10.index t (0 : Fin 2) * 256 + 1 * (i 0).val = (i 0).val; omega
  | ⟨1, _⟩ => show win1_10.index t (1 : Fin 2) * 128 + 1 * (i 1).val = (i 1).val; omega

theorem blk1_11 (c : Dev nD) (t : Fin cfg1.N) (i : S1x128.Idx) : iblk1 V c 11 t i = (V c main_v34 : S1x128.Idx → EReal) i := by
  have hf := idx_whole1 t
  obtain ⟨-, -, -, -, -, -, -, -, -, -, -, -, -, -, -, -, e0, e1, -, -, -, -⟩ := hf
  refine congrArg (V c main_v34 : S1x128.Idx → EReal) ?_
  funext x; apply Fin.ext
  match x with
  | ⟨0, _⟩ => show win1_11.index t (0 : Fin 2) * 1 + 1 * (i 0).val = (i 0).val; omega
  | ⟨1, _⟩ => show win1_11.index t (1 : Fin 2) * 128 + 1 * (i 1).val = (i 1).val; omega

theorem blk1_12 (c : Dev nD) (t : Fin cfg1.N) (i : S1x16.Idx) : iblk1 V c 12 t i = (V c main_arg11 : S1x16.Idx → EReal) i := by
  have hf := idx_whole1 t
  obtain ⟨-, -, -, -, -, -, -, -, -, -, -, -, -, -, -, -, -, -, e0, e1, -, -⟩ := hf
  refine congrArg (V c main_arg11 : S1x16.Idx → EReal) ?_
  funext x; apply Fin.ext
  match x with
  | ⟨0, _⟩ => show win1_12.index t (0 : Fin 2) * 1 + 1 * (i 0).val = (i 0).val; omega
  | ⟨1, _⟩ => show win1_12.index t (1 : Fin 2) * 16 + 1 * (i 1).val = (i 1).val; omega

theorem blk1_13 (c : Dev nD) (t : Fin cfg1.N) (i : S1x1.Idx) : iblk1 V c 13 t i = (V c main_v35 : S1x1.Idx → EReal) i := by
  have hf := idx_whole1 t
  obtain ⟨-, -, -, -, -, -, -, -, -, -, -, -, -, -, -, -, -, -, -, -, e0, e1⟩ := hf
  refine congrArg (V c main_v35 : S1x1.Idx → EReal) ?_
  funext x; apply Fin.ext
  match x with
  | ⟨0, _⟩ => show win1_13.index t (0 : Fin 2) * 1 + 1 * (i 0).val = (i 0).val; omega
  | ⟨1, _⟩ => show win1_13.index t (1 : Fin 2) * 1 + 1 * (i 1).val = (i 1).val; omega

/-! ## What the region's arrays hold, in the specification's terms -/

structure Hyp1 (c : Dev nD) : Prop where
  q : ∀ (h : Fin 16) (n : Fin 512) (d : Fin 64), (V c main_v6 : S16x512x64.Idx → EReal) (ix3 h n d) = Spec.q I h n d
  k : ∀ (h : Fin 16) (n : Fin 512) (d : Fin 64), (V c main_v10 : S16x512x64.Idx → EReal) (ix3 h n d) = Spec.k I h n d
  v : ∀ (h : Fin 16) (n : Fin 512) (d : Fin 64), (V c main_v14 : S16x512x64.Idx → EReal) (ix3 h n d) = Spec.v I h n d
  wq : ∀ (p : Fin 32) (d : Fin 64), (V c main_arg3 : S32x64.Idx → EReal) (ix2 p d) = I.wq p d
  bq : ∀ p : Fin 32, (V c main_v31 : S1x32.Idx → EReal) (ix2 (0 : Fin 1) p) = I.bq p
  wk : ∀ (p : Fin 32) (d : Fin 64), (V c main_arg5 : S32x64.Idx → EReal) (ix2 p d) = I.wk p d
  bk : ∀ p : Fin 32, (V c main_v32 : S1x32.Idx → EReal) (ix2 (0 : Fin 1) p) = I.bk p
  w1q : ∀ p p' : Fin 32, (V c main_v15 : S32x32.Idx → EReal) (ix2 p p') = I.w1 p ⟨p'.val, by omega⟩
  w1k : ∀ p p' : Fin 32, (V c main_v16 : S32x32.Idx → EReal) (ix2 p p') = I.w1 p ⟨32 + p'.val, by omega⟩
  b1t : ∀ l : Fin 256, (V c main_v33 : S1x256.Idx → EReal) (ix2 (0 : Fin 1) l) = I.b1 ⟨l.val % 32, by omega⟩
  w2bd : ∀ (l : Fin 256) (l' : Fin 128), (V c main_v24 : S256x128.Idx → EReal) (ix2 l l') = (if l.val / 32 = l'.val / 16 then (1 : EReal) else 0) * I.w2 ⟨l'.val % 16, by omega⟩ ⟨l.val % 32, by omega⟩
  b2t : ∀ l' : Fin 128, (V c main_v34 : S1x128.Idx → EReal) (ix2 (0 : Fin 1) l') = I.b2 ⟨l'.val % 16, by omega⟩
  w3 : ∀ r : Fin 16, (V c main_arg11 : S1x16.Idx → EReal) (ix2 (0 : Fin 1) r) = I.w3 r
  b3 : (V c main_v35 : S1x1.Idx → EReal) (ix2 (0 : Fin 1) (0 : Fin 1)) = I.b3

/-- The key-side projection stored in the scratch, from blocks holding the specification's keys and weights. -/
theorem scr_math (h : Fin 16) (x1 : Vec Ideal S1x512x64 .f32) (x5 : Vec Ideal S32x64 .f32) (x6 : Vec Ideal S1x32 .f32) (x8 : Vec Ideal S32x32 .f32)
    (hx1 : ∀ (j : Fin 512) (d : Fin 64), x1 (ix3 (0 : Fin 1) j d) = Spec.k I h j d)
    (hx5 : ∀ (p : Fin 32) (d : Fin 64), x5 (ix2 p d) = I.wk p d)
    (hx6 : ∀ p : Fin 32, x6 (ix2 (0 : Fin 1) p) = I.bk p)
    (hx8 : ∀ p p' : Fin 32, x8 (ix2 p p') = I.w1 p ⟨32 + p'.val, by omega⟩) (j : Fin 512) (p : Fin 32) :
    k1_pay13 (F := Ideal) (k1_pay3 x1) x5 (k1_pay6 x6) (k1_pay8 x8) (ix2 j p) = Spec.c I h j p := by
  refine (Cert.KernelIdeal.Pay.k1_pay13_apply _ _ _ _ j p).trans ?_
  unfold Spec.c Spec.kp
  simp only [k1_pay3_apply, k1_pay6_apply, k1_pay8_eq, hx1, hx5, hx6, hx8]

variable {V I}

/-- The fin of a point's head. -/
abbrev headOf (t : Fin cfg1.N) : Fin 16 := ⟨t.val / 4, by have := t.isLt; have hN : cfg1.N = 64 := N_1; omega⟩

theorem first_scr {c : Dev nD} (hy : Hyp1 V I c) (t : Fin cfg1.N) (hc : cond1_0 (grid1.coords t)) (j : Fin 512) (p : Fin 32) :
    (atFirst V c t hc).2 (ix2 j p) = Spec.c I (headOf t) j p := by
  unfold atFirst; dsimp only
  rw [sout1_A_0_eq]
  exact scr_math I (headOf t) _ _ _ _ (fun j d => (blk1_1 V c t j d).trans (hy.k _ j d))
    (fun p d => (blk1_5 V c t _).trans (hy.wk p d)) (fun p => (blk1_6 V c t _).trans (hy.bk p))
    (fun p p' => (blk1_8 V c t _).trans (hy.w1k p p')) j p

/-- After every position the scratch holds the key-side projection of the position's head. -/
theorem scr_at {c : Dev nD} (hy : Hyp1 V I c) : ∀ (n : ℕ) (hn : n < cfg1.N) (j : Fin 512) (p : Fin 32),
    (outsAt1 V c n hn).2 (ix2 j p) = Spec.c I (headOf ⟨n, hn⟩) j p := by
  intro n
  induction n with
  | zero =>
    intro hn j p
    rw [outsAt1_first V c ⟨0, hn⟩ (Nat.zero_mod 4)]
    exact first_scr hy ⟨0, hn⟩ _ j p
  | succ n ih =>
    intro hn j p
    by_cases h0 : (n + 1) % 4 = 0
    · rw [outsAt1_first V c ⟨n + 1, hn⟩ h0]
      exact first_scr hy ⟨n + 1, hn⟩ _ j p
    · rw [outsAt1_later V c ⟨n + 1, hn⟩ h0]
      unfold atLater; dsimp only
      have e : headOf (⟨n + 1, hn⟩ : Fin cfg1.N) = headOf ⟨n, Nat.lt_of_succ_lt hn⟩ := Fin.ext (by show (n + 1) / 4 = n / 4; omega)
      rw [e]
      exact ih (Nat.lt_of_succ_lt hn) j p

/-- The output block of a point whose scratch holds its head's key-side projection. -/
theorem out_pt (hbm : BlockMath) {c : Dev nD} (hy : Hyp1 V I c) (t : Fin cfg1.N) (xs : Vec Ideal S512x32 .f32)
    (hxs : ∀ (j : Fin 512) (p : Fin 32), xs (ix2 j p) = Spec.c I (headOf t) j p) (n : Fin 128) (d : Fin 64) :
    k1_pay1 (F := Ideal) (k1_pay4 (iblk1 V c 2 t))
        (k1_pay14 (k1_pay2 (iblk1 V c 0 t)) (iblk1 V c 3 t) (k1_pay5 (iblk1 V c 4 t)) (k1_pay7 (iblk1 V c 7 t)) (k1_pay9 (iblk1 V c 9 t)) (k1_pay10 (iblk1 V c 10 t)) (k1_pay11 (iblk1 V c 11 t)) (k1_pay12 (iblk1 V c 12 t)) (iblk1 V c 13 t) xs)
        (k1_pay15 (BitVec.ofNat 32 (grid1.coords t 1).val)) (iota .tc S128x512 32 [1] iota_S128x512_d1_w32) (ix3 (0 : Fin 1) n d)
      = Spec.out I (headOf t) ⟨t.val % 4 * 128 + n.val, by omega⟩ d := by
  rw [(coords1 t).2]
  exact hbm I (headOf t) (t.val % 4) (by omega) _ _ _ _ _ _ _ _ _ _ xs
    (fun n d => (blk1_0 V c t n d).trans (hy.q _ _ d)) (fun j d => (blk1_2 V c t j d).trans (hy.v _ j d))
    (fun p d => (blk1_3 V c t _).trans (hy.wq p d)) (fun p => (blk1_4 V c t _).trans (hy.bq p))
    (fun p p' => (blk1_7 V c t _).trans (hy.w1q p p')) (fun l => (blk1_9 V c t _).trans (hy.b1t l))
    (fun l l' => (blk1_10 V c t _).trans (hy.w2bd l l')) (fun l' => (blk1_11 V c t _).trans (hy.b2t l'))
    (fun r => (blk1_12 V c t _).trans (hy.w3 r)) ((blk1_13 V c t _).trans hy.b3) hxs n d

/-- After every position the output block holds the attention output of the position's rows. -/
theorem out_at (hbm : BlockMath) {c : Dev nD} (hy : Hyp1 V I c) (t : Fin cfg1.N) (n : Fin 128) (d : Fin 64) :
    (outsAt1 V c t.val t.isLt).1 (ix3 (0 : Fin 1) n d) = Spec.out I (headOf t) ⟨t.val % 4 * 128 + n.val, by omega⟩ d := by
  by_cases h0 : t.val % 4 = 0
  · rw [outsAt1_first V c t h0]
    unfold atFirst; dsimp only
    rw [out1_A_14_eq]
    exact out_pt hbm hy t _ (fun j p => scr_math I (headOf t) _ _ _ _ (fun j d => (blk1_1 V c t j d).trans (hy.k _ j d))
      (fun p d => (blk1_5 V c t _).trans (hy.wk p d)) (fun p => (blk1_6 V c t _).trans (hy.bk p))
      (fun p p' => (blk1_8 V c t _).trans (hy.w1k p p')) j p) n d
  · rw [outsAt1_later V c t h0]
    unfold atLater; dsimp only
    rw [out1_B_14_eq]
    refine out_pt hbm hy t _ (fun j p => ?_) n d
    have hlt : t.val - 1 < cfg1.N := Nat.lt_of_le_of_lt (Nat.sub_le _ _) t.isLt
    have e : headOf t = headOf ⟨t.val - 1, hlt⟩ := Fin.ext (by show t.val / 4 = (t.val - 1) / 4; omega)
    rw [e]
    exact scr_at hy (t.val - 1) hlt j p

/-! ## From blocks to the array -/

variable (I)
/-- The whole result array. -/
def attnOut : S16x512x64.Idx → EReal :=
  fun i => Spec.out I ⟨(i 0).val, (i 0).isLt⟩ ⟨(i 1).val, (i 1).isLt⟩ ⟨(i 2).val, (i 2).isLt⟩
variable {I}

/-- The output block after position `t`, as a plain function of the index in the block. -/
def blockFn (I : Spec.In) (t : Fin cfg1.N) : S1x128x64.Idx → EReal :=
  fun y => Spec.out I (headOf t) ⟨t.val % 4 * 128 + (y 1).val, by have h : (y 1).val < 128 := (y 1).isLt; omega⟩ ⟨(y 2).val, (y 2).isLt⟩

theorem after14_eq (hbm : BlockMath) {c : Dev nD} (hy : Hyp1 V I c) (t : Fin cfg1.N) :
    (dat1 V c).after 14 t = blockFn I t := by
  rw [after1_14]
  funext y
  obtain ⟨u, n, d, rfl⟩ : ∃ (u : Fin 1) (n : Fin 128) (d : Fin 64), y = ix3 u n d := ⟨y 0, y 1, y 2, eq_ix3 y⟩
  obtain rfl : u = 0 := Fin.ext (by omega)
  exact out_at hbm hy t n d

theorem flushed1_eq (hbm : BlockMath) {c : Dev nD} (hy : Hyp1 V I c) (t : Fin cfg1.N) :
    (dat1 V c).flushed 14 t = ((cfg1.win 14).blk t).view.read (Elt Ideal) (attnOut I) := by
  show (cfg1.win 14).cut (grid1.coords t) ((dat1 V c).after 14 t) = _
  rw [after14_eq hbm hy t]
  obtain ⟨-, -, -, -, -, -, -, -, -, e0, e1, e2⟩ := idx_facts1 t
  funext y
  show blockFn I t y = attnOut I (((cfg1.win 14).blk t).view.emb y)
  unfold blockFn attnOut
  have h0 : ((((cfg1.win 14).blk t).view.emb y) 0).val = t.val / 4 := by
    show win1_14.index t (0 : Fin 3) * 1 + 1 * (y 0).val = t.val / 4
    have : (y 0).val < 1 := (y 0).isLt
    omega
  have h1 : ((((cfg1.win 14).blk t).view.emb y) 1).val = t.val % 4 * 128 + (y 1).val := by
    show win1_14.index t (1 : Fin 3) * 128 + 1 * (y 1).val = t.val % 4 * 128 + (y 1).val; omega
  have h2 : ((((cfg1.win 14).blk t).view.emb y) 2).val = (y 2).val := by
    show win1_14.index t (2 : Fin 3) * 64 + 1 * (y 2).val = (y 2).val; omega
  exact congr (congr (congrArg (Spec.out I) (Fin.ext h0.symm)) (Fin.ext h1.symm)) (Fin.ext h2.symm)

theorem mem_blk1 (t : Fin cfg1.N) (i : S16x512x64.Idx) :
    i ∈ ((cfg1.win 14).blk t).view.set ↔ ∀ a : Fin 3, win1_14.index t a * S1x128x64.size a ≤ (i a).val ∧ (i a).val < win1_14.index t a * S1x128x64.size a + S1x128x64.size a := by
  show i ∈ ((View.whole main_v36).slice (win1_14.rect t)).set ↔ _
  rw [View.set_slice_whole, Rect.mem_set_unit]
  exact Iff.rfl

theorem cover1 (i : S16x512x64.Idx) : ∃ t : Fin cfg1.N, (cfg1.win 14).flush t = true ∧ i ∈ ((cfg1.win 14).blk t).view.set := by
  have hi0 : (i 0).val < 16 := (i 0).isLt
  have hi1 : (i 1).val < 512 := (i 1).isLt
  have hi2 : (i 2).val < 64 := (i 2).isLt
  have hN : cfg1.N = 64 := N_1
  refine ⟨⟨(i 0).val * 4 + (i 1).val / 128, by omega⟩, flush1_14 _, ?_⟩
  rw [mem_blk1]
  obtain ⟨-, -, -, -, -, -, -, -, -, e0, e1, e2⟩ := idx_facts1 ⟨(i 0).val * 4 + (i 1).val / 128, by omega⟩
  simp only [] at e0 e1 e2
  intro a
  match a with
  | ⟨0, _⟩ => show win1_14.index _ (0 : Fin 3) * 1 ≤ (i 0).val ∧ (i 0).val < win1_14.index _ (0 : Fin 3) * 1 + 1; omega
  | ⟨1, _⟩ => show win1_14.index _ (1 : Fin 3) * 128 ≤ (i 1).val ∧ (i 1).val < win1_14.index _ (1 : Fin 3) * 128 + 128; omega
  | ⟨2, _⟩ => show win1_14.index _ (2 : Fin 3) * 64 ≤ (i 2).val ∧ (i 2).val < win1_14.index _ (2 : Fin 3) * 64 + 64; omega

/-- The result array after the run. -/
theorem final1 (hbm : BlockMath) {c : Dev nD} (hy : Hyp1 V I c) : (dat1 V c).arrAt 14 cfg1.N = attnOut I :=
  (dat1 V c).arrAt_eq_of_cover 14 (attnOut I) (fun t _ => flushed1_eq hbm hy t) cover1

end Cert.KernelIdeal.Hand

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowsCols.lean ====
/-
  A matrix product of rows by columns, read at a row and a column.

  When the left operand's columns are contracted against the right operand's rows, the product at `(a, c)` — on the
  TensorCore into a zero accumulator, or the host's `dot_general` — is, at the ideal values, the sum over the shared
  coordinate `k` of the left operand at `(a, k)` times the right operand at `(k, c)`.
-/
import Idealize.ShloMosaic.PureOps.Ideal.Laws
import Idealize.ShloMosaic.Lib.ValueIdx
import proofs.«151802_j67714454389137_2_alg».proof.Proof.LibContract

namespace Idealize.ShloMosaic.RowsCols

open Idealize.ShloMosaic.ValueIdx

variable {M K N : Nat} (d : DotDims ⟨2, ![M, K]⟩ ⟨2, ![K, N]⟩ ⟨2, ![M, N]⟩)
  (hcl : d.lhsContracting = [1]) (hcr : d.rhsContracting = [0])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr1 : ∀ (j : (⟨2, ![M, N]⟩ : Shape).Idx) (q : d.contr.Idx), (d.rhsIdx j q 1).val = (j 1).val)

include hcl hl0 in
/-- The left operand's index at output `(a, c)` and shared coordinate `k` is `(a, k)`. -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr1 in
/-- The right operand's index at output `(a, c)` and shared coordinate `k` is `(k, c)`. -/
theorem rhsIdx_eq (a : Fin M) (c : Fin N) (k : Fin K) :
    d.rhsIdx (ix2 a c) ((contrEquiv1 d K hrank hsize).symm k) = ix2 k c := by
  have hk := contrEquiv1_symm_val d K hrank hsize k
  funext x
  refine Fin.ext ?_
  match x with
  | ⟨0, _⟩ => exact (d.rhsIdx_val_of_single hcr _ _).trans hk
  | ⟨1, _⟩ => exact hr1 _ _

include hcl hcr hrank hsize hl0 hr1 in
/-- The TensorCore product into the zero accumulator at `(a, c)`. -/
theorem matmul_zero_apply {φ₁ φ₂ : FTy} (prec : Option ContractPrecision)
    (lhs : FVec Ideal ⟨2, ![M, K]⟩ φ₁) (rhs : FVec Ideal ⟨2, ![K, N]⟩ φ₂) (a : Fin M) (c : Fin N) :
    FloatOps.matmul d prec lhs rhs (constant ⟨2, ![M, N]⟩ .f32 0x00000000#32) (ix2 a c) = ∑ k : Fin K, lhs (ix2 a k) * rhs (ix2 k c) :=
  ContractSingle.matmul_zero_single d prec K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

include hcl hcr hrank hsize hl0 hr1 in
/-- The host's `dot_general` at `(a, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (a : Fin M) (c : Fin N) :
    FloatOps.dotGeneral d prec sched lhs rhs (ix2 a c) = ∑ k : Fin K, lhs (ix2 a k) * rhs (ix2 k c) :=
  ContractSingle.dotGeneral_single d prec sched K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

end Idealize.ShloMosaic.RowsCols
-- ==== Proof.KernelIdeal.MatPay.lean ====
/-
  The body of the two projection kernels at an index: the stored block is the product of the left
  block's rows with the right block's rows (the right block is transposed before the product; the
  narrowing of the operands is the identity on exact values), a sum over the 1024 shared columns.
-/
import proofs.«151802_j67714454389137_2_alg».proof.Proof.Gen.KernelIdeal.Skeleton
import proofs.«151802_j67714454389137_2_alg».proof.Proof.LibRowsCols
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The product's dimension record. -/
abbrev dMM : DotDims S512x1024 S1024x512 S512x512 := dot_S512x1024_S1024x512_S512x512_1_0_0_1_n_n

theorem mm_hl0 (j : S512x512.Idx) (q : dMM.contr.Idx) : (dMM.lhsIdx j q 0).val = (j 0).val := by
  unfold DotDims.lhsIdx
  rw [dif_neg (show ¬(0 : Fin S512x1024.rank) ∈ dMM.lhsBatch by decide), dif_pos (show (0 : Fin S512x1024.rank) ∈ dMM.lhsNonContracting by decide)]
  rfl

theorem mm_hr1 (j : S512x512.Idx) (q : dMM.contr.Idx) : (dMM.rhsIdx j q 1).val = (j 1).val := by
  unfold DotDims.rhsIdx
  rw [dif_neg (show ¬(1 : Fin S1024x512.rank) ∈ dMM.rhsBatch by decide), dif_pos (show (1 : Fin S1024x512.rank) ∈ dMM.rhsNonContracting by decide)]
  rfl

/-- Rows of the left block against rows of the right block. -/
theorem rows_by_rows (v0 v3 : S512x1024.Idx → EReal) (a b : Fin 512) :
    FloatOps.matmul dMM none (truncf (F := Ideal) .bf16 (shapeCast S512x1024 v0 shapeCasts_S512x1024_S512x1024) bitsLt_bf16_f32)
      (transpose S1024x512 [1, 0] (truncf (F := Ideal) .bf16 v3 bitsLt_bf16_f32) transposes_S512x1024_p1_0_S1024x512)
      (constant S512x512 .f32 0x00000000#32) (ix2 a b)
      = ∑ k : Fin 1024, v0 (ix2 a k) * v3 (ix2 b k) := by
  refine (RowsCols.matmul_zero_apply dMM rfl rfl rfl rfl mm_hl0 mm_hr1 none _ _ a b).trans ?_
  refine Finset.sum_congr rfl fun k _ => ?_
  rw [transpose_ix2_apply, shapeCast_self]
  rfl

theorem k0_pay1_apply (v0 v3 : Vec Ideal S512x1024 .f32) (a b : Fin 512) :
    k0_pay1 (F := Ideal) v0 v3 (ix2 a b) = ∑ k : Fin 1024, v0 (ix2 a k) * v3 (ix2 b k) :=
  rows_by_rows v0 v3 a b

theorem k2_pay1_apply (v0 v3 : Vec Ideal S512x1024 .f32) (a b : Fin 512) :
    k2_pay1 (F := Ideal) v0 v3 (ix2 a b) = ∑ k : Fin 1024, v0 (ix2 a k) * v3 (ix2 b k) :=
  rows_by_rows v0 v3 a b

end Cert.KernelIdeal.Hand

end
-- ==== Proof.KernelIdeal.Val2.lean ====
/-
  Region 2's result array after the run: the 2 column blocks written back tile the [512, 1024]
  array, and block t is the product of the whole left operand with the t-th block of 512 rows of the
  right operand; so the array ends holding, at (n, o), the sum over the 1024 shared columns of the
  left operand's row n times the right operand's row o.
-/
import proofs.«151802_j67714454389137_2_alg».proof.Proof.KernelIdeal.R2
import proofs.«151802_j67714454389137_2_alg».proof.Proof.KernelIdeal.MatPay

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Rows of `a` against rows of `b`: the whole product. -/
def prodRows2 (a : S512x1024.Idx → EReal) (b : S1024x1024.Idx → EReal) : S512x1024.Idx → EReal :=
  fun i => ∑ k : Fin 1024, a (ix2 ⟨(i 0).val, (i 0).isLt⟩ k) * b (ix2 ⟨(i 1).val, (i 1).isLt⟩ k)

/-- The printed index maps over the grid: the left operand whole, the right operand's and the result's
    blocks moving together. -/
theorem idx_facts2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- What point `t` writes back is block `t` of the whole product. -/
theorem flushed2_eq (c : Dev nD) (t : Fin cfg2.N) :
    (dat2 V c).flushed 2 t = ((cfg2.win 2).blk t).view.read (Elt Ideal) (prodRows2 (V c main_v38) (V c main_arg2)) := by
  show (cfg2.win 2).cut (grid2.coords t) ((dat2 V c).after 2 t) = _
  rw [after2_2]
  unfold out2_2
  rw [View.canon_unit_zero hz2]
  simp only [View.ld_unit_zero (S := S512x1024) hz2]
  obtain ⟨e0, e1, e2, e3, e4, e5⟩ := idx_facts2 t
  funext j
  obtain ⟨a, b, rfl⟩ : ∃ (a : Fin 512) (b : Fin 512), j = ix2 a b := ⟨j 0, j 1, eq_ix2 j⟩
  refine (k2_pay1_apply _ _ a b).trans ?_
  show _ = prodRows2 (V c main_v38) (V c main_arg2) (((cfg2.win 2).blk t).view.emb (ix2 a b))
  unfold prodRows2
  refine Finset.sum_congr rfl fun k _ => ?_
  have h0 : ((cfg2.win 0).blk t).view.emb (ix2 a k) = ix2 ⟨((((cfg2.win 2).blk t).view.emb (ix2 a b)) 0).val, ((((cfg2.win 2).blk t).view.emb (ix2 a b)) 0).isLt⟩ k := by
    funext x; apply Fin.ext
    match x with
    | ⟨0, _⟩ => show win2_0.index t (0 : Fin 2) * 512 + 1 * a.val = win2_2.index t (0 : Fin 2) * 512 + 1 * a.val; omega
    | ⟨1, _⟩ => show win2_0.index t (1 : Fin 2) * 1024 + 1 * k.val = k.val; omega
  have h1 : ((cfg2.win 1).blk t).view.emb (ix2 b k) = ix2 ⟨((((cfg2.win 2).blk t).view.emb (ix2 a b)) 1).val, ((((cfg2.win 2).blk t).view.emb (ix2 a b)) 1).isLt⟩ k := by
    funext x; apply Fin.ext
    match x with
    | ⟨0, _⟩ => show win2_1.index t (0 : Fin 2) * 512 + 1 * b.val = win2_2.index t (1 : Fin 2) * 512 + 1 * b.val; omega
    | ⟨1, _⟩ => show win2_1.index t (1 : Fin 2) * 1024 + 1 * k.val = k.val; omega
  have fa : S512x1024.Idx → EReal := V c main_v38
  exact congrArg₂ (fun (x y : EReal) => x * y) (congrArg (V c main_v38 : S512x1024.Idx → EReal) h0) (congrArg (V c main_arg2 : S1024x1024.Idx → EReal) h1)

/-- An index of the array is in point `t`'s block iff each coordinate is in the block's range. -/
theorem mem_blk2 (t : Fin cfg2.N) (i : S512x1024.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v39).slice (win2_2.rect t)).set ↔ _
  rw [View.set_slice_whole, Rect.mem_set_unit]
  exact Iff.rfl

/-- Every index of the array is in some point's block: the point of its column block. -/
theorem cover2 (i : S512x1024.Idx) : ∃ t : Fin cfg2.N, (cfg2.win 2).flush t = true ∧ i ∈ ((cfg2.win 2).blk t).view.set := by
  have hi0 : (i 0).val < 512 := (i 0).isLt
  have hi1 : (i 1).val < 1024 := (i 1).isLt
  have hN : cfg2.N = 2 := N_2
  refine ⟨⟨(i 1).val / 512, by omega⟩, flush2_2 _, ?_⟩
  rw [mem_blk2]
  obtain ⟨e0, e1, e2, e3, e4, e5⟩ := idx_facts2 ⟨(i 1).val / 512, by omega⟩
  intro a
  match a with
  | ⟨0, _⟩ => show win2_2.index _ (0 : Fin 2) * 512 ≤ (i 0).val ∧ (i 0).val < win2_2.index _ (0 : Fin 2) * 512 + 512; omega
  | ⟨1, _⟩ => show win2_2.index _ (1 : Fin 2) * 512 ≤ (i 1).val ∧ (i 1).val < win2_2.index _ (1 : Fin 2) * 512 + 512; simp only [] at e5; omega

/-- The result array after the run. -/
theorem final2 (c : Dev nD) : (dat2 V c).arrAt 2 cfg2.N = prodRows2 (V c main_v38) (V c main_arg2) :=
  (dat2 V c).arrAt_eq_of_cover 2 (prodRows2 (V c main_v38) (V c main_arg2)) (fun t _ => flushed2_eq V c t) (cover2)

end Cert.KernelIdeal.Hand

end
-- ==== Proof.KernelIdeal.GlueEnds.lean ====
/-
  The first and last host operations of the kernel's program, read at an index on the extended reals:
  both only add or drop a leading axis of extent one, so an entry is the operand's entry with the same row and column.
-/
import proofs.«151802_j67714454389137_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The input with its leading unit axis dropped: entry (n, c) is the argument's entry (0, n, c). -/
theorem read_v0 (n : Fin 512) (c : Fin 1024) :
    (StableHlo.after hostOps0 W (Proc.devRef .tc main_v0) : S512x1024.Idx → EReal) (ix2 n c)
      = (W (Proc.devRef .tc main_arg0) : S1x512x1024.Idx → EReal) (ix3 (0 : Fin 1) n c) := by
  have e : (StableHlo.after hostOps0 W (Proc.devRef .tc main_v0) : S512x1024.Idx → EReal)
      = shapeCast S512x1024 (W (Proc.devRef .tc main_arg0) : S1x512x1024.Idx → EReal) shapeCasts_S1x512x1024_S512x1024 := by
    simp only [hostOps0]; after_results; rfl
  rw [e]
  exact shapeCast_1ab_ab_apply (W (Proc.devRef .tc main_arg0) : S1x512x1024.Idx → EReal) shapeCasts_S1x512x1024_S512x1024 n c

/-- The result with a leading unit axis added: entry (0, n, o) is the last product's entry (n, o). -/
theorem read_v40 (n : Fin 512) (o : Fin 1024) :
    (StableHlo.after hostOps3 W (Proc.devRef .tc main_v40) : S1x512x1024.Idx → EReal) (ix3 (0 : Fin 1) n o)
      = (W (Proc.devRef .tc main_v39) : S512x1024.Idx → EReal) (ix2 n o) := by
  have e : (StableHlo.after hostOps3 W (Proc.devRef .tc main_v40) : S1x512x1024.Idx → EReal)
      = shapeCast S1x512x1024 (W (Proc.devRef .tc main_v39) : S512x1024.Idx → EReal) shapeCasts_S512x1024_S1x512x1024 := by
    simp only [hostOps3]; after_results; rfl
  rw [e]
  exact shapeCast_ab_1ab_apply (W (Proc.devRef .tc main_v39) : S512x1024.Idx → EReal) shapeCasts_S512x1024_S1x512x1024 (0 : Fin 1) n o

end Cert.KernelIdeal.Glue

end
-- ==== Proof.KernelIdeal.GlueFlat.lean ====
/-
  The host operations between the attention region and the output product, read at an index on the
  extended reals: the heads' outputs [16, 512, 64] are transposed to [512, 16, 64] and flattened to [512, 1024],
  so column e of row n is head e / 64, row n, coordinate e % 64.
-/
import proofs.«151802_j67714454389137_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The transpose [1, 0, 2] followed by the flattening of the last two axes, over any operand. -/
theorem flatten_heads_apply {α : Type} (x : S16x512x64.Idx → α) (n : Fin 512) (e : Fin 1024) :
    shapeCast S512x1024 (transpose S512x16x64 [1, 0, 2] x transposes_S16x512x64_S512x16x64_1_0_2) shapeCasts_S512x16x64_S512x1024 (ix2 n e)
      = x (ix3 (⟨e.val / 64, by omega⟩ : Fin 16) n (⟨e.val % 64, by omega⟩ : Fin 64)) := by
  refine (shapeCast_apply (s := S512x16x64) (t := S512x1024) _ shapeCasts_S512x16x64_S512x1024 (ix2 n e)
    (ix3 n (⟨e.val / 64, by omega⟩ : Fin 16) (⟨e.val % 64, by omega⟩ : Fin 64)) ?_).trans ?_
  · rw [Shape.rowMajor_val_three, Shape.rowMajor_val_two]
    show (n.val * 16 + e.val / 64) * 64 + e.val % 64 = n.val * 1024 + e.val
    omega
  · exact transpose_apply (s := S16x512x64) (t := S512x16x64) [1, 0, 2] x transposes_S16x512x64_S512x16x64_1_0_2 _ _
      fun b => match b with | ⟨0, _⟩ => rfl | ⟨1, _⟩ => rfl | ⟨2, _⟩ => rfl

/-- The flattened heads: entry (n, e) is the attention region's entry (e / 64, n, e % 64). -/
theorem read_v38 (n : Fin 512) (e : Fin 1024) :
    (StableHlo.after hostOps2 W (Proc.devRef .tc main_v38) : S512x1024.Idx → EReal) (ix2 n e)
      = (W (Proc.devRef .tc main_v36) : S16x512x64.Idx → EReal) (ix3 (⟨e.val / 64, by omega⟩ : Fin 16) n (⟨e.val % 64, by omega⟩ : Fin 64)) := by
  have h : (StableHlo.after hostOps2 W (Proc.devRef .tc main_v38) : S512x1024.Idx → EReal)
      = shapeCast S512x1024 (transpose S512x16x64 [1, 0, 2] (W (Proc.devRef .tc main_v36) : S16x512x64.Idx → EReal)
          transposes_S16x512x64_S512x16x64_1_0_2) shapeCasts_S512x16x64_S512x1024 := by
    simp only [hostOps2]; after_results; rfl
  rw [h]
  exact flatten_heads_apply (W (Proc.devRef .tc main_v36) : S16x512x64.Idx → EReal) n e

end Cert.KernelIdeal.Glue

end
-- ==== Proof.KernelIdeal.GlueFinal.lean ====
/-
  The kernel's result, read at an index on the extended reals.

  The last host operation only adds a leading axis of extent one to the last region's product; that
  product is, at (n, o), the sum over the 1024 shared columns e of the flattened heads' row n times
  the output weight's row o; the flattened heads at (n, e) are the attention region's output of head
  e / 64 at row n, coordinate e % 64; and the output weight reaches the last region as launched.
  Term by term this is the specification's result.
-/
import proofs.«151802_j67714454389137_2_alg».proof.Proof.KernelIdeal.Run
import proofs.«151802_j67714454389137_2_alg».proof.Proof.Gen.KernelIdeal.Regions
import proofs.«151802_j67714454389137_2_alg».proof.Proof.KernelIdeal.Val1
import proofs.«151802_j67714454389137_2_alg».proof.Proof.KernelIdeal.Val2
import proofs.«151802_j67714454389137_2_alg».proof.Proof.KernelIdeal.GlueEnds
import proofs.«151802_j67714454389137_2_alg».proof.Proof.KernelIdeal.GlueFlat
import proofs.«151802_j67714454389137_2_alg».proof.Proof.SpecIn

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

/-- The output weight is written by no host operation and held by no region before the last one, so
    at the last region's entry it is as launched. -/
theorem W7_main_arg2 (m : (ℓ : Loc nD τ sig) → Buf (Elt Ideal) ℓ) (c : Dev nD) :
    W7 m c main_arg2 = m ((c : Thread nD τ).loc main_arg2) :=
  calc W7 m c main_arg2
    _ = W6 m c main_arg2 := StableHlo.after_of_writes_sub hostOps2 _ hostOps2_writes (by decide : main_arg2 ∉ hostOps2_W)
    _ = W5 m c main_arg2 := W6_of_ne m c main_arg2 (by decide)
    _ = W4 m c main_arg2 := StableHlo.after_of_writes_sub hostOps1_2 _ hostOps1_2_writes (by decide : main_arg2 ∉ hostOps1_2_W)
    _ = W3 m c main_arg2 := StableHlo.after_of_writes_sub hostOps1_1 _ hostOps1_1_writes (by decide : main_arg2 ∉ hostOps1_1_W)
    _ = W2 m c main_arg2 := StableHlo.after_of_writes_sub hostOps1 _ hostOps1_writes (by decide : main_arg2 ∉ hostOps1_W)
    _ = W1 m c main_arg2 := W2_of_ne m c main_arg2 (by decide)
    _ = W0 m c main_arg2 := StableHlo.after_of_writes_sub hostOps0 _ hostOps0_writes (by decide : main_arg2 ∉ hostOps0_W)
    _ = m ((c : Thread nD τ).loc main_arg2) := rfl

/-- The result at (0, n, o), given what the attention region leaves: the sum over the 1024 columns e of
    the attention output of head e / 64 at row n, coordinate e % 64, times the output weight at (o, e). -/
theorem kernel_value_core (m : (ℓ : Loc nD τ sig) → Buf (Elt Ideal) ℓ) (c : Dev nD)
    (h36 : ∀ (h : Fin 16) (n : Fin 512) (d : Fin 64),
      (W6 (F := Ideal) m c (Proc.devRef .tc main_v36) : S16x512x64.Idx → EReal) (ix3 h n d) = Cert.Spec.out (Cert.Spec.inOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12))) h n d)
    (n : Fin 512) (o : Fin 1024) :
    (W9 (F := Ideal) m c main_v40 : S1x512x1024.Idx → EReal) (ix3 (0 : Fin 1) n o) = Cert.Spec.final (Cert.Spec.inOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12))) n o := by
  refine (Glue.read_v40 (W8 m c) n o).trans ?_
  have h39 : (W8 (F := Ideal) m c (Proc.devRef .tc main_v39) : S512x1024.Idx → EReal)
      = prodRows2 (V7 m c main_v38) (V7 m c main_arg2) := (W8_arr m c 2).trans (final2 (V7 m) c)
  rw [h39]
  unfold prodRows2 Cert.Spec.final
  show (_ : EReal) = _
  refine Finset.sum_congr rfl fun e _ => ?_
  refine congrArg₂ (fun (x y : EReal) => x * y) ?_ ?_
  · exact (Glue.read_v38 (W6 m c) n e).trans (h36 _ n _)
  · have hw : (V7 (F := Ideal) m c main_arg2 : S1024x1024.Idx → EReal) = m ((c : Thread nD τ).loc main_arg2) := W7_main_arg2 m c
    rw [hw]
    rfl

/-- The result at (0, n, o) is the specification's result at (n, o). -/
theorem kernel_value_at (hbm : BlockMath) (m : (ℓ : Loc nD τ sig) → Buf (Elt Ideal) ℓ) (c : Dev nD)
    (hy : Hyp1 (V5 (F := Ideal) m) (Cert.Spec.inOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12))) c)
    (n : Fin 512) (o : Fin 1024) :
    (W9 (F := Ideal) m c main_v40 : S1x512x1024.Idx → EReal) (ix3 (0 : Fin 1) n o) = Cert.Spec.final (Cert.Spec.inOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12))) n o :=
  kernel_value_core m c (fun h n d => by
    have h36 : (W6 (F := Ideal) m c (Proc.devRef .tc main_v36) : S16x512x64.Idx → EReal) = attnOut (Cert.Spec.inOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12))) :=
      (W6_arr m c 14).trans (final1 hbm hy)
    rw [h36]
    rfl) n o

/-- The result at any index is the specification's result at its row and column. -/
theorem kernel_value (hbm : BlockMath) (m : (ℓ : Loc nD τ sig) → Buf (Elt Ideal) ℓ) (c : Dev nD)
    (hy : Hyp1 (V5 (F := Ideal) m) (Cert.Spec.inOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12))) c)
    (i : S1x512x1024.Idx) :
    (W9 (F := Ideal) m c main_v40 : S1x512x1024.Idx → EReal) i
      = Cert.Spec.final (Cert.Spec.inOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12))) ⟨(i 1).val, (i 1).isLt⟩ ⟨(i 2).val, (i 2).isLt⟩ := by
  obtain ⟨u, n, o, rfl⟩ : ∃ (u : Fin 1) (n : Fin 512) (o : Fin 1024), i = ix3 u n o := ⟨i 0, i 1, i 2, eq_ix3 i⟩
  obtain rfl : u = 0 := Subsingleton.elim _ _
  exact kernel_value_at hbm m c hy n o

end Cert.KernelIdeal.Hand

end
-- ==== Proof.KernelIdeal.Val0.lean ====
/-
  Region 0's result array after the run: the 6 column blocks written back tile the [512, 3072]
  array, and block t is the product of the whole left operand with the t-th block of 512 rows of the
  right operand; so the array ends holding, at (n, o), the sum over the 1024 shared columns of the
  left operand's row n times the right operand's row o.
-/
import proofs.«151802_j67714454389137_2_alg».proof.Proof.KernelIdeal.R0
import proofs.«151802_j67714454389137_2_alg».proof.Proof.KernelIdeal.MatPay

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- Rows of `a` against rows of `b`: the whole product. -/
def prodRows0 (a : S512x1024.Idx → EReal) (b : S3072x1024.Idx → EReal) : S512x3072.Idx → EReal :=
  fun i => ∑ k : Fin 1024, a (ix2 ⟨(i 0).val, (i 0).isLt⟩ k) * b (ix2 ⟨(i 1).val, (i 1).isLt⟩ k)

/-- The printed index maps over the grid: the left operand whole, the right operand's and the result's
    blocks moving together. -/
theorem idx_facts0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What point `t` writes back is block `t` of the whole product. -/
theorem flushed0_eq (c : Dev nD) (t : Fin cfg0.N) :
    (dat0 V c).flushed 2 t = ((cfg0.win 2).blk t).view.read (Elt Ideal) (prodRows0 (V c main_v0) (V c main_arg1)) := by
  show (cfg0.win 2).cut (grid0.coords t) ((dat0 V c).after 2 t) = _
  rw [after0_2]
  unfold out0_2
  rw [View.canon_unit_zero hz0]
  simp only [View.ld_unit_zero (S := S512x1024) hz0]
  obtain ⟨e0, e1, e2, e3, e4, e5⟩ := idx_facts0 t
  funext j
  obtain ⟨a, b, rfl⟩ : ∃ (a : Fin 512) (b : Fin 512), j = ix2 a b := ⟨j 0, j 1, eq_ix2 j⟩
  refine (k0_pay1_apply _ _ a b).trans ?_
  show _ = prodRows0 (V c main_v0) (V c main_arg1) (((cfg0.win 2).blk t).view.emb (ix2 a b))
  unfold prodRows0
  refine Finset.sum_congr rfl fun k _ => ?_
  have h0 : ((cfg0.win 0).blk t).view.emb (ix2 a k) = ix2 ⟨((((cfg0.win 2).blk t).view.emb (ix2 a b)) 0).val, ((((cfg0.win 2).blk t).view.emb (ix2 a b)) 0).isLt⟩ k := by
    funext x; apply Fin.ext
    match x with
    | ⟨0, _⟩ => show win0_0.index t (0 : Fin 2) * 512 + 1 * a.val = win0_2.index t (0 : Fin 2) * 512 + 1 * a.val; omega
    | ⟨1, _⟩ => show win0_0.index t (1 : Fin 2) * 1024 + 1 * k.val = k.val; omega
  have h1 : ((cfg0.win 1).blk t).view.emb (ix2 b k) = ix2 ⟨((((cfg0.win 2).blk t).view.emb (ix2 a b)) 1).val, ((((cfg0.win 2).blk t).view.emb (ix2 a b)) 1).isLt⟩ k := by
    funext x; apply Fin.ext
    match x with
    | ⟨0, _⟩ => show win0_1.index t (0 : Fin 2) * 512 + 1 * b.val = win0_2.index t (1 : Fin 2) * 512 + 1 * b.val; omega
    | ⟨1, _⟩ => show win0_1.index t (1 : Fin 2) * 1024 + 1 * k.val = k.val; omega
  have fa : S512x1024.Idx → EReal := V c main_v0
  exact congrArg₂ (fun (x y : EReal) => x * y) (congrArg (V c main_v0 : S512x1024.Idx → EReal) h0) (congrArg (V c main_arg1 : S3072x1024.Idx → EReal) h1)

/-- An index of the array is in point `t`'s block iff each coordinate is in the block's range. -/
theorem mem_blk0 (t : Fin cfg0.N) (i : S512x3072.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v1).slice (win0_2.rect t)).set ↔ _
  rw [View.set_slice_whole, Rect.mem_set_unit]
  exact Iff.rfl

/-- Every index of the array is in some point's block: the point of its column block. -/
theorem cover0 (i : S512x3072.Idx) : ∃ t : Fin cfg0.N, (cfg0.win 2).flush t = true ∧ i ∈ ((cfg0.win 2).blk t).view.set := by
  have hi0 : (i 0).val < 512 := (i 0).isLt
  have hi1 : (i 1).val < 3072 := (i 1).isLt
  have hN : cfg0.N = 6 := N_0
  refine ⟨⟨(i 1).val / 512, by omega⟩, flush0_2 _, ?_⟩
  rw [mem_blk0]
  obtain ⟨e0, e1, e2, e3, e4, e5⟩ := idx_facts0 ⟨(i 1).val / 512, by omega⟩
  intro a
  match a with
  | ⟨0, _⟩ => show win0_2.index _ (0 : Fin 2) * 512 ≤ (i 0).val ∧ (i 0).val < win0_2.index _ (0 : Fin 2) * 512 + 512; omega
  | ⟨1, _⟩ => show win0_2.index _ (1 : Fin 2) * 512 ≤ (i 1).val ∧ (i 1).val < win0_2.index _ (1 : Fin 2) * 512 + 512; simp only [] at e5; omega

/-- The result array after the run. -/
theorem final0 (c : Dev nD) : (dat0 V c).arrAt 2 cfg0.N = prodRows0 (V c main_v0) (V c main_arg1) :=
  (dat0 V c).arrAt_eq_of_cover 2 (prodRows0 (V c main_v0) (V c main_arg1)) (fun t _ => flushed0_eq V c t) (cover0)

end Cert.KernelIdeal.Hand

end
-- ==== Proof.KernelIdeal.GlueRows.lean ====
/-
  The bias rows the attention region reads, as the host operations before it lay them out, on the extended
  reals: a bias vector becomes a one-row matrix; the two hidden layers' biases are first repeated eight times
  (once per key of a block), so entry l of the long row is the bias at l modulo its length.
-/
import proofs.«151802_j67714454389137_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- A vector of 32 repeated over 8 rows and flattened to one row of 256: entry l is the vector's entry l % 32. -/
theorem tile32_apply {α : Type} (x : S32.Idx → α) (u : Fin 1) (l : Fin 256) :
    shapeCast S1x256 (shapeCast S256 (broadcastInDim S8x32 ![0, 1] bcast_S1x32_S8x32_0_1 (shapeCast S1x32 x shapeCasts_S32_S1x32))
      shapeCasts_S8x32_S256) shapeCasts_S256_S1x256 (ix2 u l) = x (ix1 (⟨l.val % 32, by omega⟩ : Fin 32)) := by
  refine (shapeCast_a_1a_apply _ shapeCasts_S256_S1x256 u l).trans ?_
  refine (shapeCast_apply (s := S8x32) (t := S256) _ shapeCasts_S8x32_S256 (ix1 l)
    (ix2 (⟨l.val / 32, by omega⟩ : Fin 8) (⟨l.val % 32, by omega⟩ : Fin 32)) ?_).trans ?_
  · rw [Shape.rowMajor_val_two, Shape.rowMajor_val_one]
    show l.val / 32 * 32 + l.val % 32 = l.val
    omega
  refine (broadcastInDim_apply (s := S1x32) (t := S8x32) ![0, 1] bcast_S1x32_S8x32_0_1 _ _
    (ix2 (0 : Fin 1) (⟨l.val % 32, by omega⟩ : Fin 32)) ?_).trans ?_
  · intro a; match a with | ⟨0, _⟩ => rfl | ⟨1, _⟩ => rfl
  exact shapeCast_a_1a_apply x shapeCasts_S32_S1x32 (0 : Fin 1) _

/-- A vector of 16 repeated over 8 rows and flattened to one row of 128: entry l is the vector's entry l % 16. -/
theorem tile16_apply {α : Type} (x : S16.Idx → α) (u : Fin 1) (l : Fin 128) :
    shapeCast S1x128 (shapeCast S128 (broadcastInDim S8x16 ![0, 1] bcast_S1x16_S8x16_0_1 (shapeCast S1x16 x shapeCasts_S16_S1x16))
      shapeCasts_S8x16_S128) shapeCasts_S128_S1x128 (ix2 u l) = x (ix1 (⟨l.val % 16, by omega⟩ : Fin 16)) := by
  refine (shapeCast_a_1a_apply _ shapeCasts_S128_S1x128 u l).trans ?_
  refine (shapeCast_apply (s := S8x16) (t := S128) _ shapeCasts_S8x16_S128 (ix1 l)
    (ix2 (⟨l.val / 16, by omega⟩ : Fin 8) (⟨l.val % 16, by omega⟩ : Fin 16)) ?_).trans ?_
  · rw [Shape.rowMajor_val_two, Shape.rowMajor_val_one]
    show l.val / 16 * 16 + l.val % 16 = l.val
    omega
  refine (broadcastInDim_apply (s := S1x16) (t := S8x16) ![0, 1] bcast_S1x16_S8x16_0_1 _ _
    (ix2 (0 : Fin 1) (⟨l.val % 16, by omega⟩ : Fin 16)) ?_).trans ?_
  · intro a; match a with | ⟨0, _⟩ => rfl | ⟨1, _⟩ => rfl
  exact shapeCast_a_1a_apply x shapeCasts_S16_S1x16 (0 : Fin 1) _

/-- The first hidden layer's bias, repeated: entry (0, l) is the bias at l % 32. -/
theorem read_v33 (l : Fin 256) :
    (StableHlo.after hostOps1_2 W (Proc.devRef .tc main_v33) : S1x256.Idx → EReal) (ix2 (0 : Fin 1) l)
      = (W (Proc.devRef .tc main_arg8) : S32.Idx → EReal) (ix1 (⟨l.val % 32, by omega⟩ : Fin 32)) := by
  have h : (StableHlo.after hostOps1_2 W (Proc.devRef .tc main_v33) : S1x256.Idx → EReal)
      = shapeCast S1x256 (shapeCast S256 (broadcastInDim S8x32 ![0, 1] bcast_S1x32_S8x32_0_1
          (shapeCast S1x32 (W (Proc.devRef .tc main_arg8) : S32.Idx → EReal) shapeCasts_S32_S1x32))
          shapeCasts_S8x32_S256) shapeCasts_S256_S1x256 := by
    simp only [hostOps1_2]; after_results; rfl
  rw [h]
  exact tile32_apply (W (Proc.devRef .tc main_arg8) : S32.Idx → EReal) (0 : Fin 1) l

/-- The second hidden layer's bias, repeated: entry (0, l') is the bias at l' % 16. -/
theorem read_v34 (l' : Fin 128) :
    (StableHlo.after hostOps1_2 W (Proc.devRef .tc main_v34) : S1x128.Idx → EReal) (ix2 (0 : Fin 1) l')
      = (W (Proc.devRef .tc main_arg10) : S16.Idx → EReal) (ix1 (⟨l'.val % 16, by omega⟩ : Fin 16)) := by
  have h : (StableHlo.after hostOps1_2 W (Proc.devRef .tc main_v34) : S1x128.Idx → EReal)
      = shapeCast S1x128 (shapeCast S128 (broadcastInDim S8x16 ![0, 1] bcast_S1x16_S8x16_0_1
          (shapeCast S1x16 (W (Proc.devRef .tc main_arg10) : S16.Idx → EReal) shapeCasts_S16_S1x16))
          shapeCasts_S8x16_S128) shapeCasts_S128_S1x128 := by
    simp only [hostOps1_2]; after_results; rfl
  rw [h]
  exact tile16_apply (W (Proc.devRef .tc main_arg10) : S16.Idx → EReal) (0 : Fin 1) l'

/-- The query map's bias as a one-row matrix. -/
theorem read_v31 (p : Fin 32) :
    (StableHlo.after hostOps1_2 W (Proc.devRef .tc main_v31) : S1x32.Idx → EReal) (ix2 (0 : Fin 1) p)
      = (W (Proc.devRef .tc main_arg4) : S32.Idx → EReal) (ix1 p) := by
  have h : (StableHlo.after hostOps1_2 W (Proc.devRef .tc main_v31) : S1x32.Idx → EReal)
      = shapeCast S1x32 (W (Proc.devRef .tc main_arg4) : S32.Idx → EReal) shapeCasts_S32_S1x32 := by
    simp only [hostOps1_2]; after_results; rfl
  rw [h]
  exact shapeCast_a_1a_apply (W (Proc.devRef .tc main_arg4) : S32.Idx → EReal) shapeCasts_S32_S1x32 (0 : Fin 1) p

/-- The key map's bias as a one-row matrix. -/
theorem read_v32 (p : Fin 32) :
    (StableHlo.after hostOps1_2 W (Proc.devRef .tc main_v32) : S1x32.Idx → EReal) (ix2 (0 : Fin 1) p)
      = (W (Proc.devRef .tc main_arg6) : S32.Idx → EReal) (ix1 p) := by
  have h : (StableHlo.after hostOps1_2 W (Proc.devRef .tc main_v32) : S1x32.Idx → EReal)
      = shapeCast S1x32 (W (Proc.devRef .tc main_arg6) : S32.Idx → EReal) shapeCasts_S32_S1x32 := by
    simp only [hostOps1_2]; after_results; rfl
  rw [h]
  exact shapeCast_a_1a_apply (W (Proc.devRef .tc main_arg6) : S32.Idx → EReal) shapeCasts_S32_S1x32 (0 : Fin 1) p

/-- The score's bias as a one-by-one matrix. -/
theorem read_v35 :
    (StableHlo.after hostOps1_2 W (Proc.devRef .tc main_v35) : S1x1.Idx → EReal) (ix2 (0 : Fin 1) (0 : Fin 1))
      = (W (Proc.devRef .tc main_arg12) : S1.Idx → EReal) (ix1 (0 : Fin 1)) := by
  have h : (StableHlo.after hostOps1_2 W (Proc.devRef .tc main_v35) : S1x1.Idx → EReal)
      = shapeCast S1x1 (W (Proc.devRef .tc main_arg12) : S1.Idx → EReal) shapeCasts_S1_S1x1 := by
    simp only [hostOps1_2]; after_results; rfl
  rw [h]
  exact shapeCast_a_1a_apply (W (Proc.devRef .tc main_arg12) : S1.Idx → EReal) shapeCasts_S1_S1x1 (0 : Fin 1) (0 : Fin 1)

end Cert.KernelIdeal.Glue

end
-- ==== Proof.KernelIdeal.GlueMats.lean ====
/-
  The small weight matrices the attention region reads, as the host operations before it cut them, on the
  extended reals: the first hidden layer's weight [32, 64] is cut into its left and right halves (the query side
  and the key side), and the second hidden layer's weight [16, 32] is transposed.
-/
import proofs.«151802_j67714454389137_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The left half of the first hidden layer's weight: entry (p, p') is the weight's entry (p, p'). -/
theorem read_v15 (p p' : Fin 32) :
    (StableHlo.after hostOps1 W (Proc.devRef .tc main_v15) : S32x32.Idx → EReal) (ix2 p p')
      = (W (Proc.devRef .tc main_arg7) : S32x64.Idx → EReal) (ix2 p (⟨p'.val, by omega⟩ : Fin 64)) := by
  have h : (StableHlo.after hostOps1 W (Proc.devRef .tc main_v15) : S32x32.Idx → EReal)
      = extractStridedSlice S32x32 ![0, 0] (W (Proc.devRef .tc main_arg7) : S32x64.Idx → EReal) slices_S32x64_S32x32_0_0 := by
    simp only [hostOps1]; after_results; all_goals rfl
  rw [h]
  exact slice2_axis1_apply 0 (W (Proc.devRef .tc main_arg7) : S32x64.Idx → EReal) slices_S32x64_S32x32_0_0 p p'
    (⟨p'.val, by omega⟩ : Fin 64) (Nat.zero_add _).symm

/-- The right half of the first hidden layer's weight: entry (p, p') is the weight's entry (p, 32 + p'). -/
theorem read_v16 (p p' : Fin 32) :
    (StableHlo.after hostOps1 W (Proc.devRef .tc main_v16) : S32x32.Idx → EReal) (ix2 p p')
      = (W (Proc.devRef .tc main_arg7) : S32x64.Idx → EReal) (ix2 p (⟨32 + p'.val, by omega⟩ : Fin 64)) := by
  have h : (StableHlo.after hostOps1 W (Proc.devRef .tc main_v16) : S32x32.Idx → EReal)
      = extractStridedSlice S32x32 ![0, 32] (W (Proc.devRef .tc main_arg7) : S32x64.Idx → EReal) slices_S32x64_S32x32_0_32 := by
    simp only [hostOps1]; after_results; all_goals rfl
  rw [h]
  exact slice2_axis1_apply 32 (W (Proc.devRef .tc main_arg7) : S32x64.Idx → EReal) slices_S32x64_S32x32_0_32 p p'
    (⟨32 + p'.val, by omega⟩ : Fin 64) rfl

/-- The second hidden layer's weight transposed: entry (p, r) is the weight's entry (r, p). -/
theorem read_v23 (p : Fin 32) (r : Fin 16) :
    (StableHlo.after hostOps1 W (Proc.devRef .tc main_v23) : S32x16.Idx → EReal) (ix2 p r)
      = (W (Proc.devRef .tc main_arg9) : S16x32.Idx → EReal) (ix2 r p) := by
  have h : (StableHlo.after hostOps1 W (Proc.devRef .tc main_v23) : S32x16.Idx → EReal)
      = transpose S32x16 [1, 0] (W (Proc.devRef .tc main_arg9) : S16x32.Idx → EReal) transposes_S16x32_S32x16_1_0 := by
    simp only [hostOps1]; after_results; all_goals rfl
  rw [h]
  exact transpose_ix2_apply (W (Proc.devRef .tc main_arg9) : S16x32.Idx → EReal) transposes_S16x32_S32x16_1_0 p r

end Cert.KernelIdeal.Glue

end
-- ==== Proof.KernelIdeal.GlueQKV.lean ====
/-
  The queries, keys and values as the host operations cut them out of the projection, on the extended reals.
  A projection row has 3072 columns laid out as (d, k, h): d the slowest of 64, k one of the three of query / key /
  value, h the fastest of 16 heads.  The host reshapes the row to [64, 3, 16], keeps one k, and moves the head axis
  to the front: entry (h, n, d) of the result is column d · 48 + k · 16 + h of row n.
-/
import proofs.«151802_j67714454389137_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The reshape to [1, 512, 64, 3, 16], the cut at position o of the axis of three, the reshape that drops that axis,
    the transpose that brings the heads to the front and the reshape that drops the leading unit axis, over any operand. -/
theorem head_split_apply {α : Type} (o : Nat) (ho : o < 3) (x : S512x3072.Idx → α)
    (hs : S1x512x64x3x16.Slices ![0, 0, 0, o, 0] S1x512x64x1x16) (h : Fin 16) (n : Fin 512) (d : Fin 64) :
    shapeCast S16x512x64 (transpose S1x16x512x64 [0, 3, 1, 2]
        (shapeCast S1x512x64x16 (extractStridedSlice S1x512x64x1x16 ![0, 0, 0, o, 0]
          (shapeCast S1x512x64x3x16 x shapeCasts_S512x3072_S1x512x64x3x16) hs) shapeCasts_S1x512x64x1x16_S1x512x64x16)
        transposes_S1x512x64x16_S1x16x512x64_0_3_1_2) shapeCasts_S1x16x512x64_S16x512x64 (ix3 h n d)
      = x (ix2 n (⟨d.val * 48 + o * 16 + h.val, by omega⟩ : Fin 3072)) := by
  refine (shapeCast_1abc_abc_apply _ shapeCasts_S1x16x512x64_S16x512x64 h n d).trans ?_
  refine (transpose_apply (s := S1x512x64x16) (t := S1x16x512x64) [0, 3, 1, 2] _ transposes_S1x512x64x16_S1x16x512x64_0_3_1_2
    (ix4 (0 : Fin 1) h n d) (ix4 (0 : Fin 1) n d h)
    (fun b => match b with | ⟨0, _⟩ => rfl | ⟨1, _⟩ => rfl | ⟨2, _⟩ => rfl | ⟨3, _⟩ => rfl)).trans ?_
  refine (shapeCast_apply (s := S1x512x64x1x16) (t := S1x512x64x16) _ shapeCasts_S1x512x64x1x16_S1x512x64x16
    (ix4 (0 : Fin 1) n d h) (ix5 (0 : Fin 1) n d (0 : Fin 1) h) ?_).trans ?_
  · rw [Shape.rowMajor_val_five, Shape.rowMajor_val_four]
    show ((((0 : Fin 1).val * 512 + n.val) * 64 + d.val) * 1 + (0 : Fin 1).val) * 16 + h.val
      = (((0 : Fin 1).val * 512 + n.val) * 64 + d.val) * 16 + h.val
    omega
  refine (slice5_axis3_apply o _ hs (0 : Fin 1) n d (0 : Fin 1) h (⟨o, ho⟩ : Fin 3) rfl).trans ?_
  refine shapeCast_apply (s := S512x3072) (t := S1x512x64x3x16) x shapeCasts_S512x3072_S1x512x64x3x16
    (ix5 (0 : Fin 1) n d (⟨o, ho⟩ : Fin 3) h) (ix2 n (⟨d.val * 48 + o * 16 + h.val, by omega⟩ : Fin 3072)) ?_
  rw [Shape.rowMajor_val_five, Shape.rowMajor_val_two]
  show n.val * 3072 + (d.val * 48 + o * 16 + h.val)
    = ((((0 : Fin 1).val * 512 + n.val) * 64 + d.val) * 3 + o) * 16 + h.val
  omega

/-- The queries: entry (h, n, d) is the projection's entry (n, d · 48 + 0 · 16 + h). -/
theorem read_v6 (h : Fin 16) (n : Fin 512) (d : Fin 64) :
    (StableHlo.after hostOps1 W (Proc.devRef .tc main_v6) : S16x512x64.Idx → EReal) (ix3 h n d)
      = (W (Proc.devRef .tc main_v1) : S512x3072.Idx → EReal) (ix2 n (⟨d.val * 48 + 0 * 16 + h.val, by omega⟩ : Fin 3072)) := by
  have e : (StableHlo.after hostOps1 W (Proc.devRef .tc main_v6) : S16x512x64.Idx → EReal)
      = shapeCast S16x512x64 (transpose S1x16x512x64 [0, 3, 1, 2]
          (shapeCast S1x512x64x16 (extractStridedSlice S1x512x64x1x16 ![0, 0, 0, 0, 0]
            (shapeCast S1x512x64x3x16 (W (Proc.devRef .tc main_v1) : S512x3072.Idx → EReal) shapeCasts_S512x3072_S1x512x64x3x16)
            slices_S1x512x64x3x16_S1x512x64x1x16_0_0_0_0_0) shapeCasts_S1x512x64x1x16_S1x512x64x16)
          transposes_S1x512x64x16_S1x16x512x64_0_3_1_2) shapeCasts_S1x16x512x64_S16x512x64 := by
    simp only [hostOps1]; after_results; all_goals rfl
  rw [e]
  exact head_split_apply 0 (by omega) (W (Proc.devRef .tc main_v1) : S512x3072.Idx → EReal)
    slices_S1x512x64x3x16_S1x512x64x1x16_0_0_0_0_0 h n d

/-- The keys: entry (h, n, d) is the projection's entry (n, d · 48 + 1 · 16 + h). -/
theorem read_v10 (h : Fin 16) (n : Fin 512) (d : Fin 64) :
    (StableHlo.after hostOps1 W (Proc.devRef .tc main_v10) : S16x512x64.Idx → EReal) (ix3 h n d)
      = (W (Proc.devRef .tc main_v1) : S512x3072.Idx → EReal) (ix2 n (⟨d.val * 48 + 1 * 16 + h.val, by omega⟩ : Fin 3072)) := by
  have e : (StableHlo.after hostOps1 W (Proc.devRef .tc main_v10) : S16x512x64.Idx → EReal)
      = shapeCast S16x512x64 (transpose S1x16x512x64 [0, 3, 1, 2]
          (shapeCast S1x512x64x16 (extractStridedSlice S1x512x64x1x16 ![0, 0, 0, 1, 0]
            (shapeCast S1x512x64x3x16 (W (Proc.devRef .tc main_v1) : S512x3072.Idx → EReal) shapeCasts_S512x3072_S1x512x64x3x16)
            slices_S1x512x64x3x16_S1x512x64x1x16_0_0_0_1_0) shapeCasts_S1x512x64x1x16_S1x512x64x16)
          transposes_S1x512x64x16_S1x16x512x64_0_3_1_2) shapeCasts_S1x16x512x64_S16x512x64 := by
    simp only [hostOps1]; after_results; all_goals rfl
  rw [e]
  exact head_split_apply 1 (by omega) (W (Proc.devRef .tc main_v1) : S512x3072.Idx → EReal)
    slices_S1x512x64x3x16_S1x512x64x1x16_0_0_0_1_0 h n d

/-- The values: entry (h, n, d) is the projection's entry (n, d · 48 + 2 · 16 + h). -/
theorem read_v14 (h : Fin 16) (n : Fin 512) (d : Fin 64) :
    (StableHlo.after hostOps1 W (Proc.devRef .tc main_v14) : S16x512x64.Idx → EReal) (ix3 h n d)
      = (W (Proc.devRef .tc main_v1) : S512x3072.Idx → EReal) (ix2 n (⟨d.val * 48 + 2 * 16 + h.val, by omega⟩ : Fin 3072)) := by
  have e : (StableHlo.after hostOps1 W (Proc.devRef .tc main_v14) : S16x512x64.Idx → EReal)
      = shapeCast S16x512x64 (transpose S1x16x512x64 [0, 3, 1, 2]
          (shapeCast S1x512x64x16 (extractStridedSlice S1x512x64x1x16 ![0, 0, 0, 2, 0]
            (shapeCast S1x512x64x3x16 (W (Proc.devRef .tc main_v1) : S512x3072.Idx → EReal) shapeCasts_S512x3072_S1x512x64x3x16)
            slices_S1x512x64x3x16_S1x512x64x1x16_0_0_0_2_0) shapeCasts_S1x512x64x1x16_S1x512x64x16)
          transposes_S1x512x64x16_S1x16x512x64_0_3_1_2) shapeCasts_S1x16x512x64_S16x512x64 := by
    simp only [hostOps1]; after_results; all_goals rfl
  rw [e]
  exact head_split_apply 2 (by omega) (W (Proc.devRef .tc main_v1) : S512x3072.Idx → EReal)
    slices_S1x512x64x3x16_S1x512x64x1x16_0_0_0_2_0 h n d

end Cert.KernelIdeal.Glue

end
-- ==== Proof.KernelIdeal.GlueEye.lean ====
/-
  The 8 × 8 identity matrix the host builds before the attention region, read at an index on the extended
  reals: the row number (plus a zero) is compared with the column number and the one-bit answer is converted to a
  float, so the entry is 1 on the diagonal and 0 off it.
-/
import proofs.«151802_j67714454389137_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The comparison's bit: row and column numbers below 8, as 32-bit words, are equal exactly when they are the same number. -/
theorem eye_bit : ∀ r r' : Fin 8,
    IntOp.cmpi .eq (IntOp.addi (BitVec.ofNat 32 r.val) 0#32) (BitVec.ofNat 32 r'.val) = if r = r' then 1#1 else 0#1 := by
  decide

/-- The identity matrix as the operations build it, over no operand at all. -/
theorem eye_apply (r r' : Fin 8) :
    uitofp (F := Ideal) .f32 (cmpi .eq (addi (iotaInDim S8x8 32 0) (broadcastInDim S8x8 ![] bcast_S_S8x8 (constantI S_ 32 0#32)))
      (iotaInDim S8x8 32 1)) (ix2 r r') = if r = r' then (1 : EReal) else 0 := by
  show (((IntOp.cmpi .eq (IntOp.addi (BitVec.ofNat 32 r.val) 0#32) (BitVec.ofNat 32 r'.val)).toNat : ℝ) : EReal) = _
  rw [eye_bit r r']
  split
  · show (((1#1 : BitVec 1).toNat : ℝ) : EReal) = 1
    simp
  · show (((0#1 : BitVec 1).toNat : ℝ) : EReal) = 0
    simp

/-- The identity matrix: entry (r, r') is 1 when r = r' and 0 otherwise. -/
theorem read_v22 (r r' : Fin 8) :
    (StableHlo.after hostOps1 W (Proc.devRef .tc main_v22) : S8x8.Idx → EReal) (ix2 r r') = if r = r' then (1 : EReal) else 0 := by
  have e : (StableHlo.after hostOps1 W (Proc.devRef .tc main_v22) : S8x8.Idx → EReal)
      = uitofp (F := Ideal) .f32 (cmpi .eq (addi (iotaInDim S8x8 32 0) (broadcastInDim S8x8 ![] bcast_S_S8x8 (constantI S_ 32 0#32)))
          (iotaInDim S8x8 32 1)) := by
    simp only [hostOps1]; after_results; all_goals rfl
  rw [e]
  exact eye_apply r r'

end Cert.KernelIdeal.Glue

end
-- ==== Proof.KernelIdeal.GlueKron.lean ====
/-
  The block-diagonal second-layer weight the host builds before the attention region (the Kronecker product
  of the 8 × 8 identity with the transposed [32, 16] weight), read at an index on the extended reals: both factors are
  broadcast to [8, 32, 8, 16], multiplied entry by entry and flattened to [256, 128], so entry (l, l') is the first
  factor at (l / 32, l' / 16) times the second at (l % 32, l' % 16).
-/
import proofs.«151802_j67714454389137_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The two broadcasts of each factor, the product and the flattening, over any two factors. -/
theorem kron_apply (A : FVec Ideal S8x8 .f32) (B : FVec Ideal S32x16 .f32) (l : Fin 256) (l' : Fin 128) :
    shapeCast S256x128 (mulf
        (broadcastInDim S8x32x8x16 ![0, 1, 2, 3] bcast_S8x1x8x1_S8x32x8x16_0_1_2_3 (broadcastInDim S8x1x8x1 ![0, 2] bcast_S8x8_S8x1x8x1_0_2 A))
        (broadcastInDim S8x32x8x16 ![0, 1, 2, 3] bcast_S1x32x1x16_S8x32x8x16_0_1_2_3 (broadcastInDim S1x32x1x16 ![1, 3] bcast_S32x16_S1x32x1x16_1_3 B)))
      shapeCasts_S8x32x8x16_S256x128 (ix2 l l')
      = A (ix2 (⟨l.val / 32, by omega⟩ : Fin 8) (⟨l'.val / 16, by omega⟩ : Fin 8))
        * B (ix2 (⟨l.val % 32, by omega⟩ : Fin 32) (⟨l'.val % 16, by omega⟩ : Fin 16)) := by
  refine (shapeCast_apply (s := S8x32x8x16) (t := S256x128) _ shapeCasts_S8x32x8x16_S256x128 (ix2 l l')
    (ix4 (⟨l.val / 32, by omega⟩ : Fin 8) (⟨l.val % 32, by omega⟩ : Fin 32) (⟨l'.val / 16, by omega⟩ : Fin 8) (⟨l'.val % 16, by omega⟩ : Fin 16)) ?_).trans ?_
  · rw [Shape.rowMajor_val_four, Shape.rowMajor_val_two]
    show ((l.val / 32 * 32 + l.val % 32) * 8 + l'.val / 16) * 16 + l'.val % 16 = l.val * 128 + l'.val
    omega
  refine (mulf_apply _ _ _).trans ?_
  refine congrArg₂ (· * ·) ?_ ?_
  · refine (broadcastInDim_apply (s := S8x1x8x1) (t := S8x32x8x16) ![0, 1, 2, 3] bcast_S8x1x8x1_S8x32x8x16_0_1_2_3 _ _
      (ix4 (⟨l.val / 32, by omega⟩ : Fin 8) (0 : Fin 1) (⟨l'.val / 16, by omega⟩ : Fin 8) (0 : Fin 1))
      (fun a => match a with | ⟨0, _⟩ => rfl | ⟨1, _⟩ => rfl | ⟨2, _⟩ => rfl | ⟨3, _⟩ => rfl)).trans ?_
    exact broadcastInDim_apply (s := S8x8) (t := S8x1x8x1) ![0, 2] bcast_S8x8_S8x1x8x1_0_2 A _
      (ix2 (⟨l.val / 32, by omega⟩ : Fin 8) (⟨l'.val / 16, by omega⟩ : Fin 8))
      (fun a => match a with | ⟨0, _⟩ => rfl | ⟨1, _⟩ => rfl)
  · refine (broadcastInDim_apply (s := S1x32x1x16) (t := S8x32x8x16) ![0, 1, 2, 3] bcast_S1x32x1x16_S8x32x8x16_0_1_2_3 _ _
      (ix4 (0 : Fin 1) (⟨l.val % 32, by omega⟩ : Fin 32) (0 : Fin 1) (⟨l'.val % 16, by omega⟩ : Fin 16))
      (fun a => match a with | ⟨0, _⟩ => rfl | ⟨1, _⟩ => rfl | ⟨2, _⟩ => rfl | ⟨3, _⟩ => rfl)).trans ?_
    exact broadcastInDim_apply (s := S32x16) (t := S1x32x1x16) ![1, 3] bcast_S32x16_S1x32x1x16_1_3 B _
      (ix2 (⟨l.val % 32, by omega⟩ : Fin 32) (⟨l'.val % 16, by omega⟩ : Fin 16))
      (fun a => match a with | ⟨0, _⟩ => rfl | ⟨1, _⟩ => rfl)

/-- The block-diagonal weight: entry (l, l') is the identity at (l / 32, l' / 16) times the transposed weight at
    (l % 32, l' % 16). -/
theorem read_v24 (l : Fin 256) (l' : Fin 128) :
    (StableHlo.after hostOps1_1 W (Proc.devRef .tc main_v24) : S256x128.Idx → EReal) (ix2 l l')
      = HMul.hMul (α := EReal) (β := EReal) (γ := EReal)
          ((W (Proc.devRef .tc main_v22) : S8x8.Idx → EReal) (ix2 (⟨l.val / 32, by omega⟩ : Fin 8) (⟨l'.val / 16, by omega⟩ : Fin 8)))
          ((W (Proc.devRef .tc main_v23) : S32x16.Idx → EReal) (ix2 (⟨l.val % 32, by omega⟩ : Fin 32) (⟨l'.val % 16, by omega⟩ : Fin 16))) := by
  have e : (StableHlo.after hostOps1_1 W (Proc.devRef .tc main_v24) : S256x128.Idx → EReal)
      = shapeCast S256x128 (mulf (F := Ideal) (s := S8x32x8x16) (φ := .f32)
          (broadcastInDim S8x32x8x16 ![0, 1, 2, 3] bcast_S8x1x8x1_S8x32x8x16_0_1_2_3
            (broadcastInDim S8x1x8x1 ![0, 2] bcast_S8x8_S8x1x8x1_0_2 (W (Proc.devRef .tc main_v22) : FVec Ideal S8x8 .f32)))
          (broadcastInDim S8x32x8x16 ![0, 1, 2, 3] bcast_S1x32x1x16_S8x32x8x16_0_1_2_3
            (broadcastInDim S1x32x1x16 ![1, 3] bcast_S32x16_S1x32x1x16_1_3 (W (Proc.devRef .tc main_v23) : FVec Ideal S32x16 .f32))))
        shapeCasts_S8x32x8x16_S256x128 := by
    simp only [hostOps1_1]; after_results; all_goals rfl
  rw [e]
  exact kron_apply (W (Proc.devRef .tc main_v22) : FVec Ideal S8x8 .f32) (W (Proc.devRef .tc main_v23) : FVec Ideal S32x16 .f32) l l'

end Cert.KernelIdeal.Glue

end
-- ==== Proof.KernelIdeal.GlueSum.lean ====
/-
  A sum against a block-diagonal matrix, on the extended reals.  An index l below 256 is a block a = l / 32 (one of 8)
  and a position p = l % 32 inside it.  A weight that is the identity in the block and w in the position — the entry
  at (l, (r', r)) is [l / 32 = r'] · w r (l % 32) — keeps, of a sum over l, only the 32 terms of block r'.
-/
import Idealize.ShloMosaic.Lib.ValueIdx

noncomputable section

namespace Cert.KernelIdeal.Glue

open scoped BigOperators

/-- An index below 256 as a block of 8 and a position of 32. -/
def blockIdx : Fin 8 × Fin 32 ≃ Fin 256 where
  toFun ap := ⟨ap.1.val * 32 + ap.2.val, by omega⟩
  invFun l := (⟨l.val / 32, by omega⟩, ⟨l.val % 32, by omega⟩)
  left_inv ap := by
    refine Prod.ext (Fin.ext ?_) (Fin.ext ?_)
    · show (ap.1.val * 32 + ap.2.val) / 32 = ap.1.val
      omega
    · show (ap.1.val * 32 + ap.2.val) % 32 = ap.2.val
      omega
  right_inv l := Fin.ext (by
    show l.val / 32 * 32 + l.val % 32 = l.val
    omega)

theorem blockIdx_val (a : Fin 8) (p : Fin 32) : (blockIdx (a, p)).val = a.val * 32 + p.val := rfl

/-- One term of the sum, at block a and position p: the term of block r' when a = r', zero otherwise. -/
theorem blockdiag_term (f : Fin 256 → EReal) (w : Fin 16 → Fin 32 → EReal) (r' : Fin 8) (r : Fin 16) (a : Fin 8) (p : Fin 32) :
    f (blockIdx (a, p)) * ((if (⟨(blockIdx (a, p)).val / 32, by omega⟩ : Fin 8) = r' then (1 : EReal) else 0)
        * w r ⟨(blockIdx (a, p)).val % 32, by omega⟩)
      = if a = r' then f ⟨a.val * 32 + p.val, by omega⟩ * w r p else 0 := by
  have h1 : (⟨(blockIdx (a, p)).val / 32, by omega⟩ : Fin 8) = a :=
    Fin.ext (by show (a.val * 32 + p.val) / 32 = a.val; omega)
  have h2 : (⟨(blockIdx (a, p)).val % 32, by omega⟩ : Fin 32) = p :=
    Fin.ext (by show (a.val * 32 + p.val) % 32 = p.val; omega)
  rw [h1, h2]
  split
  · rw [one_mul]; rfl
  · rw [zero_mul, mul_zero]

/-- The sum over l below 256 against the block-diagonal weight is the sum over the 32 positions of block r'. -/
theorem sum_blockdiag (f : Fin 256 → EReal) (w : Fin 16 → Fin 32 → EReal) (r' : Fin 8) (r : Fin 16) :
    ∑ l : Fin 256, f l * ((if (⟨l.val / 32, by omega⟩ : Fin 8) = r' then (1 : EReal) else 0) * w r ⟨l.val % 32, by omega⟩)
      = ∑ p : Fin 32, f ⟨r'.val * 32 + p.val, by omega⟩ * w r p := by
  calc ∑ l : Fin 256, f l * ((if (⟨l.val / 32, by omega⟩ : Fin 8) = r' then (1 : EReal) else 0) * w r ⟨l.val % 32, by omega⟩)
      = ∑ ap : Fin 8 × Fin 32, f (blockIdx ap) * ((if (⟨(blockIdx ap).val / 32, by omega⟩ : Fin 8) = r' then (1 : EReal) else 0)
          * w r ⟨(blockIdx ap).val % 32, by omega⟩) :=
        (Equiv.sum_comp blockIdx (fun l : Fin 256 =>
          f l * ((if (⟨l.val / 32, by omega⟩ : Fin 8) = r' then (1 : EReal) else 0) * w r ⟨l.val % 32, by omega⟩))).symm
    _ = ∑ a : Fin 8, ∑ p : Fin 32, f (blockIdx (a, p)) * ((if (⟨(blockIdx (a, p)).val / 32, by omega⟩ : Fin 8) = r' then (1 : EReal) else 0)
          * w r ⟨(blockIdx (a, p)).val % 32, by omega⟩) := Fintype.sum_prod_type _
    _ = ∑ a : Fin 8, ∑ p : Fin 32, (if a = r' then f ⟨a.val * 32 + p.val, by omega⟩ * w r p else 0) :=
        Finset.sum_congr rfl fun a _ => Finset.sum_congr rfl fun p _ => blockdiag_term f w r' r a p
    _ = ∑ p : Fin 32, f ⟨r'.val * 32 + p.val, by omega⟩ * w r p := by
        rw [Finset.sum_eq_single r']
        · exact Finset.sum_congr rfl fun p _ => if_pos rfl
        · intro a _ ha
          exact Finset.sum_eq_zero fun p _ => if_neg ha
        · intro h
          exact absurd (Finset.mem_univ _) h

end Cert.KernelIdeal.Glue

end
-- ==== Proof.KernelIdeal.Glue.lean ====
/-
  The host operations of the kernel's program read at an index on the extended reals, and the sum against the
  block-diagonal second-layer weight: one module that gathers them.
-/
import proofs.«151802_j67714454389137_2_alg».proof.Proof.KernelIdeal.GlueEnds
import proofs.«151802_j67714454389137_2_alg».proof.Proof.KernelIdeal.GlueFlat
import proofs.«151802_j67714454389137_2_alg».proof.Proof.KernelIdeal.GlueRows
import proofs.«151802_j67714454389137_2_alg».proof.Proof.KernelIdeal.GlueMats
import proofs.«151802_j67714454389137_2_alg».proof.Proof.KernelIdeal.GlueQKV
import proofs.«151802_j67714454389137_2_alg».proof.Proof.KernelIdeal.GlueEye
import proofs.«151802_j67714454389137_2_alg».proof.Proof.KernelIdeal.GlueKron
import proofs.«151802_j67714454389137_2_alg».proof.Proof.KernelIdeal.GlueSum
-- ==== Proof.KernelIdeal.GlueHyp.lean ====
/-
  What the attention region's arrays hold when the region is entered, in the specification's terms.

  Each array is walked back through the program to the launch memory: a host stretch that does not
  write a buffer leaves it alone, a region leaves every buffer that is not one of its result arrays
  alone, and the host operations that cut, transpose, repeat or reshape an array are read at an
  index.  The queries, keys and values are columns of the first region's product, which is the
  specification's projection.
-/
import proofs.«151802_j67714454389137_2_alg».proof.Proof.KernelIdeal.Frame
import proofs.«151802_j67714454389137_2_alg».proof.Proof.KernelIdeal.Val0
import proofs.«151802_j67714454389137_2_alg».proof.Proof.KernelIdeal.Glue
import proofs.«151802_j67714454389137_2_alg».proof.Proof.SpecIn
import proofs.«151802_j67714454389137_2_alg».proof.Proof.KernelIdeal.Val1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The specification's inputs read off the launch memory of core c. -/
abbrev inAt : Spec.In :=
  Cert.Spec.inOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-! ## The argument arrays at the boundaries where they are read -/

theorem W1_main_arg1 : W1 m c main_arg1 = m ((c : Thread nD τ).loc main_arg1) :=
  calc W1 m c main_arg1
    _ = W0 m c main_arg1 := StableHlo.after_of_writes_sub hostOps0 _ hostOps0_writes (by decide : main_arg1 ∉ hostOps0_W)
    _ = m ((c : Thread nD τ).loc main_arg1) := rfl

theorem W5_main_arg3 : W5 m c main_arg3 = m ((c : Thread nD τ).loc main_arg3) :=
  calc W5 m c main_arg3
    _ = W4 m c main_arg3 := StableHlo.after_of_writes_sub hostOps1_2 _ hostOps1_2_writes (by decide : main_arg3 ∉ hostOps1_2_W)
    _ = W3 m c main_arg3 := StableHlo.after_of_writes_sub hostOps1_1 _ hostOps1_1_writes (by decide : main_arg3 ∉ hostOps1_1_W)
    _ = W2 m c main_arg3 := StableHlo.after_of_writes_sub hostOps1 _ hostOps1_writes (by decide : main_arg3 ∉ hostOps1_W)
    _ = W1 m c main_arg3 := W2_of_ne m c main_arg3 (by decide)
    _ = W0 m c main_arg3 := StableHlo.after_of_writes_sub hostOps0 _ hostOps0_writes (by decide : main_arg3 ∉ hostOps0_W)
    _ = m ((c : Thread nD τ).loc main_arg3) := rfl

theorem W5_main_arg5 : W5 m c main_arg5 = m ((c : Thread nD τ).loc main_arg5) :=
  calc W5 m c main_arg5
    _ = W4 m c main_arg5 := StableHlo.after_of_writes_sub hostOps1_2 _ hostOps1_2_writes (by decide : main_arg5 ∉ hostOps1_2_W)
    _ = W3 m c main_arg5 := StableHlo.after_of_writes_sub hostOps1_1 _ hostOps1_1_writes (by decide : main_arg5 ∉ hostOps1_1_W)
    _ = W2 m c main_arg5 := StableHlo.after_of_writes_sub hostOps1 _ hostOps1_writes (by decide : main_arg5 ∉ hostOps1_W)
    _ = W1 m c main_arg5 := W2_of_ne m c main_arg5 (by decide)
    _ = W0 m c main_arg5 := StableHlo.after_of_writes_sub hostOps0 _ hostOps0_writes (by decide : main_arg5 ∉ hostOps0_W)
    _ = m ((c : Thread nD τ).loc main_arg5) := rfl

theorem W5_main_arg11 : W5 m c main_arg11 = m ((c : Thread nD τ).loc main_arg11) :=
  calc W5 m c main_arg11
    _ = W4 m c main_arg11 := StableHlo.after_of_writes_sub hostOps1_2 _ hostOps1_2_writes (by decide : main_arg11 ∉ hostOps1_2_W)
    _ = W3 m c main_arg11 := StableHlo.after_of_writes_sub hostOps1_1 _ hostOps1_1_writes (by decide : main_arg11 ∉ hostOps1_1_W)
    _ = W2 m c main_arg11 := StableHlo.after_of_writes_sub hostOps1 _ hostOps1_writes (by decide : main_arg11 ∉ hostOps1_W)
    _ = W1 m c main_arg11 := W2_of_ne m c main_arg11 (by decide)
    _ = W0 m c main_arg11 := StableHlo.after_of_writes_sub hostOps0 _ hostOps0_writes (by decide : main_arg11 ∉ hostOps0_W)
    _ = m ((c : Thread nD τ).loc main_arg11) := rfl

theorem W4_main_arg4 : W4 m c main_arg4 = m ((c : Thread nD τ).loc main_arg4) :=
  calc W4 m c main_arg4
    _ = W3 m c main_arg4 := StableHlo.after_of_writes_sub hostOps1_1 _ hostOps1_1_writes (by decide : main_arg4 ∉ hostOps1_1_W)
    _ = W2 m c main_arg4 := StableHlo.after_of_writes_sub hostOps1 _ hostOps1_writes (by decide : main_arg4 ∉ hostOps1_W)
    _ = W1 m c main_arg4 := W2_of_ne m c main_arg4 (by decide)
    _ = W0 m c main_arg4 := StableHlo.after_of_writes_sub hostOps0 _ hostOps0_writes (by decide : main_arg4 ∉ hostOps0_W)
    _ = m ((c : Thread nD τ).loc main_arg4) := rfl

theorem W4_main_arg6 : W4 m c main_arg6 = m ((c : Thread nD τ).loc main_arg6) :=
  calc W4 m c main_arg6
    _ = W3 m c main_arg6 := StableHlo.after_of_writes_sub hostOps1_1 _ hostOps1_1_writes (by decide : main_arg6 ∉ hostOps1_1_W)
    _ = W2 m c main_arg6 := StableHlo.after_of_writes_sub hostOps1 _ hostOps1_writes (by decide : main_arg6 ∉ hostOps1_W)
    _ = W1 m c main_arg6 := W2_of_ne m c main_arg6 (by decide)
    _ = W0 m c main_arg6 := StableHlo.after_of_writes_sub hostOps0 _ hostOps0_writes (by decide : main_arg6 ∉ hostOps0_W)
    _ = m ((c : Thread nD τ).loc main_arg6) := rfl

theorem W4_main_arg8 : W4 m c main_arg8 = m ((c : Thread nD τ).loc main_arg8) :=
  calc W4 m c main_arg8
    _ = W3 m c main_arg8 := StableHlo.after_of_writes_sub hostOps1_1 _ hostOps1_1_writes (by decide : main_arg8 ∉ hostOps1_1_W)
    _ = W2 m c main_arg8 := StableHlo.after_of_writes_sub hostOps1 _ hostOps1_writes (by decide : main_arg8 ∉ hostOps1_W)
    _ = W1 m c main_arg8 := W2_of_ne m c main_arg8 (by decide)
    _ = W0 m c main_arg8 := StableHlo.after_of_writes_sub hostOps0 _ hostOps0_writes (by decide : main_arg8 ∉ hostOps0_W)
    _ = m ((c : Thread nD τ).loc main_arg8) := rfl

theorem W4_main_arg10 : W4 m c main_arg10 = m ((c : Thread nD τ).loc main_arg10) :=
  calc W4 m c main_arg10
    _ = W3 m c main_arg10 := StableHlo.after_of_writes_sub hostOps1_1 _ hostOps1_1_writes (by decide : main_arg10 ∉ hostOps1_1_W)
    _ = W2 m c main_arg10 := StableHlo.after_of_writes_sub hostOps1 _ hostOps1_writes (by decide : main_arg10 ∉ hostOps1_W)
    _ = W1 m c main_arg10 := W2_of_ne m c main_arg10 (by decide)
    _ = W0 m c main_arg10 := StableHlo.after_of_writes_sub hostOps0 _ hostOps0_writes (by decide : main_arg10 ∉ hostOps0_W)
    _ = m ((c : Thread nD τ).loc main_arg10) := rfl

theorem W4_main_arg12 : W4 m c main_arg12 = m ((c : Thread nD τ).loc main_arg12) :=
  calc W4 m c main_arg12
    _ = W3 m c main_arg12 := StableHlo.after_of_writes_sub hostOps1_1 _ hostOps1_1_writes (by decide : main_arg12 ∉ hostOps1_1_W)
    _ = W2 m c main_arg12 := StableHlo.after_of_writes_sub hostOps1 _ hostOps1_writes (by decide : main_arg12 ∉ hostOps1_W)
    _ = W1 m c main_arg12 := W2_of_ne m c main_arg12 (by decide)
    _ = W0 m c main_arg12 := StableHlo.after_of_writes_sub hostOps0 _ hostOps0_writes (by decide : main_arg12 ∉ hostOps0_W)
    _ = m ((c : Thread nD τ).loc main_arg12) := rfl

theorem W2_main_arg7 : W2 m c main_arg7 = m ((c : Thread nD τ).loc main_arg7) :=
  calc W2 m c main_arg7
    _ = W1 m c main_arg7 := W2_of_ne m c main_arg7 (by decide)
    _ = W0 m c main_arg7 := StableHlo.after_of_writes_sub hostOps0 _ hostOps0_writes (by decide : main_arg7 ∉ hostOps0_W)
    _ = m ((c : Thread nD τ).loc main_arg7) := rfl

theorem W2_main_arg9 : W2 m c main_arg9 = m ((c : Thread nD τ).loc main_arg9) :=
  calc W2 m c main_arg9
    _ = W1 m c main_arg9 := W2_of_ne m c main_arg9 (by decide)
    _ = W0 m c main_arg9 := StableHlo.after_of_writes_sub hostOps0 _ hostOps0_writes (by decide : main_arg9 ∉ hostOps0_W)
    _ = m ((c : Thread nD τ).loc main_arg9) := rfl

/-! ## The weights and biases -/

/-- The query map's weight is the argument array. -/
theorem hyp_wq (p : Fin 32) (d : Fin 64) : (V5 m c main_arg3 : S32x64.Idx → EReal) (ix2 p d) = (inAt m c).wq p d :=
  congrFun (W5_main_arg3 m c) (ix2 p d)

/-- The key map's weight is the argument array. -/
theorem hyp_wk (p : Fin 32) (d : Fin 64) : (V5 m c main_arg5 : S32x64.Idx → EReal) (ix2 p d) = (inAt m c).wk p d :=
  congrFun (W5_main_arg5 m c) (ix2 p d)

/-- The score's weight is the argument array. -/
theorem hyp_w3 (r : Fin 16) : (V5 m c main_arg11 : S1x16.Idx → EReal) (ix2 (0 : Fin 1) r) = (inAt m c).w3 r :=
  congrFun (W5_main_arg11 m c) (ix2 (0 : Fin 1) r)

/-- The query map's bias, as a one-row matrix. -/
theorem hyp_bq (p : Fin 32) : (V5 m c main_v31 : S1x32.Idx → EReal) (ix2 (0 : Fin 1) p) = (inAt m c).bq p :=
  (Glue.read_v31 (W4 m c) p).trans (congrFun (W4_main_arg4 m c) (ix1 p))

/-- The key map's bias, as a one-row matrix. -/
theorem hyp_bk (p : Fin 32) : (V5 m c main_v32 : S1x32.Idx → EReal) (ix2 (0 : Fin 1) p) = (inAt m c).bk p :=
  (Glue.read_v32 (W4 m c) p).trans (congrFun (W4_main_arg6 m c) (ix1 p))

/-- The first hidden layer's bias, repeated eight times. -/
theorem hyp_b1t (l : Fin 256) : (V5 m c main_v33 : S1x256.Idx → EReal) (ix2 (0 : Fin 1) l) = (inAt m c).b1 ⟨l.val % 32, by omega⟩ :=
  (Glue.read_v33 (W4 m c) l).trans (congrFun (W4_main_arg8 m c) (ix1 (⟨l.val % 32, by omega⟩ : Fin 32)))

/-- The second hidden layer's bias, repeated eight times. -/
theorem hyp_b2t (l' : Fin 128) : (V5 m c main_v34 : S1x128.Idx → EReal) (ix2 (0 : Fin 1) l') = (inAt m c).b2 ⟨l'.val % 16, by omega⟩ :=
  (Glue.read_v34 (W4 m c) l').trans (congrFun (W4_main_arg10 m c) (ix1 (⟨l'.val % 16, by omega⟩ : Fin 16)))

/-- The score's bias, as a one-by-one matrix. -/
theorem hyp_b3 : (V5 m c main_v35 : S1x1.Idx → EReal) (ix2 (0 : Fin 1) (0 : Fin 1)) = (inAt m c).b3 :=
  (Glue.read_v35 (W4 m c)).trans (congrFun (W4_main_arg12 m c) (ix1 (0 : Fin 1)))

/-- The two host stretches before the attention region that do not write the halves of the first hidden layer's weight. -/
theorem W5_main_v15 : W5 m c main_v15 = W3 m c main_v15 :=
  calc W5 m c main_v15
    _ = W4 m c main_v15 := StableHlo.after_of_writes_sub hostOps1_2 _ hostOps1_2_writes (by decide : main_v15 ∉ hostOps1_2_W)
    _ = W3 m c main_v15 := StableHlo.after_of_writes_sub hostOps1_1 _ hostOps1_1_writes (by decide : main_v15 ∉ hostOps1_1_W)
theorem W5_main_v16 : W5 m c main_v16 = W3 m c main_v16 :=
  calc W5 m c main_v16
    _ = W4 m c main_v16 := StableHlo.after_of_writes_sub hostOps1_2 _ hostOps1_2_writes (by decide : main_v16 ∉ hostOps1_2_W)
    _ = W3 m c main_v16 := StableHlo.after_of_writes_sub hostOps1_1 _ hostOps1_1_writes (by decide : main_v16 ∉ hostOps1_1_W)

/-- The query side of the first hidden layer's weight: its left half. -/
theorem hyp_w1q (p p' : Fin 32) : (V5 m c main_v15 : S32x32.Idx → EReal) (ix2 p p') = (inAt m c).w1 p ⟨p'.val, by omega⟩ :=
  (congrFun (W5_main_v15 m c) (ix2 p p')).trans
    ((Glue.read_v15 (W2 m c) p p').trans (congrFun (W2_main_arg7 m c) (ix2 p (⟨p'.val, by omega⟩ : Fin 64))))

/-- The key side of the first hidden layer's weight: its right half. -/
theorem hyp_w1k (p p' : Fin 32) : (V5 m c main_v16 : S32x32.Idx → EReal) (ix2 p p') = (inAt m c).w1 p ⟨32 + p'.val, by omega⟩ :=
  (congrFun (W5_main_v16 m c) (ix2 p p')).trans
    ((Glue.read_v16 (W2 m c) p p').trans (congrFun (W2_main_arg7 m c) (ix2 p (⟨32 + p'.val, by omega⟩ : Fin 64))))

/-! ## The queries, keys and values -/

/-- The first region's product is the specification's projection. -/
theorem W2_main_v1 (n : Fin 512) (o : Fin 3072) :
    (W2 m c main_v1 : S512x3072.Idx → EReal) (ix2 n o) = Spec.proj (inAt m c) n o := by
  have e : W2 m c main_v1 = prodRows0 (V1 m c main_v0) (V1 m c main_arg1) := (W2_arr m c 2).trans (final0 (V1 m) c)
  refine (congrFun e (ix2 n o)).trans ?_
  show (prodRows0 (V1 m c main_v0) (V1 m c main_arg1) (ix2 n o) : EReal) = Spec.proj (inAt m c) n o
  unfold prodRows0 Spec.proj
  refine Finset.sum_congr rfl fun k _ => ?_
  refine congrArg₂ (fun (x y : EReal) => x * y) ?_ ?_
  · exact Glue.read_v0 (W0 m c) n k
  · exact congrFun (W1_main_arg1 m c) (ix2 o k)

/-- The two host stretches before the attention region that do not write the queries, keys and values. -/
theorem W5_main_v6 : W5 m c main_v6 = W3 m c main_v6 :=
  calc W5 m c main_v6
    _ = W4 m c main_v6 := StableHlo.after_of_writes_sub hostOps1_2 _ hostOps1_2_writes (by decide : main_v6 ∉ hostOps1_2_W)
    _ = W3 m c main_v6 := StableHlo.after_of_writes_sub hostOps1_1 _ hostOps1_1_writes (by decide : main_v6 ∉ hostOps1_1_W)
theorem W5_main_v10 : W5 m c main_v10 = W3 m c main_v10 :=
  calc W5 m c main_v10
    _ = W4 m c main_v10 := StableHlo.after_of_writes_sub hostOps1_2 _ hostOps1_2_writes (by decide : main_v10 ∉ hostOps1_2_W)
    _ = W3 m c main_v10 := StableHlo.after_of_writes_sub hostOps1_1 _ hostOps1_1_writes (by decide : main_v10 ∉ hostOps1_1_W)
theorem W5_main_v14 : W5 m c main_v14 = W3 m c main_v14 :=
  calc W5 m c main_v14
    _ = W4 m c main_v14 := StableHlo.after_of_writes_sub hostOps1_2 _ hostOps1_2_writes (by decide : main_v14 ∉ hostOps1_2_W)
    _ = W3 m c main_v14 := StableHlo.after_of_writes_sub hostOps1_1 _ hostOps1_1_writes (by decide : main_v14 ∉ hostOps1_1_W)

/-- The queries: the projection's columns (d, 0, h). -/
theorem hyp_q (h : Fin 16) (n : Fin 512) (d : Fin 64) :
    (V5 m c main_v6 : S16x512x64.Idx → EReal) (ix3 h n d) = Spec.q (inAt m c) h n d :=
  (congrFun (W5_main_v6 m c) (ix3 h n d)).trans ((Glue.read_v6 (W2 m c) h n d).trans (W2_main_v1 m c n _))

/-- The keys: the projection's columns (d, 1, h). -/
theorem hyp_k (h : Fin 16) (n : Fin 512) (d : Fin 64) :
    (V5 m c main_v10 : S16x512x64.Idx → EReal) (ix3 h n d) = Spec.k (inAt m c) h n d :=
  (congrFun (W5_main_v10 m c) (ix3 h n d)).trans ((Glue.read_v10 (W2 m c) h n d).trans (W2_main_v1 m c n _))

/-- The values: the projection's columns (d, 2, h). -/
theorem hyp_v (h : Fin 16) (n : Fin 512) (d : Fin 64) :
    (V5 m c main_v14 : S16x512x64.Idx → EReal) (ix3 h n d) = Spec.v (inAt m c) h n d :=
  (congrFun (W5_main_v14 m c) (ix3 h n d)).trans ((Glue.read_v14 (W2 m c) h n d).trans (W2_main_v1 m c n _))

/-! ## The block-diagonal second hidden layer's weight -/

/-- The host stretch before the attention region that does not write the block-diagonal weight. -/
theorem W5_main_v24 : W5 m c main_v24 = W4 m c main_v24 :=
  calc W5 m c main_v24
    _ = W4 m c main_v24 := StableHlo.after_of_writes_sub hostOps1_2 _ hostOps1_2_writes (by decide : main_v24 ∉ hostOps1_2_W)

/-- The block-diagonal weight: the transposed weight in the blocks of the diagonal, zero elsewhere. -/
theorem hyp_w2bd (l : Fin 256) (l' : Fin 128) :
    (V5 m c main_v24 : S256x128.Idx → EReal) (ix2 l l')
      = (if l.val / 32 = l'.val / 16 then (1 : EReal) else 0) * (inAt m c).w2 ⟨l'.val % 16, by omega⟩ ⟨l.val % 32, by omega⟩ := by
  refine (congrFun (W5_main_v24 m c) (ix2 l l')).trans ((Glue.read_v24 (W3 m c) l l').trans ?_)
  refine congrArg₂ (fun (x y : EReal) => x * y) ?_ ?_
  · refine (Glue.read_v22 (W2 m c) _ _).trans ?_
    simp only [Fin.mk.injEq]
  · exact (Glue.read_v23 (W2 m c) _ _).trans (congrFun (W2_main_arg9 m c) _)

/-! ## The attention region's arrays, all together -/

/-- What the attention region's arrays hold when the region is entered. -/
theorem hyp1 : Hyp1 (V5 (F := Ideal) m) (inAt m c) c where
  q := hyp_q m c
  k := hyp_k m c
  v := hyp_v m c
  wq := hyp_wq m c
  bq := hyp_bq m c
  wk := hyp_wk m c
  bk := hyp_bk m c
  w1q := hyp_w1q m c
  w1k := hyp_w1k m c
  b1t := hyp_b1t m c
  w2bd := hyp_w2bd m c
  b2t := hyp_b2t m c
  w3 := hyp_w3 m c
  b3 := hyp_b3 m c

end Cert.KernelIdeal.Hand

end
-- ==== Proof.KernelIdeal.Pay15.lean ====
/-
  The row numbers of a query tile and the mask they decide.  Tile qt of 128 rows holds rows
  qt·128 + n; the body builds them as 32-bit words (the tile number times 128 plus the row's own
  coordinate) and compares the key's number j against them as signed words.  All the numbers are
  below 2^31, so the signed comparison is the comparison of the naturals: key j is masked for query
  row qt·128 + n exactly when qt·128 + n < j.
-/
import proofs.«151802_j67714454389137_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen
open Idealize.ShloMosaic Idealize.ShloMosaic.ValueIdx Idealize.SL.Sem

/-- The row-number word at (n, j): the tile's word times 128 plus the row coordinate. -/
theorem k1_pay15_apply (arg1 : BitVec 32) (n : Fin 128) (j : Fin 512) :
    k1_pay15 arg1 (ix2 n j) = arg1 * 128#32 + BitVec.ofNat 32 n.val := by
  unfold k1_pay15
  show IntOp.addi (IntOp.muli arg1 128#32) (iota .tc S128x512 32 [0] iota_S128x512_d0_w32 (ix2 n j)) = _
  rw [iota_single_apply]
  rfl

/-- Signed "less than" of two 32-bit words of naturals below 2^31 is "less than" of the naturals. -/
theorem slt_ofNat_of_lt (a b : Nat) (ha : a < 2147483648) (hb : b < 2147483648) :
    (BitVec.ofNat 32 a).slt (BitVec.ofNat 32 b) = decide (a < b) := by
  unfold BitVec.slt
  rw [BitVec.toInt_eq_toNat_cond, BitVec.toInt_eq_toNat_cond, BitVec.toNat_ofNat, BitVec.toNat_ofNat,
    Nat.mod_eq_of_lt (show a < 2 ^ 32 by omega), Nat.mod_eq_of_lt (show b < 2 ^ 32 by omega),
    if_pos (show 2 * a < 2 ^ 32 by omega), if_pos (show 2 * b < 2 ^ 32 by omega)]
  exact decide_eq_decide.mpr Int.ofNat_lt

/-- The mask's condition at (n, j) in tile qt: the key's number exceeds the row's. -/
theorem mask_cond_iff (qt : Nat) (hqt : qt < 4) (n : Fin 128) (j : Fin 512) :
    cmpi .sgt (iota .tc S128x512 32 [1] iota_S128x512_d1_w32) (k1_pay15 (BitVec.ofNat 32 qt)) (ix2 n j) = 1#1
      ↔ qt * 128 + n.val < j.val := by
  show IntOp.cmpi .sgt (iota .tc S128x512 32 [1] iota_S128x512_d1_w32 (ix2 n j)) (k1_pay15 (BitVec.ofNat 32 qt) (ix2 n j)) = 1#1 ↔ _
  rw [iota_single_apply, k1_pay15_apply]
  have hw : BitVec.ofNat 32 qt * 128#32 + BitVec.ofNat 32 n.val = BitVec.ofNat 32 (qt * 128 + n.val) := by
    rw [BitVec.ofNat_add, BitVec.ofNat_mul]
  rw [hw]
  show BitVec.ofBool ((BitVec.ofNat 32 (qt * 128 + n.val)).slt (BitVec.ofNat 32 j.val)) = 1#1 ↔ _
  have hn := n.isLt
  have hj := j.isLt
  rw [slt_ofNat_of_lt _ _ (by omega) (by omega)]
  by_cases h : qt * 128 + n.val < j.val
  · simp [h]
  · simp [h]

end Cert.KernelIdeal.Pay

end
-- ==== Proof.KernelIdeal.BlockMathSum.lean ====
/-
  A sum over 256 = 8 · 32 coordinates against a block-diagonal factor.  The 256 coordinates are
  l = a · 32 + p with a one of 8 blocks and p one of 32 places; a factor that is 1 on block r' and
  0 on the others leaves the 32 terms of block r'.  On the extended reals a zero factor kills a
  term whatever the other factor is, so no finiteness is needed.
-/
import Idealize.ShloMosaic.PureOps.Ideal

noncomputable section

namespace Cert.KernelIdeal.Pay

/-- A sum over 256 coordinates as a sum over 8 blocks of 32. -/
theorem sum_fin256 (g : Fin 256 → EReal) :
    ∑ l : Fin 256, g l
      = ∑ a : Fin 8, ∑ p : Fin 32, g ⟨a.val * 32 + p.val, by have := a.isLt; have := p.isLt; omega⟩ := by
  have e := Equiv.sum_comp (finProdFinEquiv (m := 8) (n := 32)) (fun l : Fin (8 * 32) => g l)
  rw [Fintype.sum_prod_type] at e
  refine e.symm.trans ?_
  refine Finset.sum_congr rfl fun a _ => Finset.sum_congr rfl fun p _ => congrArg g (Fin.ext ?_)
  show p.val + 32 * a.val = a.val * 32 + p.val
  omega

/-- Against a factor that is 1 on block r' and 0 elsewhere only block r' is left. -/
theorem sum_block (f : Fin 256 → EReal) (w : Fin 32 → EReal) (r' : Nat) (hr' : r' < 8) :
    ∑ l : Fin 256, f l * ((if l.val / 32 = r' then (1 : EReal) else 0) * w ⟨l.val % 32, Nat.mod_lt _ (by decide)⟩)
      = ∑ p : Fin 32, f ⟨r' * 32 + p.val, by have := p.isLt; omega⟩ * w p := by
  rw [sum_fin256]
  rw [Finset.sum_eq_single (⟨r', hr'⟩ : Fin 8)]
  · refine Finset.sum_congr rfl fun p _ => ?_
    have hp := p.isLt
    have h1 : (r' * 32 + p.val) / 32 = r' := by omega
    have h2 : (⟨(r' * 32 + p.val) % 32, Nat.mod_lt _ (by decide)⟩ : Fin 32) = p := Fin.ext (by
      show (r' * 32 + p.val) % 32 = p.val
      omega)
    show f ⟨r' * 32 + p.val, _⟩ * ((if (r' * 32 + p.val) / 32 = r' then (1 : EReal) else 0)
        * w ⟨(r' * 32 + p.val) % 32, _⟩) = _
    rw [if_pos h1, one_mul, h2]
  · intro a _ ha
    refine Finset.sum_eq_zero fun p _ => ?_
    have hp := p.isLt
    have hne : ¬ (a.val * 32 + p.val) / 32 = r' := by
      intro hc
      apply ha
      apply Fin.ext
      show a.val = r'
      omega
    show f ⟨a.val * 32 + p.val, _⟩ * ((if (a.val * 32 + p.val) / 32 = r' then (1 : EReal) else 0)
        * w ⟨(a.val * 32 + p.val) % 32, _⟩) = 0
    rw [if_neg hne, zero_mul, mul_zero]
  · intro hn
    exact absurd (Finset.mem_univ _) hn

end Cert.KernelIdeal.Pay

end
-- ==== Proof.KernelIdeal.BlockMathCore.lean ====
/-
  The attention body's arithmetic, on plain functions of coordinates, is the specification's.
  For one head h, one query row N and one key j:
  • the query side of the first hidden layer is Spec.a;
  • a coordinate l = (j mod 8) · 32 + p of the grouped row reads place p of key j, so the first
    hidden vector there is Spec.h1;
  • the product with the block-diagonal copy of W2 keeps block j mod 8, so column
    (j mod 8) · 16 + r of the second hidden layer is Spec.h2 at r, and the score is Spec.score;
  • the mask, the row maximum, the exponentials, their sum, the quotient and the average of the
    values are Spec.masked … Spec.out.
-/
import proofs.«151802_j67714454389137_2_alg».proof.Proof.Spec
import proofs.«151802_j67714454389137_2_alg».proof.Proof.KernelIdeal.BlockMathSum

noncomputable section

namespace Cert.KernelIdeal.Pay

open Idealize.ShloMosaic

/-- The query side: the 64 → 32 affine map, then the left half of W1. -/
theorem a_core (I : Cert.Spec.In) (h : Fin 16) (N : Fin 512) (p : Fin 32)
    (Q : Fin 64 → EReal) (WQ : Fin 32 → Fin 64 → EReal) (BQ : Fin 32 → EReal) (W1 : Fin 32 → Fin 32 → EReal)
    (hQ : ∀ d, Q d = Cert.Spec.q I h N d) (hWQ : ∀ p d, WQ p d = I.wq p d) (hBQ : ∀ p, BQ p = I.bq p)
    (hW1 : ∀ p p' : Fin 32, W1 p p' = I.w1 p ⟨p'.val, by omega⟩) :
    (∑ p' : Fin 32, ((∑ d : Fin 64, Q d * WQ p' d) + BQ p') * W1 p p') = Cert.Spec.a I h N p := by
  unfold Cert.Spec.a Cert.Spec.qp
  refine Finset.sum_congr rfl fun p' _ => ?_
  have hs : (∑ d : Fin 64, Q d * WQ p' d) = ∑ d : Fin 64, Cert.Spec.q I h N d * I.wq p' d :=
    Finset.sum_congr rfl fun d _ => by rw [hQ, hWQ]
  rw [hs, hBQ, hW1]

/-- The first hidden vector at a coordinate l of the grouped row that is place p of key j. -/
theorem h1_core (I : Cert.Spec.In) (h : Fin 16) (N j : Fin 512)
    (A : Fin 32 → EReal) (C : Fin 512 → Fin 32 → EReal) (B1 : Fin 256 → EReal)
    (hA : ∀ p, A p = Cert.Spec.a I h N p) (hC : ∀ j p, C j p = Cert.Spec.c I h j p)
    (hB1 : ∀ l : Fin 256, B1 l = I.b1 ⟨l.val % 32, Nat.mod_lt _ (by decide)⟩)
    (l : Fin 256) (p : Fin 32) (hp : l.val % 32 = p.val) (hj : j.val / 8 * 8 + l.val / 32 = j.val) :
    max ((A ⟨l.val % 32, Nat.mod_lt _ (by decide)⟩
          + C ⟨j.val / 8 * 8 + l.val / 32, by have := j.isLt; have := l.isLt; omega⟩ ⟨l.val % 32, Nat.mod_lt _ (by decide)⟩)
        + B1 l) 0
      = Cert.Spec.h1 I h N j p := by
  have e1 : (⟨l.val % 32, Nat.mod_lt _ (by decide)⟩ : Fin 32) = p := Fin.ext hp
  have e2 : (⟨j.val / 8 * 8 + l.val / 32, by have := j.isLt; have := l.isLt; omega⟩ : Fin 512) = j := Fin.ext hj
  rw [hB1, e1, e2, hA, hC]
  rfl

/-- Column (j mod 8) · 16 + r of the second hidden layer of the group of key j. -/
theorem h2_core (I : Cert.Spec.In) (h : Fin 16) (N j : Fin 512)
    (A : Fin 32 → EReal) (C : Fin 512 → Fin 32 → EReal) (B1 : Fin 256 → EReal)
    (W : Fin 256 → Fin 128 → EReal) (B2 : Fin 128 → EReal)
    (hA : ∀ p, A p = Cert.Spec.a I h N p) (hC : ∀ j p, C j p = Cert.Spec.c I h j p)
    (hB1 : ∀ l : Fin 256, B1 l = I.b1 ⟨l.val % 32, Nat.mod_lt _ (by decide)⟩)
    (hW : ∀ (l : Fin 256) (l' : Fin 128), W l l'
      = (if l.val / 32 = l'.val / 16 then (1 : EReal) else 0)
          * I.w2 ⟨l'.val % 16, Nat.mod_lt _ (by decide)⟩ ⟨l.val % 32, Nat.mod_lt _ (by decide)⟩)
    (hB2 : ∀ l' : Fin 128, B2 l' = I.b2 ⟨l'.val % 16, Nat.mod_lt _ (by decide)⟩)
    (r : Fin 16) (L' : Fin 128) (hL : L'.val = j.val % 8 * 16 + r.val) :
    max ((∑ l : Fin 256,
            max ((A ⟨l.val % 32, Nat.mod_lt _ (by decide)⟩
                  + C ⟨j.val / 8 * 8 + l.val / 32, by have := j.isLt; have := l.isLt; omega⟩
                      ⟨l.val % 32, Nat.mod_lt _ (by decide)⟩)
                + B1 l) 0
              * W l L')
        + B2 L') 0
      = Cert.Spec.h2 I h N j r := by
  have hr := r.isLt
  have h16 : L'.val / 16 = j.val % 8 := by omega
  have e16 : (⟨L'.val % 16, Nat.mod_lt _ (by decide)⟩ : Fin 16) = r := Fin.ext (by
    show L'.val % 16 = r.val
    omega)
  have hsum : (∑ l : Fin 256,
            max ((A ⟨l.val % 32, Nat.mod_lt _ (by decide)⟩
                  + C ⟨j.val / 8 * 8 + l.val / 32, by have := j.isLt; have := l.isLt; omega⟩
                      ⟨l.val % 32, Nat.mod_lt _ (by decide)⟩)
                + B1 l) 0
              * W l L')
      = ∑ p : Fin 32, Cert.Spec.h1 I h N j p * I.w2 r p := by
    refine (Finset.sum_congr rfl fun l _ => ?_).trans
      ((sum_block (fun l : Fin 256 =>
          max ((A ⟨l.val % 32, Nat.mod_lt _ (by decide)⟩
                + C ⟨j.val / 8 * 8 + l.val / 32, by have := j.isLt; have := l.isLt; omega⟩
                    ⟨l.val % 32, Nat.mod_lt _ (by decide)⟩)
              + B1 l) 0) (fun p => I.w2 r p) (j.val % 8) (by omega)).trans ?_)
    · rw [hW, e16, h16]
    · refine Finset.sum_congr rfl fun p _ => ?_
      have hp := p.isLt
      exact congrArg (· * I.w2 r p) (h1_core I h N j A C B1 hA hC hB1
        ⟨j.val % 8 * 32 + p.val, by omega⟩ p
        (by show (j.val % 8 * 32 + p.val) % 32 = p.val; omega)
        (by show j.val / 8 * 8 + (j.val % 8 * 32 + p.val) / 32 = j.val; omega))
  rw [hsum, hB2, e16]
  rfl

/-- The score of the pair (N, j). -/
theorem score_core (I : Cert.Spec.In) (h : Fin 16) (N j : Fin 512)
    (A : Fin 32 → EReal) (C : Fin 512 → Fin 32 → EReal) (B1 : Fin 256 → EReal)
    (W : Fin 256 → Fin 128 → EReal) (B2 : Fin 128 → EReal) (W3 : Fin 16 → EReal) (b3 : EReal)
    (hA : ∀ p, A p = Cert.Spec.a I h N p) (hC : ∀ j p, C j p = Cert.Spec.c I h j p)
    (hB1 : ∀ l : Fin 256, B1 l = I.b1 ⟨l.val % 32, Nat.mod_lt _ (by decide)⟩)
    (hW : ∀ (l : Fin 256) (l' : Fin 128), W l l'
      = (if l.val / 32 = l'.val / 16 then (1 : EReal) else 0)
          * I.w2 ⟨l'.val % 16, Nat.mod_lt _ (by decide)⟩ ⟨l.val % 32, Nat.mod_lt _ (by decide)⟩)
    (hB2 : ∀ l' : Fin 128, B2 l' = I.b2 ⟨l'.val % 16, Nat.mod_lt _ (by decide)⟩)
    (hW3 : ∀ r, W3 r = I.w3 r) (hb3 : b3 = I.b3) :
    (∑ r : Fin 16,
        max ((∑ l : Fin 256,
                max ((A ⟨l.val % 32, Nat.mod_lt _ (by decide)⟩
                      + C ⟨j.val / 8 * 8 + l.val / 32, by have := j.isLt; have := l.isLt; omega⟩
                          ⟨l.val % 32, Nat.mod_lt _ (by decide)⟩)
                    + B1 l) 0
                  * W l ⟨j.val % 8 * 16 + r.val, by have := r.isLt; omega⟩)
            + B2 ⟨j.val % 8 * 16 + r.val, by have := r.isLt; omega⟩) 0
          * W3 r)
      + b3
      = Cert.Spec.score I h N j := by
  unfold Cert.Spec.score
  rw [hb3]
  refine congrArg (· + I.b3) (Finset.sum_congr rfl fun r _ => ?_)
  rw [hW3, h2_core I h N j A C B1 W B2 hA hC hB1 hW hB2 r ⟨j.val % 8 * 16 + r.val, by have := r.isLt; omega⟩ rfl]

/-- The masked score: the large negative constant for a key after the query. -/
theorem masked_core (I : Cert.Spec.In) (h : Fin 16) (N j : Fin 512) (b : BitVec 1) (sc : EReal)
    (hb : b = 1#1 ↔ N.val < j.val) (hs : sc = Cert.Spec.score I h N j) :
    (if b = 1#1 then Ideal.ofBits .f32 0xF149F2CA#32 else sc) = Cert.Spec.masked I h N j := by
  unfold Cert.Spec.masked Cert.Spec.negBig
  rw [hs]
  exact if_congr hb rfl rfl

/-- The weights of row N and the average of the values they take. -/
theorem out_core (I : Cert.Spec.In) (h : Fin 16) (N : Fin 512) (d : Fin 64)
    (M : Fin 512 → EReal) (V : Fin 512 → EReal)
    (hM : ∀ j, M j = Cert.Spec.masked I h N j) (hV : ∀ j, V j = Cert.Spec.v I h j d) :
    (∑ j : Fin 512,
        Ideal.div
            (Ideal.exp (M j - max (Ideal.ofBits .f32 0xFF800000#32)
              ((Finset.univ : Finset (Fin 512)).fold max (Ideal.ofBits .f32 0xFF800000#32) (fun j => M j))))
            (∑ j' : Fin 512,
              Ideal.exp (M j' - max (Ideal.ofBits .f32 0xFF800000#32)
                ((Finset.univ : Finset (Fin 512)).fold max (Ideal.ofBits .f32 0xFF800000#32) (fun j => M j))))
          * V j)
      = Cert.Spec.out I h N d := by
  have eM : M = fun j => Cert.Spec.masked I h N j := funext hM
  have eV : V = fun j => Cert.Spec.v I h j d := funext hV
  subst eM
  subst eV
  rfl

end Cert.KernelIdeal.Pay

end
-- ==== Proof.KernelIdeal.BlockMath.lean ====
/-
  What one grid point of the attention body stores is the specification's attention output.
  For head h and query tile qt, with the loaded blocks holding the head's queries of the tile, its
  values, the weights in the layouts the body uses, and the scratch holding the key side of the
  first hidden layer, entry (0, n, d) of the stored block is Spec.out at row qt · 128 + n.
  The two payloads (the score of a pair, and the masked softmax times the values) enter through
  their readings at an index; everything else is the arithmetic on plain functions.
-/
import proofs.«151802_j67714454389137_2_alg».proof.Proof.Gen.KernelIdeal.Skeleton
import proofs.«151802_j67714454389137_2_alg».proof.Proof.KernelIdeal.PayCasts
import proofs.«151802_j67714454389137_2_alg».proof.Proof.KernelIdeal.Pay15
import proofs.«151802_j67714454389137_2_alg».proof.Proof.KernelIdeal.BlockMathCore

noncomputable section

namespace Cert.KernelIdeal.Pay

open Cert.KernelIdeal Cert.KernelIdeal.Gen Idealize.ShloMosaic Idealize.ShloMosaic.ValueIdx
open Cert.KernelIdeal.Hand

/-- The stored block from the two payloads' readings at an index. -/
theorem block_math_of
    (hP1 : ∀ (v5 : FVec Ideal S512x64 .f32) (v69 : FVec Ideal S128x512 .f32) (v73 v74 : IVec S128x512 32)
        (n : Fin 128) (d : Fin 64),
      k1_pay1 (F := Ideal) v5 v69 v73 v74 (ix3 (0 : Fin 1) n d)
        = ∑ j : Fin 512,
            Ideal.div
                (Ideal.exp ((if cmpi .sgt v74 v73 (ix2 n j) = 1#1 then Ideal.ofBits .f32 0xF149F2CA#32 else v69 (ix2 n j))
                  - max (Ideal.ofBits .f32 0xFF800000#32)
                      ((Finset.univ : Finset (Fin 512)).fold max (Ideal.ofBits .f32 0xFF800000#32)
                        (fun j => if cmpi .sgt v74 v73 (ix2 n j) = 1#1 then Ideal.ofBits .f32 0xF149F2CA#32 else v69 (ix2 n j)))))
                (∑ j' : Fin 512,
                  Ideal.exp ((if cmpi .sgt v74 v73 (ix2 n j') = 1#1 then Ideal.ofBits .f32 0xF149F2CA#32 else v69 (ix2 n j'))
                    - max (Ideal.ofBits .f32 0xFF800000#32)
                        ((Finset.univ : Finset (Fin 512)).fold max (Ideal.ofBits .f32 0xFF800000#32)
                          (fun j => if cmpi .sgt v74 v73 (ix2 n j) = 1#1 then Ideal.ofBits .f32 0xF149F2CA#32 else v69 (ix2 n j)))))
              * v5 (ix2 j d))
    (hP14 : ∀ (v1 : FVec Ideal S128x64 .f32) (v6 : Vec Ideal S32x64 .f32) (v9 : FVec Ideal S32 .f32)
        (v15 : FVec Ideal S32x32 .f32) (v20 : FVec Ideal S256 .f32) (v22 : FVec Ideal S256x128 .f32)
        (v25 : FVec Ideal S128 .f32) (v27 : FVec Ideal S16 .f32) (v28 : Vec Ideal S1x1 .f32) (v33 : Vec Ideal S512x32 .f32)
        (n : Fin 128) (j : Fin 512),
      k1_pay14 (F := Ideal) v1 v6 v9 v15 v20 v22 v25 v27 v28 v33 (ix2 n j)
        = (∑ r : Fin 16,
            max ((∑ l : Fin 256,
                    max (((∑ p' : Fin 32, ((∑ d : Fin 64, v1 (ix2 n d) * v6 (ix2 p' d)) + v9 (ix1 p'))
                              * v15 (ix2 (⟨l.val % 32, Nat.mod_lt _ (by decide)⟩ : Fin 32) p'))
                            + v33 (ix2 (⟨j.val / 8 * 8 + l.val / 32, by have := j.isLt; have := l.isLt; omega⟩ : Fin 512)
                                       (⟨l.val % 32, Nat.mod_lt _ (by decide)⟩ : Fin 32)))
                          + v20 (ix1 l)) 0
                      * v22 (ix2 l (⟨j.val % 8 * 16 + r.val, by have := r.isLt; omega⟩ : Fin 128)))
                  + v25 (ix1 (⟨j.val % 8 * 16 + r.val, by have := r.isLt; omega⟩ : Fin 128))) 0
              * v27 (ix1 r))
          + v28 (ix2 (0 : Fin 1) (0 : Fin 1)))
    (I : Cert.Spec.In) (h : Fin 16) (qt : Nat) (hqt : qt < 4)
    (x0 : Vec Ideal S1x128x64 .f32) (x2 : Vec Ideal S1x512x64 .f32) (x3 : Vec Ideal S32x64 .f32) (x4 : Vec Ideal S1x32 .f32)
    (x7 : Vec Ideal S32x32 .f32) (x9 : Vec Ideal S1x256 .f32) (x10 : Vec Ideal S256x128 .f32) (x11 : Vec Ideal S1x128 .f32)
    (x12 : Vec Ideal S1x16 .f32) (x13 : Vec Ideal S1x1 .f32) (S : Vec Ideal S512x32 .f32)
    (hx0 : ∀ (n : Fin 128) (d : Fin 64), x0 (ix3 (0 : Fin 1) n d) = Cert.Spec.q I h ⟨qt * 128 + n.val, by omega⟩ d)
    (hx2 : ∀ (j : Fin 512) (d : Fin 64), x2 (ix3 (0 : Fin 1) j d) = Cert.Spec.v I h j d)
    (hx3 : ∀ (p : Fin 32) (d : Fin 64), x3 (ix2 p d) = I.wq p d)
    (hx4 : ∀ p : Fin 32, x4 (ix2 (0 : Fin 1) p) = I.bq p)
    (hx7 : ∀ p p' : Fin 32, x7 (ix2 p p') = I.w1 p ⟨p'.val, by omega⟩)
    (hx9 : ∀ l : Fin 256, x9 (ix2 (0 : Fin 1) l) = I.b1 ⟨l.val % 32, by omega⟩)
    (hx10 : ∀ (l : Fin 256) (l' : Fin 128), x10 (ix2 l l') = (if l.val / 32 = l'.val / 16 then (1 : EReal) else 0) * I.w2 ⟨l'.val % 16, by omega⟩ ⟨l.val % 32, by omega⟩)
    (hx11 : ∀ l' : Fin 128, x11 (ix2 (0 : Fin 1) l') = I.b2 ⟨l'.val % 16, by omega⟩)
    (hx12 : ∀ r : Fin 16, x12 (ix2 (0 : Fin 1) r) = I.w3 r)
    (hx13 : x13 (ix2 (0 : Fin 1) (0 : Fin 1)) = I.b3)
    (hS : ∀ (j : Fin 512) (p : Fin 32), S (ix2 j p) = Cert.Spec.c I h j p)
    (n : Fin 128) (d : Fin 64) :
    k1_pay1 (F := Ideal) (k1_pay4 x2)
        (k1_pay14 (k1_pay2 x0) x3 (k1_pay5 x4) (k1_pay7 x7) (k1_pay9 x9) (k1_pay10 x10) (k1_pay11 x11) (k1_pay12 x12) x13 S)
        (k1_pay15 (BitVec.ofNat 32 qt)) (iota .tc S128x512 32 [1] iota_S128x512_d1_w32) (ix3 (0 : Fin 1) n d)
      = Cert.Spec.out I h ⟨qt * 128 + n.val, by omega⟩ d := by
  have hA : ∀ p : Fin 32,
      (∑ p' : Fin 32, ((∑ d : Fin 64, k1_pay2 x0 (ix2 n d) * x3 (ix2 p' d)) + k1_pay5 x4 (ix1 p')) * k1_pay7 x7 (ix2 p p'))
        = Cert.Spec.a I h ⟨qt * 128 + n.val, by omega⟩ p := fun p =>
    a_core I h ⟨qt * 128 + n.val, by omega⟩ p (fun d => k1_pay2 x0 (ix2 n d)) (fun p d => x3 (ix2 p d))
      (fun p => k1_pay5 x4 (ix1 p)) (fun p p' => k1_pay7 x7 (ix2 p p'))
      (fun d => (k1_pay2_apply x0 n d).trans (hx0 n d)) hx3
      (fun p => (k1_pay5_apply x4 p).trans (hx4 p))
      (fun p p' => (congrFun (k1_pay7_eq x7) (ix2 p p')).trans (hx7 p p'))
  have hscore : ∀ j : Fin 512,
      k1_pay14 (F := Ideal) (k1_pay2 x0) x3 (k1_pay5 x4) (k1_pay7 x7) (k1_pay9 x9) (k1_pay10 x10) (k1_pay11 x11)
          (k1_pay12 x12) x13 S (ix2 n j)
        = Cert.Spec.score I h ⟨qt * 128 + n.val, by omega⟩ j := fun j =>
    (hP14 (k1_pay2 x0) x3 (k1_pay5 x4) (k1_pay7 x7) (k1_pay9 x9) (k1_pay10 x10) (k1_pay11 x11) (k1_pay12 x12) x13 S n j).trans
      (score_core I h ⟨qt * 128 + n.val, by omega⟩ j
        (fun p => ∑ p' : Fin 32, ((∑ d : Fin 64, k1_pay2 x0 (ix2 n d) * x3 (ix2 p' d)) + k1_pay5 x4 (ix1 p')) * k1_pay7 x7 (ix2 p p'))
        (fun j p => S (ix2 j p)) (fun l => k1_pay9 x9 (ix1 l)) (fun l l' => k1_pay10 x10 (ix2 l l'))
        (fun l' => k1_pay11 x11 (ix1 l')) (fun r => k1_pay12 x12 (ix1 r)) (x13 (ix2 (0 : Fin 1) (0 : Fin 1)))
        hA hS
        (fun l => (k1_pay9_apply x9 l).trans (hx9 l))
        (fun l l' => (congrFun (k1_pay10_eq x10) (ix2 l l')).trans (hx10 l l'))
        (fun l' => (k1_pay11_apply x11 l').trans (hx11 l'))
        (fun r => (k1_pay12_apply x12 r).trans (hx12 r))
        hx13)
  refine (hP1 _ _ _ _ n d).trans ?_
  exact out_core I h ⟨qt * 128 + n.val, by omega⟩ d
    (fun j => if cmpi .sgt (iota .tc S128x512 32 [1] iota_S128x512_d1_w32) (k1_pay15 (BitVec.ofNat 32 qt)) (ix2 n j) = 1#1
      then Ideal.ofBits .f32 0xF149F2CA#32
      else k1_pay14 (F := Ideal) (k1_pay2 x0) x3 (k1_pay5 x4) (k1_pay7 x7) (k1_pay9 x9) (k1_pay10 x10) (k1_pay11 x11)
          (k1_pay12 x12) x13 S (ix2 n j))
    (fun j => k1_pay4 x2 (ix2 j d))
    (fun j => masked_core I h ⟨qt * 128 + n.val, by omega⟩ j _ _ (mask_cond_iff qt hqt n j) (hscore j))
    (fun j => (k1_pay4_apply x2 j d).trans (hx2 j d))

end Cert.KernelIdeal.Pay

end
-- ==== Proof.KernelIdeal.Pay1.lean ====
/-
  The attention weights and the averaged values, as the body stores them, read at an index on the
  extended reals.  A score is replaced by a large negative constant where the mask's bit is set;
  each row of 512 is shifted by its maximum (started from −∞ and taken once more against −∞),
  exponentiated, divided by the row's sum, and the 128 × 512 weights multiply the 512 × 64 values.
-/
import proofs.«151802_j67714454389137_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen
open Idealize.ShloMosaic Idealize.ShloMosaic.ValueIdx Idealize.SL.Sem

/-- The masked score at (n, j): the constant where the comparison's bit is set, the score elsewhere. -/
def maskedAt (v69 : FVec Ideal S128x512 .f32) (v73 v74 : IVec S128x512 32) (n : Fin 128) (j : Fin 512) : EReal :=
  Scalar.select (cmpi .sgt v74 v73 (ix2 n j)) (Ideal.ofBits .f32 0xF149F2CA#32) (v69 (ix2 n j))

theorem maskedAt_eq_ite (v69 : FVec Ideal S128x512 .f32) (v73 v74 : IVec S128x512 32) (n : Fin 128) (j : Fin 512) :
    maskedAt v69 v73 v74 n j
      = if cmpi .sgt v74 v73 (ix2 n j) = 1#1 then Ideal.ofBits .f32 0xF149F2CA#32 else v69 (ix2 n j) := rfl

/-- The maximum of row n of the masked scores, from −∞. -/
def rowMaxAt (v69 : FVec Ideal S128x512 .f32) (v73 v74 : IVec S128x512 32) (n : Fin 128) : EReal :=
  max (Ideal.ofBits .f32 0xFF800000#32)
    ((Finset.univ : Finset (Fin 512)).fold max (Ideal.ofBits .f32 0xFF800000#32) (fun j => maskedAt v69 v73 v74 n j))

/-- The index a reduction over the columns reads: row n, column j. -/
private theorem lift_eq (n : Fin 128) (j : Fin 512) : reduces_S128x512_S128.lift (ix1 n) j = ix2 n j :=
  funext fun a => Fin.ext (by match a with | ⟨0, _⟩ => rfl | ⟨1, _⟩ => rfl)

/-- A sum over the columns of a 128 × 512 array, at row n. -/
theorem rowSum_apply (src : FVec Ideal S128x512 .f32) (hφ : FKind.Formats .f32)
    (hacc : (0x00000000#32 : BitVec 32) = 0x00000000#32) (n : Fin 128) :
    multiReduction (F := Ideal) .add [1] S128 src 0x00000000#32 reduces_S128x512_S128 hφ hacc (ix1 n)
      = ∑ j : Fin 512, src (ix2 n j) := by
  refine (Ideal.multiReduction_add_single src 0x00000000#32 reduces_S128x512_S128 hφ hacc (ix1 n)).trans ?_
  show ∑ j : Fin 512, src (reduces_S128x512_S128.lift (ix1 n) j) = _
  exact Finset.sum_congr rfl fun j _ => congrArg src (lift_eq n j)

/-- A maximum over the columns of a 128 × 512 array from −∞, at row n. -/
theorem rowMax_apply (src : FVec Ideal S128x512 .f32) (hφ : FKind.Formats .f32)
    (hacc : (0xFF800000#32 : BitVec 32) = 0xFF800000#32) (n : Fin 128) :
    multiReduction (F := Ideal) .maximumf [1] S128 src 0xFF800000#32 reduces_S128x512_S128 hφ hacc (ix1 n)
      = (Finset.univ : Finset (Fin 512)).fold max (Ideal.ofBits .f32 0xFF800000#32) (fun j => src (ix2 n j)) := by
  refine (Ideal.multiReduction_maximumf_single src 0xFF800000#32 reduces_S128x512_S128 hφ hacc (ix1 n)).trans ?_
  show (Finset.univ : Finset (Fin 512)).fold max (Ideal.ofBits .f32 0xFF800000#32) (src ∘ reduces_S128x512_S128.lift (ix1 n)) = _
  exact congrArg (fun f => (Finset.univ : Finset (Fin 512)).fold max (Ideal.ofBits .f32 0xFF800000#32) f)
    (funext fun j => congrArg src (lift_eq n j))

/-- A vector of 128 row values made a column and spread over the 512 columns reads its row's value. -/
theorem col_apply (x : FVec Ideal S128 .f32) (n : Fin 128) (j : Fin 512) :
    broadcastTo S128x512 (shapeCast S128x1 x shapeCasts_S128_S128x1) broadcasts_S128x1_S128x512 (ix2 n j) = x (ix1 n) := by
  refine (broadcastTo_apply _ broadcasts_S128x1_S128x512 (ix2 n j) (ix2 n (0 : Fin 1)) fun a => ?_).trans ?_
  · match a with
    | ⟨0, _⟩ => rfl
    | ⟨1, _⟩ => rfl
  · exact shapeCast_apply x shapeCasts_S128_S128x1 (ix2 n (0 : Fin 1)) (ix1 n) (by
      rw [Shape.rowMajor_val_one, Shape.rowMajor_val_two]
      show n.val = n.val * 1 + 0
      omega)

private abbrev D3 := dot_S128x512_S512x64_S128x64_1_0_0_1_n_n

private theorem D3_lhs0 (i : S128x64.Idx) (q : D3.contr.Idx) : (D3.lhsIdx i q 0).val = (i 0).val := by
  unfold DotDims.lhsIdx
  rw [dif_neg (show ¬(0 : Fin S128x512.rank) ∈ D3.lhsBatch by decide), dif_pos (show (0 : Fin S128x512.rank) ∈ D3.lhsNonContracting by decide)]
  rfl
private theorem D3_rhs1 (i : S128x64.Idx) (q : D3.contr.Idx) : (D3.rhsIdx i q 1).val = (i 1).val := by
  unfold DotDims.rhsIdx
  rw [dif_neg (show ¬(1 : Fin S512x64.rank) ∈ D3.rhsBatch by decide), dif_pos (show (1 : Fin S512x64.rank) ∈ D3.rhsNonContracting by decide)]
  rfl

/-- A [128, 512] by [512, 64] product into the zero splat, at (i, c): the sum over the 512 shared coordinates. -/
theorem mm_128x512_512x64 {φ₁ φ₂ : FTy} (a : FVec Ideal S128x512 φ₁) (b : FVec Ideal S512x64 φ₂) (i : Fin 128) (c : Fin 64) :
    matmul dot_S128x512_S512x64_S128x64_1_0_0_1_n_n none a b (constant (F := Ideal) S128x64 .f32 0x00000000#32) (ix2 i c)
      = ∑ l : Fin 512, a (ix2 i l) * b (ix2 l c) := by
  simp only [matmul]
  rw [Ideal.matmul_constant_zero_apply, ← Equiv.sum_comp (contrEquiv1 D3 512 rfl rfl).symm]
  refine Finset.sum_congr rfl fun l _ => ?_
  have hl := contrEquiv1_symm_val D3 512 rfl rfl l
  have el : D3.lhsIdx (ix2 i c) ((contrEquiv1 D3 512 rfl rfl).symm l) = ix2 i l := funext fun x => Fin.ext (by
    match x with
    | ⟨0, _⟩ => exact D3_lhs0 _ _
    | ⟨1, _⟩ => exact (D3.lhsIdx_val_of_single rfl _ _).trans hl)
  have er : D3.rhsIdx (ix2 i c) ((contrEquiv1 D3 512 rfl rfl).symm l) = ix2 l c := funext fun x => Fin.ext (by
    match x with
    | ⟨0, _⟩ => exact (D3.rhsIdx_val_of_single rfl _ _).trans hl
    | ⟨1, _⟩ => exact D3_rhs1 _ _)
  rw [el, er]

private theorem exp_apply' (a : FVec Ideal S128x512 .f32) (i : S128x512.Idx) : exp a i = Ideal.exp (a i) := rfl

/-- The maximum of row n of an array, from −∞ and taken once more against −∞. -/
def mxOf (src : FVec Ideal S128x512 .f32) (n : Fin 128) : EReal :=
  max (Ideal.ofBits .f32 0xFF800000#32)
    ((Finset.univ : Finset (Fin 512)).fold max (Ideal.ofBits .f32 0xFF800000#32) (fun j => src (ix2 n j)))

/-- A row of an array shifted by its maximum, exponentiated and divided by the row's sum, at (n, j). -/
theorem softmax_apply (src : FVec Ideal S128x512 .f32) (hφ : FKind.Formats .f32)
    (hmax : (0xFF800000#32 : BitVec 32) = 0xFF800000#32) (hadd : (0x00000000#32 : BitVec 32) = 0x00000000#32)
    (n : Fin 128) (j : Fin 512) :
    divf
        (exp (subf src (broadcastTo S128x512 (shapeCast S128x1
          (maximumf (broadcast S128 (Scalar.ofBits .f32 0xFF800000#32 : Ideal .f32))
            (multiReduction .maximumf [1] S128 src 0xFF800000#32 reduces_S128x512_S128 hφ hmax))
          shapeCasts_S128_S128x1) broadcasts_S128x1_S128x512)))
        (broadcastTo S128x512 (shapeCast S128x1
          (multiReduction .add [1] S128
            (exp (subf src (broadcastTo S128x512 (shapeCast S128x1
              (maximumf (broadcast S128 (Scalar.ofBits .f32 0xFF800000#32 : Ideal .f32))
                (multiReduction .maximumf [1] S128 src 0xFF800000#32 reduces_S128x512_S128 hφ hmax))
              shapeCasts_S128_S128x1) broadcasts_S128x1_S128x512)))
            0x00000000#32 reduces_S128x512_S128 hφ hadd)
          shapeCasts_S128_S128x1) broadcasts_S128x1_S128x512)
        (ix2 n j)
      = Ideal.div (Ideal.exp (src (ix2 n j) - mxOf src n)) (∑ j' : Fin 512, Ideal.exp (src (ix2 n j') - mxOf src n)) := by
  simp only [divf_apply, exp_apply', subf_apply, col_apply, maximumf_apply]
  rw [rowSum_apply]
  simp only [exp_apply', subf_apply, col_apply, maximumf_apply]
  rw [rowMax_apply src hφ hmax n]
  rfl

/-- The stored block at (0, n, d): the weights of row n times column d of the values. -/
theorem k1_pay1_apply (v5 : FVec Ideal S512x64 .f32) (v69 : FVec Ideal S128x512 .f32) (v73 v74 : IVec S128x512 32)
    (n : Fin 128) (d : Fin 64) :
    k1_pay1 (F := Ideal) v5 v69 v73 v74 (ix3 (0 : Fin 1) n d)
      = ∑ j : Fin 512,
          Ideal.div (Ideal.exp (maskedAt v69 v73 v74 n j - rowMaxAt v69 v73 v74 n))
              (∑ j' : Fin 512, Ideal.exp (maskedAt v69 v73 v74 n j' - rowMaxAt v69 v73 v74 n))
            * v5 (ix2 j d) := by
  unfold k1_pay1
  rw [shapeCast_ab_1ab_apply]
  refine (mm_128x512_512x64 _ _ n d).trans ?_
  refine Finset.sum_congr rfl fun j _ => ?_
  rw [truncf_apply, truncf_apply]
  exact congrArg (fun z => z * v5 (ix2 j d))
    (softmax_apply (select (cmpi .sgt v74 v73) (broadcast S128x512 (Scalar.ofBits .f32 0xF149F2CA#32 : Ideal .f32)) v69) _ _ _ n j)

end Cert.KernelIdeal.Pay

end
-- ==== Proof.KernelIdeal.Pay14A.lean ====
/-
  The query side of the first hidden layer inside the score payload, read at an index on the
  extended reals.  Row n of the query tile (64 features) goes through the 64 → 32 affine map
  (weights v6, bias v9) and then through the 32 × 32 matrix v15: entry (n, p) is
      ∑ p', ((∑ d, query n d · v6 p' d) + v9 p') · v15 p p'.
-/
import proofs.«151802_j67714454389137_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen
open Idealize.ShloMosaic Idealize.ShloMosaic.ValueIdx Idealize.SL.Sem

/-- The query-side entry (n, p). -/
def qSide (v1 : FVec Ideal S128x64 .f32) (v6 : Vec Ideal S32x64 .f32) (v9 : FVec Ideal S32 .f32)
    (v15 : FVec Ideal S32x32 .f32) (n : Fin 128) (p : Fin 32) : EReal :=
  ∑ p' : Fin 32, ((∑ d : Fin 64, v1 (ix2 n d) * v6 (ix2 p' d)) + v9 (ix1 p')) * v15 (ix2 p p')

private abbrev D4 := dot_S128x64_S64x32_S128x32_1_0_0_1_n_n

private theorem D4_lhs0 (i : S128x32.Idx) (q : D4.contr.Idx) : (D4.lhsIdx i q 0).val = (i 0).val := by
  unfold DotDims.lhsIdx
  rw [dif_neg (show ¬(0 : Fin S128x64.rank) ∈ D4.lhsBatch by decide), dif_pos (show (0 : Fin S128x64.rank) ∈ D4.lhsNonContracting by decide)]
  rfl
private theorem D4_rhs1 (i : S128x32.Idx) (q : D4.contr.Idx) : (D4.rhsIdx i q 1).val = (i 1).val := by
  unfold DotDims.rhsIdx
  rw [dif_neg (show ¬(1 : Fin S64x32.rank) ∈ D4.rhsBatch by decide), dif_pos (show (1 : Fin S64x32.rank) ∈ D4.rhsNonContracting by decide)]
  rfl

/-- A [128, 64] by [64, 32] product into the zero splat, at (i, c): the sum over the 64 shared coordinates. -/
theorem mm_128x64_64x32 {φ₁ φ₂ : FTy} (a : FVec Ideal S128x64 φ₁) (b : FVec Ideal S64x32 φ₂) (i : Fin 128) (c : Fin 32) :
    matmul dot_S128x64_S64x32_S128x32_1_0_0_1_n_n none a b (constant (F := Ideal) S128x32 .f32 0x00000000#32) (ix2 i c)
      = ∑ l : Fin 64, a (ix2 i l) * b (ix2 l c) := by
  simp only [matmul]
  rw [Ideal.matmul_constant_zero_apply, ← Equiv.sum_comp (contrEquiv1 D4 64 rfl rfl).symm]
  refine Finset.sum_congr rfl fun l _ => ?_
  have hl := contrEquiv1_symm_val D4 64 rfl rfl l
  have el : D4.lhsIdx (ix2 i c) ((contrEquiv1 D4 64 rfl rfl).symm l) = ix2 i l := funext fun x => Fin.ext (by
    match x with
    | ⟨0, _⟩ => exact D4_lhs0 _ _
    | ⟨1, _⟩ => exact (D4.lhsIdx_val_of_single rfl _ _).trans hl)
  have er : D4.rhsIdx (ix2 i c) ((contrEquiv1 D4 64 rfl rfl).symm l) = ix2 l c := funext fun x => Fin.ext (by
    match x with
    | ⟨0, _⟩ => exact (D4.rhsIdx_val_of_single rfl _ _).trans hl
    | ⟨1, _⟩ => exact D4_rhs1 _ _)
  rw [el, er]

private abbrev D5 := dot_S128x32_S32x32_S128x32_1_0_0_1_n_n

private theorem D5_lhs0 (i : S128x32.Idx) (q : D5.contr.Idx) : (D5.lhsIdx i q 0).val = (i 0).val := by
  unfold DotDims.lhsIdx
  rw [dif_neg (show ¬(0 : Fin S128x32.rank) ∈ D5.lhsBatch by decide), dif_pos (show (0 : Fin S128x32.rank) ∈ D5.lhsNonContracting by decide)]
  rfl
private theorem D5_rhs1 (i : S128x32.Idx) (q : D5.contr.Idx) : (D5.rhsIdx i q 1).val = (i 1).val := by
  unfold DotDims.rhsIdx
  rw [dif_neg (show ¬(1 : Fin S32x32.rank) ∈ D5.rhsBatch by decide), dif_pos (show (1 : Fin S32x32.rank) ∈ D5.rhsNonContracting by decide)]
  rfl

/-- A [128, 32] by [32, 32] product into the zero splat, at (i, c): the sum over the 32 shared coordinates. -/
theorem mm_128x32_32x32 {φ₁ φ₂ : FTy} (a : FVec Ideal S128x32 φ₁) (b : FVec Ideal S32x32 φ₂) (i : Fin 128) (c : Fin 32) :
    matmul dot_S128x32_S32x32_S128x32_1_0_0_1_n_n none a b (constant (F := Ideal) S128x32 .f32 0x00000000#32) (ix2 i c)
      = ∑ l : Fin 32, a (ix2 i l) * b (ix2 l c) := by
  simp only [matmul]
  rw [Ideal.matmul_constant_zero_apply, ← Equiv.sum_comp (contrEquiv1 D5 32 rfl rfl).symm]
  refine Finset.sum_congr rfl fun l _ => ?_
  have hl := contrEquiv1_symm_val D5 32 rfl rfl l
  have el : D5.lhsIdx (ix2 i c) ((contrEquiv1 D5 32 rfl rfl).symm l) = ix2 i l := funext fun x => Fin.ext (by
    match x with
    | ⟨0, _⟩ => exact D5_lhs0 _ _
    | ⟨1, _⟩ => exact (D5.lhsIdx_val_of_single rfl _ _).trans hl)
  have er : D5.rhsIdx (ix2 i c) ((contrEquiv1 D5 32 rfl rfl).symm l) = ix2 l c := funext fun x => Fin.ext (by
    match x with
    | ⟨0, _⟩ => exact (D5.rhsIdx_val_of_single rfl _ _).trans hl
    | ⟨1, _⟩ => exact D5_rhs1 _ _)
  rw [el, er]

/-- The two products and the bias between them, as the payload writes them, at (n, p). -/
theorem qSide_apply (v1 : FVec Ideal S128x64 .f32) (v6 : Vec Ideal S32x64 .f32) (v9 : FVec Ideal S32 .f32)
    (v15 : FVec Ideal S32x32 .f32) (n : Fin 128) (p : Fin 32) :
    matmul dot_S128x32_S32x32_S128x32_1_0_0_1_n_n none
        (addf (matmul dot_S128x64_S64x32_S128x32_1_0_0_1_n_n none v1 (transpose S64x32 [1, 0] v6 transposes_S32x64_p1_0_S64x32 : FVec Ideal S64x32 .f32) (constant (F := Ideal) S128x32 .f32 0x00000000#32))
          (broadcastTo S128x32 (shapeCast S1x32 v9 shapeCasts_S32_S1x32) broadcasts_S1x32_S128x32))
        (transpose S32x32 [1, 0] v15 transposes_S32x32_p1_0_S32x32) (constant (F := Ideal) S128x32 .f32 0x00000000#32) (ix2 n p)
      = qSide v1 v6 v9 v15 n p := by
  unfold qSide
  refine (mm_128x32_32x32 _ _ n p).trans ?_
  refine Finset.sum_congr rfl fun p' _ => ?_
  rw [transpose_ix2_apply, addf_apply, mm_128x64_64x32, broadcastTo_1b_ab_apply, shapeCast_a_1a_apply]
  refine congrArg (fun z => (z + v9 (ix1 p')) * v15 (ix2 p p')) ?_
  refine Finset.sum_congr rfl fun d _ => ?_
  rw [transpose_ix2_apply]

end Cert.KernelIdeal.Pay

end
-- ==== Proof.KernelIdeal.Pay14B.lean ====
/-
  The layout steps of the score payload, each read at an index.
  • A vector of c entries, a matrix of a × c or of b × c entries, spread to a × b × c by a cast that
    inserts unit axes and a broadcast over them, reads the entry with the surviving coordinates.
  • The reshapes are row-major: 512 × 32 keys as 64 groups of 8 keys (key g·8 + r', feature p at
    (g, r'·32 + p)); 128 × 64 × 256 as 8192 × 256 and 8192 × 128 back as 128 × 64 × 128 (row
    n·64 + g); 128 × 64 × 128 as 128 × 512 × 16 ((n, g, r·16 + q) at (n, g·8 + r, q)).
  • Eight copies of a 128 × 32 matrix side by side read column l at column l mod 32.
  • A sum over the last axis of 128 × 512 × 16 is the sum over its 16 coordinates.
-/
import proofs.«151802_j67714454389137_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen
open Idealize.ShloMosaic Idealize.ShloMosaic.ValueIdx Idealize.SL.Sem

variable {α : Type}

/-- A vector [c] cast to [1, 1, c] and spread to [a, b, c] reads, at (i, k, l), its entry l. -/
theorem bc_c_abc_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (i : Fin a) (k : Fin b) (l : Fin c) :
    broadcastTo ⟨3, ![a, b, c]⟩ (shapeCast ⟨3, ![1, 1, c]⟩ x h1) h2 (ix3 i k l) = x (ix1 l) := by
  refine (broadcastTo_apply _ h2 (ix3 i k l) (ix3 (0 : Fin 1) (0 : Fin 1) l) fun ax => ?_).trans ?_
  · match ax with
    | ⟨0, _⟩ => rfl
    | ⟨1, _⟩ => rfl
    | ⟨2, _⟩ =>
      show l.val = if c = 1 then 0 else l.val
      split
      · have := l.isLt; omega
      · rfl
  · exact shapeCast_apply x h1 _ (ix1 l) (by
      rw [Shape.rowMajor_val_one, Shape.rowMajor_val_three]
      show l.val = (0 * 1 + 0) * c + l.val
      simp only [Nat.zero_mul, Nat.zero_add])

/-- A matrix [a, c] cast to [a, 1, c] and spread to [a, b, c] reads, at (i, k, l), its entry (i, l). -/
theorem bc_ac_abc_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (i : Fin a) (k : Fin b) (l : Fin c) :
    broadcastTo ⟨3, ![a, b, c]⟩ (shapeCast ⟨3, ![a, 1, c]⟩ x h1) h2 (ix3 i k l) = x (ix2 i l) := by
  refine (broadcastTo_apply _ h2 (ix3 i k l) (ix3 i (0 : Fin 1) l) fun ax => ?_).trans ?_
  · match ax with
    | ⟨0, _⟩ =>
      show i.val = if a = 1 then 0 else i.val
      split
      · have := i.isLt; omega
      · rfl
    | ⟨1, _⟩ => rfl
    | ⟨2, _⟩ =>
      show l.val = if c = 1 then 0 else l.val
      split
      · have := l.isLt; omega
      · rfl
  · exact shapeCast_apply x h1 _ (ix2 i l) (by
      rw [Shape.rowMajor_val_two, Shape.rowMajor_val_three]
      show i.val * c + l.val = (i.val * 1 + 0) * c + l.val
      rw [Nat.mul_one, Nat.add_zero])

/-- A matrix [b, c] cast to [1, b, c] and spread to [a, b, c] reads, at (i, k, l), its entry (k, l). -/
theorem bc_bc_abc_apply {a b c : ℕ} (x : (⟨2, ![b, c]⟩ : Shape).Idx → α)
    (h1 : (⟨2, ![b, c]⟩ : Shape).ShapeCasts ⟨3, ![1, b, c]⟩) (h2 : (⟨3, ![1, b, c]⟩ : Shape).Broadcasts ⟨3, ![a, b, c]⟩)
    (i : Fin a) (k : Fin b) (l : Fin c) :
    broadcastTo ⟨3, ![a, b, c]⟩ (shapeCast ⟨3, ![1, b, c]⟩ x h1) h2 (ix3 i k l) = x (ix2 k l) := by
  refine (broadcastTo_apply _ h2 (ix3 i k l) (ix3 (0 : Fin 1) k l) fun ax => ?_).trans ?_
  · match ax with
    | ⟨0, _⟩ => rfl
    | ⟨1, _⟩ =>
      show k.val = if b = 1 then 0 else k.val
      split
      · have := k.isLt; omega
      · rfl
    | ⟨2, _⟩ =>
      show l.val = if c = 1 then 0 else l.val
      split
      · have := l.isLt; omega
      · rfl
  · exact shapeCast_ab_1ab_apply x h1 (0 : Fin 1) k l

/-- 512 × 32 as 64 × 256: entry (g, l) is key g·8 + l / 32, feature l mod 32. -/
theorem reshape_keys_apply (x : S512x32.Idx → α) (g : Fin 64) (l : Fin 256) :
    shapeCast S64x256 x shapeCasts_S512x32_S64x256 (ix2 g l)
      = x (ix2 (⟨g.val * 8 + l.val / 32, by have := g.isLt; have := l.isLt; omega⟩ : Fin 512)
              (⟨l.val % 32, Nat.mod_lt _ (by decide)⟩ : Fin 32)) :=
  shapeCast_apply x _ _ _ (by
    rw [Shape.rowMajor_val_two, Shape.rowMajor_val_two]
    show (g.val * 8 + l.val / 32) * 32 + l.val % 32 = g.val * 256 + l.val
    omega)

/-- 128 × 64 × 256 as 8192 × 256: row n·64 + g is (n, g). -/
theorem reshape_rows_apply (x : S128x64x256.Idx → α) (n : Fin 128) (g : Fin 64) (l : Fin 256) :
    shapeCast S8192x256 x shapeCasts_S128x64x256_S8192x256
        (ix2 (⟨n.val * 64 + g.val, by have := n.isLt; have := g.isLt; omega⟩ : Fin 8192) l)
      = x (ix3 n g l) :=
  shapeCast_apply x _ _ _ (by
    rw [Shape.rowMajor_val_three, Shape.rowMajor_val_two]
    rfl)

/-- 8192 × 128 as 128 × 64 × 128: (n, g) is row n·64 + g. -/
theorem reshape_rows_back_apply (x : S8192x128.Idx → α) (n : Fin 128) (g : Fin 64) (c : Fin 128) :
    shapeCast S128x64x128 x shapeCasts_S8192x128_S128x64x128 (ix3 n g c)
      = x (ix2 (⟨n.val * 64 + g.val, by have := n.isLt; have := g.isLt; omega⟩ : Fin 8192) c) :=
  shapeCast_apply x _ _ _ (by
    rw [Shape.rowMajor_val_two, Shape.rowMajor_val_three]
    rfl)

/-- 128 × 64 × 128 as 128 × 512 × 16: (n, j, r) is group j / 8, column (j mod 8)·16 + r. -/
theorem reshape_pairs_apply (x : S128x64x128.Idx → α) (n : Fin 128) (j : Fin 512) (r : Fin 16) :
    shapeCast S128x512x16 x shapeCasts_S128x64x128_S128x512x16 (ix3 n j r)
      = x (ix3 n (⟨j.val / 8, by have := j.isLt; omega⟩ : Fin 64)
              (⟨j.val % 8 * 16 + r.val, by have := r.isLt; omega⟩ : Fin 128)) :=
  shapeCast_apply x _ _ _ (by
    rw [Shape.rowMajor_val_three, Shape.rowMajor_val_three]
    show (n.val * 64 + j.val / 8) * 128 + (j.val % 8 * 16 + r.val) = (n.val * 512 + j.val) * 16 + r.val
    omega)

/-- Eight copies of a 128 × 32 matrix side by side: column l reads column l mod 32. -/
theorem tile8_apply (x : S128x32.Idx → α) (n : Fin 128) (l : Fin 256) :
    concatenate S128x256 1 [⟨S128x32, x⟩, ⟨S128x32, x⟩, ⟨S128x32, x⟩, ⟨S128x32, x⟩, ⟨S128x32, x⟩, ⟨S128x32, x⟩, ⟨S128x32, x⟩, ⟨S128x32, x⟩]
        concatenates_S128x32_S128x32_S128x32_S128x32_S128x32_S128x32_S128x32_S128x32_S128x256_d1 (ix2 n l)
      = x (ix2 n (⟨l.val % 32, Nat.mod_lt _ (by decide)⟩ : Fin 32)) :=
  concatenate_replicate_apply (t := S128x256) (s₁ := S128x32) 1 8 x
    concatenates_S128x32_S128x32_S128x32_S128x32_S128x32_S128x32_S128x32_S128x32_S128x256_d1 rfl (ix2 n l)
    (ix2 n (⟨l.val % 32, Nat.mod_lt _ (by decide)⟩ : Fin 32)) rfl
    (fun b hb => by
      match b with
      | ⟨0, _⟩ => rfl
      | ⟨1, _⟩ => exact absurd rfl hb)

/-- The index a sum over the last axis reads. -/
private theorem lift3_eq (n : Fin 128) (j : Fin 512) (r : Fin 16) :
    reduces_S128x512x16_S128x512.lift (ix2 n j) r = ix3 n j r :=
  funext fun a => Fin.ext (by match a with | ⟨0, _⟩ => rfl | ⟨1, _⟩ => rfl | ⟨2, _⟩ => rfl)

/-- A sum over the last axis of a 128 × 512 × 16 array, at (n, j). -/
theorem laneSum_apply (src : FVec Ideal S128x512x16 .f32) (hφ : FKind.Formats .f32)
    (hacc : (0x00000000#32 : BitVec 32) = 0x00000000#32) (n : Fin 128) (j : Fin 512) :
    multiReduction (F := Ideal) .add [2] S128x512 src 0x00000000#32 reduces_S128x512x16_S128x512 hφ hacc (ix2 n j)
      = ∑ r : Fin 16, src (ix3 n j r) := by
  refine (Ideal.multiReduction_add_single src 0x00000000#32 reduces_S128x512x16_S128x512 hφ hacc (ix2 n j)).trans ?_
  show ∑ r : Fin 16, src (reduces_S128x512x16_S128x512.lift (ix2 n j) r) = _
  exact Finset.sum_congr rfl fun r _ => congrArg src (lift3_eq n j r)

/-- The one entry of a 1 × 1 array. -/
theorem extract11_apply (x : S1x1.Idx → α) : extractAt ![0, 0] x inpos_S1x1_p0_0 = x (ix2 (0 : Fin 1) (0 : Fin 1)) :=
  congrArg x (funext fun a => Fin.ext (by match a with | ⟨0, _⟩ => rfl | ⟨1, _⟩ => rfl))

end Cert.KernelIdeal.Pay

end
-- ==== Proof.KernelIdeal.Pay14C.lean ====
/-
  The second hidden layer's product inside the score payload.  The 128 × 64 × 256 first hidden
  layer is laid out as 8192 rows of 256 (row n·64 + g), multiplied by the 256 × 128 block-diagonal
  matrix, and the 8192 × 128 result is read back as 128 × 64 × 128: entry (n, g, c) is the sum over
  the 256 columns l of the hidden layer at (n, g, l) times the matrix at (l, c).
-/
import proofs.«151802_j67714454389137_2_alg».proof.Proof.Gen.KernelIdeal.Skeleton
import Idealize.ShloMosaic.Lib.ValueLayout
import Idealize.ShloMosaic.Lib.ValueIdx
import Idealize.ShloMosaic.PureOps.Ideal.Laws
import proofs.«151802_j67714454389137_2_alg».proof.Proof.KernelIdeal.Pay14B

noncomputable section

namespace Cert.KernelIdeal.Pay

open Cert.KernelIdeal Cert.KernelIdeal.Gen
open Idealize.ShloMosaic Idealize.ShloMosaic.ValueIdx Idealize.SL.Sem

private abbrev D6 := dot_S8192x256_S256x128_S8192x128_1_0_0_1_n_n

private theorem D6_lhs0 (i : S8192x128.Idx) (q : D6.contr.Idx) : (D6.lhsIdx i q 0).val = (i 0).val := by
  unfold DotDims.lhsIdx
  rw [dif_neg (show ¬(0 : Fin S8192x256.rank) ∈ D6.lhsBatch by decide), dif_pos (show (0 : Fin S8192x256.rank) ∈ D6.lhsNonContracting by decide)]
  rfl
private theorem D6_rhs1 (i : S8192x128.Idx) (q : D6.contr.Idx) : (D6.rhsIdx i q 1).val = (i 1).val := by
  unfold DotDims.rhsIdx
  rw [dif_neg (show ¬(1 : Fin S256x128.rank) ∈ D6.rhsBatch by decide), dif_pos (show (1 : Fin S256x128.rank) ∈ D6.rhsNonContracting by decide)]
  rfl

/-- An [8192, 256] by [256, 128] product into the zero splat, at (i, c): the sum over the 256 shared coordinates. -/
theorem mm_8192x256_256x128 {φ₁ φ₂ : FTy} (a : FVec Ideal S8192x256 φ₁) (b : FVec Ideal S256x128 φ₂) (i : Fin 8192) (c : Fin 128) :
    matmul dot_S8192x256_S256x128_S8192x128_1_0_0_1_n_n none a b (constant (F := Ideal) S8192x128 .f32 0x00000000#32) (ix2 i c)
      = ∑ l : Fin 256, a (ix2 i l) * b (ix2 l c) := by
  simp only [matmul]
  rw [Ideal.matmul_constant_zero_apply, ← Equiv.sum_comp (contrEquiv1 D6 256 rfl rfl).symm]
  refine Finset.sum_congr rfl fun l _ => ?_
  have hl := contrEquiv1_symm_val D6 256 rfl rfl l
  have el : D6.lhsIdx (ix2 i c) ((contrEquiv1 D6 256 rfl rfl).symm l) = ix2 i l := funext fun x => Fin.ext (by
    match x with
    | ⟨0, _⟩ => exact D6_lhs0 _ _
    | ⟨1, _⟩ => exact (D6.lhsIdx_val_of_single rfl _ _).trans hl)
  have er : D6.rhsIdx (ix2 i c) ((contrEquiv1 D6 256 rfl rfl).symm l) = ix2 l c := funext fun x => Fin.ext (by
    match x with
    | ⟨0, _⟩ => exact (D6.rhsIdx_val_of_single rfl _ _).trans hl
    | ⟨1, _⟩ => exact D6_rhs1 _ _)
  rw [el, er]

/-- The product read through the two row reshapes, at (n, g, c). -/
theorem packed_apply (X : FVec Ideal S128x64x256 .f32) (B : FVec Ideal S256x128 .bf16) (n : Fin 128) (g : Fin 64) (c : Fin 128) :
    shapeCast S128x64x128
        (matmul dot_S8192x256_S256x128_S8192x128_1_0_0_1_n_n none
          (truncf .bf16 (shapeCast S8192x256 X shapeCasts_S128x64x256_S8192x256) bitsLt_bf16_f32) B
          (constant (F := Ideal) S8192x128 .f32 0x00000000#32))
        shapeCasts_S8192x128_S128x64x128 (ix3 n g c)
      = ∑ l : Fin 256, X (ix3 n g l) * B (ix2 l c) := by
  refine (reshape_rows_back_apply _ n g c).trans ?_
  refine (mm_8192x256_256x128 _ _ _ c).trans ?_
  refine Finset.sum_congr rfl fun l _ => ?_
  rw [truncf_apply]
  exact congrArg (· * B (ix2 l c)) (reshape_rows_apply X n g l)

end Cert.KernelIdeal.Pay

end
-- ==== Proof.KernelIdeal.Pay14.lean ====
/-
  The score of a pair (query row n of the tile, key j), as the body computes it, read at an index
  on the extended reals.  With A n p the query side and the scratch holding the key side, the first
  hidden layer at (n, group g, column l) is relu(A n (l mod 32) + scratch (g·8 + l / 32) (l mod 32)
  + b1 l); the second is relu of its product with the 256 × 128 block-diagonal matrix plus b2, read
  for key j in group j / 8 at columns (j mod 8)·16 + r; the score is the sum over r of the second
  layer times w3 r, plus b3.
-/
import proofs.«151802_j67714454389137_2_alg».proof.Proof.Gen.KernelIdeal.Skeleton
import Idealize.ShloMosaic.Lib.ValueLayout
import Idealize.ShloMosaic.Lib.ValueIdx
import Idealize.ShloMosaic.PureOps.Ideal.Laws
import proofs.«151802_j67714454389137_2_alg».proof.Proof.KernelIdeal.Pay14A
import proofs.«151802_j67714454389137_2_alg».proof.Proof.KernelIdeal.Pay14C

noncomputable section

namespace Cert.KernelIdeal.Pay

open Cert.KernelIdeal Cert.KernelIdeal.Gen
open Idealize.ShloMosaic Idealize.ShloMosaic.ValueIdx Idealize.SL.Sem

/-- The score payload at (n, j). -/
theorem k1_pay14_apply (v1 : FVec Ideal S128x64 .f32) (v6 : Vec Ideal S32x64 .f32) (v9 : FVec Ideal S32 .f32)
    (v15 : FVec Ideal S32x32 .f32) (v20 : FVec Ideal S256 .f32) (v22 : FVec Ideal S256x128 .f32)
    (v25 : FVec Ideal S128 .f32) (v27 : FVec Ideal S16 .f32) (v28 : Vec Ideal S1x1 .f32) (v33 : Vec Ideal S512x32 .f32)
    (n : Fin 128) (j : Fin 512) :
    k1_pay14 (F := Ideal) v1 v6 v9 v15 v20 v22 v25 v27 v28 v33 (ix2 n j)
      = (∑ r : Fin 16,
          max ((∑ l : Fin 256,
                  max ((qSide v1 v6 v9 v15 n (⟨l.val % 32, Nat.mod_lt _ (by decide)⟩ : Fin 32)
                          + v33 (ix2 (⟨j.val / 8 * 8 + l.val / 32, by have := j.isLt; have := l.isLt; omega⟩ : Fin 512)
                                     (⟨l.val % 32, Nat.mod_lt _ (by decide)⟩ : Fin 32)))
                        + v20 (ix1 l)) 0
                    * v22 (ix2 l (⟨j.val % 8 * 16 + r.val, by have := r.isLt; omega⟩ : Fin 128)))
                + v25 (ix1 (⟨j.val % 8 * 16 + r.val, by have := r.isLt; omega⟩ : Fin 128))) 0
            * v27 (ix1 r))
        + v28 (ix2 (0 : Fin 1) (0 : Fin 1)) := by
  unfold k1_pay14
  rw [addf_apply]
  refine (congrArg₂ (· + ·) (laneSum_apply _ _ _ n j) (extract11_apply v28)).trans ?_
  refine congrArg (· + v28 (ix2 (0 : Fin 1) (0 : Fin 1))) (Finset.sum_congr rfl fun r _ => ?_)
  simp only [mulf_apply, maximumf_apply, addf_apply, broadcast_apply, truncf_apply, bc_c_abc_apply, bc_ac_abc_apply,
    bc_bc_abc_apply, reshape_pairs_apply, packed_apply, tile8_apply, qSide_apply, reshape_keys_apply,
    Ideal.ofBits_def, Ideal.ofBits_zero_f32]
  refine congrArg (fun z => max (z + v25 (ix1 _)) 0 * v27 (ix1 r)) (Finset.sum_congr rfl fun l _ => ?_)
  rw [qSide_apply]

end Cert.KernelIdeal.Pay

end
-- ==== Proof.KernelIdeal.BlockMathThm.lean ====
/-
  What one grid point of the attention body stores is the specification's attention output:
  the statement of BlockMath.lean with the two payloads' readings at an index put in.
-/
import proofs.«151802_j67714454389137_2_alg».proof.Proof.KernelIdeal.BlockMath
import proofs.«151802_j67714454389137_2_alg».proof.Proof.KernelIdeal.Pay1
import proofs.«151802_j67714454389137_2_alg».proof.Proof.KernelIdeal.Pay14

noncomputable section

namespace Cert.KernelIdeal.Pay

open Cert.KernelIdeal Cert.KernelIdeal.Gen Idealize.ShloMosaic Idealize.ShloMosaic.ValueIdx

/-- Entry (0, n, d) of the block stored at head h, query tile qt, is Spec.out at row qt · 128 + n. -/
theorem block_math (I : Cert.Spec.In) (h : Fin 16) (qt : Nat) (hqt : qt < 4)
    (x0 : Vec Ideal S1x128x64 .f32) (x2 : Vec Ideal S1x512x64 .f32) (x3 : Vec Ideal S32x64 .f32) (x4 : Vec Ideal S1x32 .f32)
    (x7 : Vec Ideal S32x32 .f32) (x9 : Vec Ideal S1x256 .f32) (x10 : Vec Ideal S256x128 .f32) (x11 : Vec Ideal S1x128 .f32)
    (x12 : Vec Ideal S1x16 .f32) (x13 : Vec Ideal S1x1 .f32) (S : Vec Ideal S512x32 .f32)
    (hx0 : ∀ (n : Fin 128) (d : Fin 64), x0 (ix3 (0 : Fin 1) n d) = Cert.Spec.q I h ⟨qt * 128 + n.val, by omega⟩ d)
    (hx2 : ∀ (j : Fin 512) (d : Fin 64), x2 (ix3 (0 : Fin 1) j d) = Cert.Spec.v I h j d)
    (hx3 : ∀ (p : Fin 32) (d : Fin 64), x3 (ix2 p d) = I.wq p d)
    (hx4 : ∀ p : Fin 32, x4 (ix2 (0 : Fin 1) p) = I.bq p)
    (hx7 : ∀ p p' : Fin 32, x7 (ix2 p p') = I.w1 p ⟨p'.val, by omega⟩)
    (hx9 : ∀ l : Fin 256, x9 (ix2 (0 : Fin 1) l) = I.b1 ⟨l.val % 32, by omega⟩)
    (hx10 : ∀ (l : Fin 256) (l' : Fin 128), x10 (ix2 l l') = (if l.val / 32 = l'.val / 16 then (1 : EReal) else 0) * I.w2 ⟨l'.val % 16, by omega⟩ ⟨l.val % 32, by omega⟩)
    (hx11 : ∀ l' : Fin 128, x11 (ix2 (0 : Fin 1) l') = I.b2 ⟨l'.val % 16, by omega⟩)
    (hx12 : ∀ r : Fin 16, x12 (ix2 (0 : Fin 1) r) = I.w3 r)
    (hx13 : x13 (ix2 (0 : Fin 1) (0 : Fin 1)) = I.b3)
    (hS : ∀ (j : Fin 512) (p : Fin 32), S (ix2 j p) = Cert.Spec.c I h j p)
    (n : Fin 128) (d : Fin 64) :
    k1_pay1 (F := Ideal) (k1_pay4 x2)
        (k1_pay14 (k1_pay2 x0) x3 (k1_pay5 x4) (k1_pay7 x7) (k1_pay9 x9) (k1_pay10 x10) (k1_pay11 x11) (k1_pay12 x12) x13 S)
        (k1_pay15 (BitVec.ofNat 32 qt)) (iota .tc S128x512 32 [1] iota_S128x512_d1_w32) (ix3 (0 : Fin 1) n d)
      = Cert.Spec.out I h ⟨qt * 128 + n.val, by omega⟩ d :=
  block_math_of
    (fun v5 v69 v73 v74 n d => k1_pay1_apply v5 v69 v73 v74 n d)
    (fun v1 v6 v9 v15 v20 v22 v25 v27 v28 v33 n j => k1_pay14_apply v1 v6 v9 v15 v20 v22 v25 v27 v28 v33 n j)
    I h qt hqt x0 x2 x3 x4 x7 x9 x10 x11 x12 x13 S hx0 hx2 hx3 hx4 hx7 hx9 hx10 hx11 hx12 hx13 hS n d

end Cert.KernelIdeal.Pay

end
-- ==== Proof.Ref.Base.lean ====
/-
  The reference's run and its stages read at an index: the generated modules, imported once here so
  that every module about the reference shares them.
-/
import proofs.«151802_j67714454389137_2_alg».proof.Proof.Gen.ReferenceIdeal.Run
import proofs.«151802_j67714454389137_2_alg».proof.Proof.Gen.ReferenceIdeal.Read
-- ==== Proof.Ref.LowerProj.lean ====
/-
  The projection, read at coordinates.

  The reference computes the [1, 512, 3072] product of the input with the weight, reshapes it to
  [1, 512, 64, 3, 16], takes one of the three slices along the fourth axis, drops that axis and moves
  the head axis forward.  Row-major order of the reshape puts coordinate (d, k, h) at column
  d·48 + k·16 + h, so each of the three results is the specification's projection at that column.
-/
import proofs.«151802_j67714454389137_2_alg».proof.Proof.Ref.Base
import proofs.«151802_j67714454389137_2_alg».proof.Proof.SpecIn

noncomputable section

namespace Cert.Ref

open Cert.ReferenceIdeal Cert.ReferenceIdeal.Gen Cert.ReferenceIdeal.Read Idealize.ShloMosaic Idealize.ShloMosaic.ValueIdx

variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

local notation "I" => Cert.Spec.inOf x0 x1 x2 x3 x4 x5 x6 x7 x8 x9 x10 x11 x12

/-- The reshaped product at (n, d, k, h) is the projection of row n at column d·48 + k·16 + h. -/
theorem proj_at (n : Fin 512) (d : Fin 64) (k : Fin 3) (h : Fin 16) :
    val_main_v1 (F := Ideal) x0 x1 (ix5 (0 : Fin 1) n d k h) = Cert.Spec.proj I n (Cert.Spec.col d k h) := by
  rw [val_main_v1_apply, val_main_v0_apply]
  unfold Cert.Spec.proj
  refine Finset.sum_congr rfl fun c _ => ?_
  have hn := n.isLt; have hd := d.isLt; have hk := k.isLt; have hh := h.isLt
  have el : lidx_main_v0 (idx_main_v1 (ix5 (0 : Fin 1) n d k h)) c = ix3 (0 : Fin 1) n c :=
    funext fun a => Fin.ext (by
      match a with
      | ⟨0, _⟩ => rfl
      | ⟨1, _⟩ => dsimp only [lidx_main_v0, idx_main_v1, ix5, ix3]; omega
      | ⟨2, _⟩ => rfl)
  have er : ridx_main_v0 (idx_main_v1 (ix5 (0 : Fin 1) n d k h)) c = ix2 (Cert.Spec.col d k h) c :=
    funext fun a => Fin.ext (by
      match a with
      | ⟨0, _⟩ => dsimp only [ridx_main_v0, idx_main_v1, ix5, ix2, Cert.Spec.col]; omega
      | ⟨1, _⟩ => rfl)
  rw [el, er]
  rfl

/-- The queries: slice 0 of the three. -/
theorem q_at (h : Fin 16) (n : Fin 512) (d : Fin 64) :
    val_main_v4 (F := Ideal) x0 x1 (ix4 (0 : Fin 1) h n d) = Cert.Spec.q I h n d := by
  rw [val_main_v4_apply, val_main_v3_apply, val_main_v2_apply]
  have hh := h.isLt; have hn := n.isLt; have hd := d.isLt
  have e : idx_main_v2 (idx_main_v3 (idx_main_v4 (ix4 (0 : Fin 1) h n d))) = ix5 (0 : Fin 1) n d (0 : Fin 3) h :=
    funext fun a => Fin.ext (by
      match a with
      | ⟨0, _⟩ => rfl
      | ⟨1, _⟩ => dsimp only [idx_main_v2, idx_main_v3, idx_main_v4, ix4, ix5]; omega
      | ⟨2, _⟩ => dsimp only [idx_main_v2, idx_main_v3, idx_main_v4, ix4, ix5]; omega
      | ⟨3, _⟩ => rfl
      | ⟨4, _⟩ => dsimp only [idx_main_v2, idx_main_v3, idx_main_v4, ix4, ix5]; omega)
  rw [e, proj_at x0 x1 x2 x3 x4 x5 x6 x7 x8 x9 x10 x11 x12]
  rfl

/-- The keys: slice 1 of the three. -/
theorem k_at (h : Fin 16) (n : Fin 512) (d : Fin 64) :
    val_main_v7 (F := Ideal) x0 x1 (ix4 (0 : Fin 1) h n d) = Cert.Spec.k I h n d := by
  rw [val_main_v7_apply, val_main_v6_apply, val_main_v5_apply]
  have hh := h.isLt; have hn := n.isLt; have hd := d.isLt
  have e : idx_main_v5 (idx_main_v6 (idx_main_v7 (ix4 (0 : Fin 1) h n d))) = ix5 (0 : Fin 1) n d (1 : Fin 3) h :=
    funext fun a => Fin.ext (by
      match a with
      | ⟨0, _⟩ => rfl
      | ⟨1, _⟩ => dsimp only [idx_main_v5, idx_main_v6, idx_main_v7, ix4, ix5]; omega
      | ⟨2, _⟩ => dsimp only [idx_main_v5, idx_main_v6, idx_main_v7, ix4, ix5]; omega
      | ⟨3, _⟩ => rfl
      | ⟨4, _⟩ => dsimp only [idx_main_v5, idx_main_v6, idx_main_v7, ix4, ix5]; omega)
  rw [e, proj_at x0 x1 x2 x3 x4 x5 x6 x7 x8 x9 x10 x11 x12]
  rfl

/-- The values: slice 2 of the three. -/
theorem v_at (h : Fin 16) (n : Fin 512) (d : Fin 64) :
    val_main_v10 (F := Ideal) x0 x1 (ix4 (0 : Fin 1) h n d) = Cert.Spec.v I h n d := by
  rw [val_main_v10_apply, val_main_v9_apply, val_main_v8_apply]
  have hh := h.isLt; have hn := n.isLt; have hd := d.isLt
  have e : idx_main_v8 (idx_main_v9 (idx_main_v10 (ix4 (0 : Fin 1) h n d))) = ix5 (0 : Fin 1) n d (2 : Fin 3) h :=
    funext fun a => Fin.ext (by
      match a with
      | ⟨0, _⟩ => rfl
      | ⟨1, _⟩ => dsimp only [idx_main_v8, idx_main_v9, idx_main_v10, ix4, ix5]; omega
      | ⟨2, _⟩ => dsimp only [idx_main_v8, idx_main_v9, idx_main_v10, ix4, ix5]; omega
      | ⟨3, _⟩ => rfl
      | ⟨4, _⟩ => dsimp only [idx_main_v8, idx_main_v9, idx_main_v10, ix4, ix5]; omega)
  rw [e, proj_at x0 x1 x2 x3 x4 x5 x6 x7 x8 x9 x10 x11 x12]
  rfl

/-- The values, in the form the upper half of the reference consumes. -/
theorem v_eq (h : Fin 16) (j : Fin 512) (d : Fin 64) :
    val_main_v10 (F := Ideal) x0 x1 (ix4 (0 : Fin 1) h j d) = Cert.Spec.v I h j d :=
  v_at x0 x1 x2 x3 x4 x5 x6 x7 x8 x9 x10 x11 x12 h j d

end Cert.Ref

end
-- ==== Proof.Ref.LowerQK.lean ====
/-
  The projected queries and keys, read at coordinates.

  Each is the contraction of a head's 64 coordinates with a 32 × 64 matrix, plus a bias broadcast
  along the last axis.
-/
import proofs.«151802_j67714454389137_2_alg».proof.Proof.Ref.LowerProj

noncomputable section

namespace Cert.Ref

open Cert.ReferenceIdeal Cert.ReferenceIdeal.Gen Cert.ReferenceIdeal.Read Idealize.ShloMosaic Idealize.ShloMosaic.ValueIdx

variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

local notation "I" => Cert.Spec.inOf x0 x1 x2 x3 x4 x5 x6 x7 x8 x9 x10 x11 x12

/-- The projected query of head h, row n, at coordinate p. -/
theorem qp_at (h : Fin 16) (n : Fin 512) (p : Fin 32) :
    val_main_v14 (F := Ideal) x0 x1 x3 x4 (ix4 (0 : Fin 1) h n p) = Cert.Spec.qp I h n p := by
  rw [val_main_v14_apply, val_main_v11_apply, val_main_v13_apply, val_main_v12_apply, Ideal.addf_def]
  unfold Cert.Spec.qp
  have eb : idx_main_v12 (idx_main_v13 (ix4 (0 : Fin 1) h n p)) = ix1 p :=
    funext fun a => Fin.ext (by match a with | ⟨0, _⟩ => rfl)
  rw [eb]
  refine congrArg₂ (· + ·) (Finset.sum_congr rfl fun d _ => ?_) rfl
  have el : lidx_main_v11 (ix4 (0 : Fin 1) h n p) d = ix4 (0 : Fin 1) h n d :=
    funext fun a => Fin.ext (by
      match a with
      | ⟨0, _⟩ => rfl
      | ⟨1, _⟩ => rfl
      | ⟨2, _⟩ => rfl
      | ⟨3, _⟩ => rfl)
  have er : ridx_main_v11 (ix4 (0 : Fin 1) h n p) d = ix2 p d :=
    funext fun a => Fin.ext (by
      match a with
      | ⟨0, _⟩ => rfl
      | ⟨1, _⟩ => rfl)
  rw [el, er, q_at x0 x1 x2 x3 x4 x5 x6 x7 x8 x9 x10 x11 x12]
  rfl

/-- The projected key of head h, row n, at coordinate p. -/
theorem kp_at (h : Fin 16) (n : Fin 512) (p : Fin 32) :
    val_main_v18 (F := Ideal) x0 x1 x5 x6 (ix4 (0 : Fin 1) h n p) = Cert.Spec.kp I h n p := by
  rw [val_main_v18_apply, val_main_v15_apply, val_main_v17_apply, val_main_v16_apply, Ideal.addf_def]
  unfold Cert.Spec.kp
  have eb : idx_main_v16 (idx_main_v17 (ix4 (0 : Fin 1) h n p)) = ix1 p :=
    funext fun a => Fin.ext (by match a with | ⟨0, _⟩ => rfl)
  rw [eb]
  refine congrArg₂ (· + ·) (Finset.sum_congr rfl fun d _ => ?_) rfl
  have el : lidx_main_v15 (ix4 (0 : Fin 1) h n p) d = ix4 (0 : Fin 1) h n d :=
    funext fun a => Fin.ext (by
      match a with
      | ⟨0, _⟩ => rfl
      | ⟨1, _⟩ => rfl
      | ⟨2, _⟩ => rfl
      | ⟨3, _⟩ => rfl)
  have er : ridx_main_v15 (ix4 (0 : Fin 1) h n p) d = ix2 p d :=
    funext fun a => Fin.ext (by
      match a with
      | ⟨0, _⟩ => rfl
      | ⟨1, _⟩ => rfl)
  rw [el, er, k_at x0 x1 x2 x3 x4 x5 x6 x7 x8 x9 x10 x11 x12]
  rfl

end Cert.Ref

end
-- ==== Proof.Ref.LowerAC.lean ====
/-
  The two sides of the first hidden layer, read at coordinates.

  The 32 × 64 matrix of the first layer is cut into its left half (columns 0 to 31), which meets
  the projected queries, and its right half (columns 32 to 63), which meets the projected keys.
-/
import proofs.«151802_j67714454389137_2_alg».proof.Proof.Ref.LowerQK

noncomputable section

namespace Cert.Ref

open Cert.ReferenceIdeal Cert.ReferenceIdeal.Gen Cert.ReferenceIdeal.Read Idealize.ShloMosaic Idealize.ShloMosaic.ValueIdx

variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

local notation "I" => Cert.Spec.inOf x0 x1 x2 x3 x4 x5 x6 x7 x8 x9 x10 x11 x12

/-- The query side: the projected query against the left half of the matrix. -/
theorem a_at (h : Fin 16) (n : Fin 512) (p : Fin 32) :
    val_main_v21 (F := Ideal) x0 x1 x3 x4 x7 (ix4 (0 : Fin 1) h n p) = Cert.Spec.a I h n p := by
  rw [val_main_v21_apply]
  unfold Cert.Spec.a
  refine Finset.sum_congr rfl fun k _ => ?_
  rw [val_main_v19_apply]
  have el : lidx_main_v21 (ix4 (0 : Fin 1) h n p) k = ix4 (0 : Fin 1) h n k :=
    funext fun a => Fin.ext (by
      match a with
      | ⟨0, _⟩ => rfl
      | ⟨1, _⟩ => rfl
      | ⟨2, _⟩ => rfl
      | ⟨3, _⟩ => rfl)
  have er : idx_main_v19 (ridx_main_v21 (ix4 (0 : Fin 1) h n p) k) = ix2 p (⟨k.val, by omega⟩ : Fin 64) :=
    funext fun a => Fin.ext (by
      match a with
      | ⟨0, _⟩ => rfl
      | ⟨1, _⟩ => rfl)
  rw [el, er, qp_at x0 x1 x2 x3 x4 x5 x6 x7 x8 x9 x10 x11 x12]
  rfl

/-- The key side: the projected key against the right half of the matrix. -/
theorem c_at (h : Fin 16) (n : Fin 512) (p : Fin 32) :
    val_main_v22 (F := Ideal) x0 x1 x5 x6 x7 (ix4 (0 : Fin 1) h n p) = Cert.Spec.c I h n p := by
  rw [val_main_v22_apply]
  unfold Cert.Spec.c
  refine Finset.sum_congr rfl fun k _ => ?_
  rw [val_main_v20_apply]
  have el : lidx_main_v22 (ix4 (0 : Fin 1) h n p) k = ix4 (0 : Fin 1) h n k :=
    funext fun a => Fin.ext (by
      match a with
      | ⟨0, _⟩ => rfl
      | ⟨1, _⟩ => rfl
      | ⟨2, _⟩ => rfl
      | ⟨3, _⟩ => rfl)
  have er : idx_main_v20 (ridx_main_v22 (ix4 (0 : Fin 1) h n p) k) = ix2 p (⟨32 + k.val, by omega⟩ : Fin 64) :=
    funext fun a => Fin.ext (by
      match a with
      | ⟨0, _⟩ => rfl
      | ⟨1, _⟩ => rfl)
  rw [el, er, kp_at x0 x1 x2 x3 x4 x5 x6 x7 x8 x9 x10 x11 x12]
  rfl

end Cert.Ref

end
-- ==== Proof.Ref.LowerH1.lean ====
/-
  The first hidden layer, read at coordinates.

  The query side is broadcast along the key axis and the key side along the query axis; their sum
  plus the bias goes through a rectifier, the maximum with zero.
-/
import proofs.«151802_j67714454389137_2_alg».proof.Proof.Ref.LowerAC

noncomputable section

namespace Cert.Ref

open Cert.ReferenceIdeal Cert.ReferenceIdeal.Gen Cert.ReferenceIdeal.Read Idealize.ShloMosaic Idealize.ShloMosaic.ValueIdx

variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

local notation "I" => Cert.Spec.inOf x0 x1 x2 x3 x4 x5 x6 x7 x8 x9 x10 x11 x12

/-- The first hidden vector of the pair (query n, key j) of head h, at coordinate p. -/
theorem h1_at (h : Fin 16) (n j : Fin 512) (p : Fin 32) :
    val_main_v31 (F := Ideal) x0 x1 x3 x4 x5 x6 x7 x8 (ix5 (0 : Fin 1) h n j p) = Cert.Spec.h1 I h n j p := by
  rw [val_main_v31_apply, val_main_v30_apply, val_main_v27_apply, val_main_v25_apply, val_main_v23_apply,
    val_main_v26_apply, val_main_v24_apply, val_main_v29_apply, val_main_v28_apply,
    val_main_call0_v0_apply, val_main_call0_cst_apply]
  simp only [Ideal.maximumf_def, Ideal.addf_def, Ideal.ofBits_def, Ideal.ofBits_zero_f32]
  unfold Cert.Spec.h1
  have ea : idx_main_v23 (idx_main_v25 (ix5 (0 : Fin 1) h n j p)) = ix4 (0 : Fin 1) h n p :=
    funext fun a => Fin.ext (by
      match a with
      | ⟨0, _⟩ => rfl
      | ⟨1, _⟩ => rfl
      | ⟨2, _⟩ => rfl
      | ⟨3, _⟩ => rfl)
  have ec : idx_main_v24 (idx_main_v26 (ix5 (0 : Fin 1) h n j p)) = ix4 (0 : Fin 1) h j p :=
    funext fun a => Fin.ext (by
      match a with
      | ⟨0, _⟩ => rfl
      | ⟨1, _⟩ => rfl
      | ⟨2, _⟩ => rfl
      | ⟨3, _⟩ => rfl)
  have eb : idx_main_v28 (idx_main_v29 (ix5 (0 : Fin 1) h n j p)) = ix1 p :=
    funext fun a => Fin.ext (by match a with | ⟨0, _⟩ => rfl)
  rw [ea, ec, eb, a_at x0 x1 x2 x3 x4 x5 x6 x7 x8 x9 x10 x11 x12, c_at x0 x1 x2 x3 x4 x5 x6 x7 x8 x9 x10 x11 x12]
  rfl

end Cert.Ref

end
-- ==== Proof.Ref.LowerH2.lean ====
/-
  The second hidden layer, read at coordinates.

  The first hidden vector is contracted with a 16 × 32 matrix, a bias is added, and the result goes
  through a rectifier, the maximum with zero.
-/
import proofs.«151802_j67714454389137_2_alg».proof.Proof.Ref.LowerH1

noncomputable section

namespace Cert.Ref

open Cert.ReferenceIdeal Cert.ReferenceIdeal.Gen Cert.ReferenceIdeal.Read Idealize.ShloMosaic Idealize.ShloMosaic.ValueIdx

variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

local notation "I" => Cert.Spec.inOf x0 x1 x2 x3 x4 x5 x6 x7 x8 x9 x10 x11 x12

/-- The second hidden vector of the pair (query n, key j) of head h, at coordinate r. -/
theorem h2_at (h : Fin 16) (n j : Fin 512) (r : Fin 16) :
    val_main_v36 (F := Ideal) x0 x1 x3 x4 x5 x6 x7 x8 x9 x10 (ix5 (0 : Fin 1) h n j r) = Cert.Spec.h2 I h n j r := by
  rw [val_main_v36_apply, val_main_v35_apply, val_main_v32_apply, val_main_v34_apply, val_main_v33_apply,
    val_main_call1_v0_apply, val_main_call1_cst_apply]
  simp only [Ideal.maximumf_def, Ideal.addf_def, Ideal.ofBits_def, Ideal.ofBits_zero_f32]
  unfold Cert.Spec.h2
  have eb : idx_main_v33 (idx_main_v34 (ix5 (0 : Fin 1) h n j r)) = ix1 r :=
    funext fun a => Fin.ext (by match a with | ⟨0, _⟩ => rfl)
  rw [eb]
  refine congrArg₂ max (congrArg₂ (· + ·) (Finset.sum_congr rfl fun k _ => ?_) rfl) rfl
  have el : lidx_main_v32 (ix5 (0 : Fin 1) h n j r) k = ix5 (0 : Fin 1) h n j k :=
    funext fun a => Fin.ext (by
      match a with
      | ⟨0, _⟩ => rfl
      | ⟨1, _⟩ => rfl
      | ⟨2, _⟩ => rfl
      | ⟨3, _⟩ => rfl
      | ⟨4, _⟩ => rfl)
  have er : ridx_main_v32 (ix5 (0 : Fin 1) h n j r) k = ix2 r k :=
    funext fun a => Fin.ext (by
      match a with
      | ⟨0, _⟩ => rfl
      | ⟨1, _⟩ => rfl)
  rw [el, er, h1_at x0 x1 x2 x3 x4 x5 x6 x7 x8 x9 x10 x11 x12]
  rfl

end Cert.Ref

end
-- ==== Proof.Ref.LowerScore.lean ====
/-
  The score of a pair (query, key), read at coordinates.

  The second hidden vector is contracted with a 1 × 16 matrix into a trailing axis of size one, that
  axis is dropped, and the one-element bias is added everywhere.
-/
import proofs.«151802_j67714454389137_2_alg».proof.Proof.Ref.LowerH2

noncomputable section

namespace Cert.Ref

open Cert.ReferenceIdeal Cert.ReferenceIdeal.Gen Cert.ReferenceIdeal.Read Idealize.ShloMosaic Idealize.ShloMosaic.ValueIdx

variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

local notation "I" => Cert.Spec.inOf x0 x1 x2 x3 x4 x5 x6 x7 x8 x9 x10 x11 x12

/-- The one-element bias reshaped to a scalar is its one element. -/
theorem bias_at (i : S_.Idx) : val_main_v39 (F := Ideal) x12 i = x12 (ix1 (0 : Fin 1)) := by
  unfold val_main_v39
  exact shapeCast_apply x12 shapeCasts_S1_S_ i (ix1 (0 : Fin 1)) (by
    rw [Shape.rowMajor_val_one]
    exact (Shape.rowMajorPi_zero _ _).symm)

/-- The score of the pair (query n, key j) of head h. -/
theorem score_eq (h : Fin 16) (n j : Fin 512) :
    val_main_v41 (F := Ideal) x0 x1 x3 x4 x5 x6 x7 x8 x9 x10 x11 x12 (ix4 (0 : Fin 1) h n j) = Cert.Spec.score I h n j := by
  rw [val_main_v41_apply, val_main_v38_apply, val_main_v37_apply, val_main_v40_apply, bias_at x12]
  simp only [Ideal.addf_def]
  unfold Cert.Spec.score
  refine congrArg₂ (· + ·) (Finset.sum_congr rfl fun k _ => ?_) rfl
  have hh := h.isLt; have hn := n.isLt; have hj := j.isLt
  have el : lidx_main_v37 (idx_main_v38 (ix4 (0 : Fin 1) h n j)) k = ix5 (0 : Fin 1) h n j k :=
    funext fun a => Fin.ext (by
      match a with
      | ⟨0, _⟩ => rfl
      | ⟨1, _⟩ => dsimp only [lidx_main_v37, idx_main_v38, ix4, ix5]; omega
      | ⟨2, _⟩ => dsimp only [lidx_main_v37, idx_main_v38, ix4, ix5]; omega
      | ⟨3, _⟩ => dsimp only [lidx_main_v37, idx_main_v38, ix4, ix5]; omega
      | ⟨4, _⟩ => rfl)
  have er : ridx_main_v37 (idx_main_v38 (ix4 (0 : Fin 1) h n j)) k = ix2 (0 : Fin 1) k :=
    funext fun a => Fin.ext (by
      match a with
      | ⟨0, _⟩ => rfl
      | ⟨1, _⟩ => rfl)
  rw [el, er, h2_at x0 x1 x2 x3 x4 x5 x6 x7 x8 x9 x10 x11 x12]
  rfl

end Cert.Ref

end
-- ==== Proof.Ref.UpperMask.lean ====
/-
  The reference's causal mask, read at an index.

  The key index j and the query index n are compared as 32-bit words; both are below 512, so the
  signed comparison of the words is the comparison of the naturals, and the select puts the large
  negative constant exactly where n < j.
-/
import proofs.«151802_j67714454389137_2_alg».proof.Proof.Ref.Base
import proofs.«151802_j67714454389137_2_alg».proof.Proof.SpecIn

noncomputable section

namespace Cert.Ref

open Cert.ReferenceIdeal Cert.ReferenceIdeal.Gen Cert.ReferenceIdeal.Read Idealize.ShloMosaic Idealize.ShloMosaic.ValueIdx

/-- A select on the signed "greater than" of two small naturals' words is the `if` on the naturals. -/
theorem select_sgt_ofNat {α : Type} (a b : Nat) (ha : a < 512) (hb : b < 512) (A B : α) :
    Scalar.select (IntOp.cmpi .sgt (BitVec.ofNat 32 a) (BitVec.ofNat 32 b)) A B = if b < a then A else B := by
  have h : (IntOp.cmpi .sgt (BitVec.ofNat 32 a) (BitVec.ofNat 32 b) = 1#1) ↔ b < a := by
    rw [IntOp.cmpi_sgt, BitVec.toInt_eq_toNat_cond, BitVec.toInt_eq_toNat_cond, BitVec.toNat_ofNat, BitVec.toNat_ofNat,
      Nat.mod_eq_of_lt (by omega : a < 2 ^ 32), Nat.mod_eq_of_lt (by omega : b < 2 ^ 32),
      if_pos (by omega), if_pos (by omega)]
    omega
  unfold Scalar.select
  by_cases hlt : b < a
  · rw [if_pos hlt]; exact if_pos (h.mpr hlt)
  · rw [if_neg hlt]; exact if_neg (fun hc => hlt (h.mp hc))

section
variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

/-- The masked scores: the constant where the key comes after the query, the score elsewhere. -/
theorem masked_eq
    (hscore : ∀ (h : Fin 16) (n j : Fin 512), val_main_v41 (F := Ideal) x0 x1 x3 x4 x5 x6 x7 x8 x9 x10 x11 x12 (ix4 (0 : Fin 1) h n j) = Cert.Spec.score (Cert.Spec.inOf x0 x1 x2 x3 x4 x5 x6 x7 x8 x9 x10 x11 x12) h n j)
    (h : Fin 16) (n j : Fin 512) :
    val_main_v48 (F := Ideal) x0 x1 x3 x4 x5 x6 x7 x8 x9 x10 x11 x12 (ix4 (0 : Fin 1) h n j) = Cert.Spec.masked (Cert.Spec.inOf x0 x1 x2 x3 x4 x5 x6 x7 x8 x9 x10 x11 x12) h n j := by
  rw [val_main_v48_apply, hscore, val_main_call2_v1_apply, val_main_v47_apply, val_main_v45_apply, val_main_v43_apply,
    val_main_v42_apply, val_main_v46_apply, val_main_v44_apply, val_main_v42_apply, val_main_call2_v2_apply,
    val_main_call2_v0_apply, val_main_cst_apply]
  show Scalar.select (IntOp.cmpi .sgt (BitVec.ofNat 32 j.val) (BitVec.ofNat 32 n.val)) (FloatOps.ofBits (F := Ideal) .f32 0xF149F2CA#32) _ = _
  rw [select_sgt_ofNat j.val n.val j.isLt n.isLt, Ideal.ofBits_def]
  rfl

end

end Cert.Ref

end
-- ==== Proof.Ref.UpperMax.lean ====
/-
  The reference's row maximum, read at an index.

  The reduce over the key axis with a maximum body is the fold of max over the 512 keys from the
  initial value, the word of minus infinity; the reference then takes the maximum with that word once more.
-/
import proofs.«151802_j67714454389137_2_alg».proof.Proof.Ref.UpperMask

noncomputable section

namespace Cert.Ref

open Cert.ReferenceIdeal Cert.ReferenceIdeal.Gen Cert.ReferenceIdeal.Read Idealize.ShloMosaic Idealize.ShloMosaic.ValueIdx

/-- The shape fact that names the index with a key put back on the reduced axis. -/
theorem red3 : S1x16x512x512.Reduces [3] S1x16x512 := by decide

/-- The row (0, h, n) with key k put back is (0, h, n, k). -/
theorem lift_ix4 (hr : S1x16x512x512.Reduces [3] S1x16x512) (h : Fin 16) (n : Fin 512) (k : Fin (S1x16x512x512.size 3)) :
    hr.lift (ix3 (0 : Fin 1) h n) k = ix4 (0 : Fin 1) h n (⟨k.val, k.isLt⟩ : Fin 512) := by
  funext c; apply Fin.ext
  fin_cases c <;> rfl

/-- The reduce with a maximum body over the keys, at row (0, h, n), is the fold of max over the row from the initial word. -/
theorem reduce_max_row (y : (⟨S1x16x512x512, .f32⟩ : BufTy).Contents (Elt Ideal)) (h : Fin 16) (n : Fin 512) :
    Host.reduce FloatOps.maximumf y (val_main_cst_0 (F := Ideal)) reducesTo_S1x16x512x512_S1x16x512_d3 h_S_ (ix3 (0 : Fin 1) h n)
      = (Finset.univ : Finset (Fin 512)).fold max (Ideal.ofBits .f32 0xFF800000#32) (fun j : Fin 512 => y (ix4 (0 : Fin 1) h n j)) := by
  refine (Host.reduce_eq_fold_single (FloatOps.maximumf (F := Ideal) (φ := .f32)) y (val_main_cst_0 (F := Ideal))
    reducesTo_S1x16x512x512_S1x16x512_d3 red3 h_S_ (ix3 (0 : Fin 1) h n)).trans ?_
  have hf : (y ∘ red3.lift (ix3 (0 : Fin 1) h n)) = fun j : Fin 512 => y (ix4 (0 : Fin 1) h n j) :=
    funext fun k => congrArg y (lift_ix4 red3 h n k)
  exact congrArg (fun f => Finset.fold max (Ideal.ofBits .f32 0xFF800000#32) f (Finset.univ : Finset (Fin 512))) hf

section
variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

/-- The row maximum of the masked scores. -/
theorem rowMax_eq
    (hscore : ∀ (h : Fin 16) (n j : Fin 512), val_main_v41 (F := Ideal) x0 x1 x3 x4 x5 x6 x7 x8 x9 x10 x11 x12 (ix4 (0 : Fin 1) h n j) = Cert.Spec.score (Cert.Spec.inOf x0 x1 x2 x3 x4 x5 x6 x7 x8 x9 x10 x11 x12) h n j)
    (h : Fin 16) (n : Fin 512) :
    val_main_v51 (F := Ideal) x0 x1 x3 x4 x5 x6 x7 x8 x9 x10 x11 x12 (ix3 (0 : Fin 1) h n) = Cert.Spec.rowMax (Cert.Spec.inOf x0 x1 x2 x3 x4 x5 x6 x7 x8 x9 x10 x11 x12) h n := by
  have h49 : val_main_v49 (F := Ideal) x0 x1 x3 x4 x5 x6 x7 x8 x9 x10 x11 x12 (ix3 (0 : Fin 1) h n)
      = (Finset.univ : Finset (Fin 512)).fold max (Ideal.ofBits .f32 0xFF800000#32)
          (fun j : Fin 512 => val_main_v48 (F := Ideal) x0 x1 x3 x4 x5 x6 x7 x8 x9 x10 x11 x12 (ix4 (0 : Fin 1) h n j)) :=
    reduce_max_row (val_main_v48 (F := Ideal) x0 x1 x3 x4 x5 x6 x7 x8 x9 x10 x11 x12) h n
  rw [val_main_v51_apply, val_main_v50_apply, val_main_cst_1_apply, h49]
  have hf : (fun j : Fin 512 => val_main_v48 (F := Ideal) x0 x1 x3 x4 x5 x6 x7 x8 x9 x10 x11 x12 (ix4 (0 : Fin 1) h n j))
      = fun j => Cert.Spec.masked (Cert.Spec.inOf x0 x1 x2 x3 x4 x5 x6 x7 x8 x9 x10 x11 x12) h n j :=
    funext fun j => masked_eq x0 x1 x2 x3 x4 x5 x6 x7 x8 x9 x10 x11 x12 hscore h n j
  rw [hf]
  rfl

end

end Cert.Ref

end
-- ==== Proof.Ref.UpperSoft.lean ====
/-
  The reference's softmax, read at an index: the exponentials of the masked scores shifted by their
  row's maximum, the row sums, and the quotients.
-/
import proofs.«151802_j67714454389137_2_alg».proof.Proof.Ref.UpperMax

noncomputable section

namespace Cert.Ref

open Cert.ReferenceIdeal Cert.ReferenceIdeal.Gen Cert.ReferenceIdeal.Read Idealize.ShloMosaic Idealize.ShloMosaic.ValueIdx

/-- Row (0, h, n) broadcast along the keys: entry (0, h, n, j) reads the row's entry (the maximum's broadcasts). -/
theorem idx_v52_v53 (h : Fin 16) (n j : Fin 512) :
    idx_main_v52 (idx_main_v53 (ix4 (0 : Fin 1) h n j)) = ix3 (0 : Fin 1) h n :=
  funext fun a => Fin.ext (by match a with | ⟨0, _⟩ => rfl | ⟨1, _⟩ => rfl | ⟨2, _⟩ => rfl)

/-- The same for the row sum's broadcasts. -/
theorem idx_v57_v58 (h : Fin 16) (n j : Fin 512) :
    idx_main_v57 (idx_main_v58 (ix4 (0 : Fin 1) h n j)) = ix3 (0 : Fin 1) h n :=
  funext fun a => Fin.ext (by match a with | ⟨0, _⟩ => rfl | ⟨1, _⟩ => rfl | ⟨2, _⟩ => rfl)

/-- Row (0, h, n) with key k put back, as the row sum's index map spells it. -/
theorem idx_v56 (h : Fin 16) (n k : Fin 512) :
    idx_main_v56 (ix3 (0 : Fin 1) h n) k = ix4 (0 : Fin 1) h n k :=
  funext fun a => Fin.ext (by match a with | ⟨0, _⟩ => rfl | ⟨1, _⟩ => rfl | ⟨2, _⟩ => rfl | ⟨3, _⟩ => rfl)

section
variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

/-- The exponential of a masked score less its row's maximum. -/
theorem e_eq
    (hscore : ∀ (h : Fin 16) (n j : Fin 512), val_main_v41 (F := Ideal) x0 x1 x3 x4 x5 x6 x7 x8 x9 x10 x11 x12 (ix4 (0 : Fin 1) h n j) = Cert.Spec.score (Cert.Spec.inOf x0 x1 x2 x3 x4 x5 x6 x7 x8 x9 x10 x11 x12) h n j)
    (h : Fin 16) (n j : Fin 512) :
    val_main_v55 (F := Ideal) x0 x1 x3 x4 x5 x6 x7 x8 x9 x10 x11 x12 (ix4 (0 : Fin 1) h n j) = Cert.Spec.e (Cert.Spec.inOf x0 x1 x2 x3 x4 x5 x6 x7 x8 x9 x10 x11 x12) h n j := by
  rw [val_main_v55_apply, val_main_v54_apply, val_main_v53_apply, val_main_v52_apply, idx_v52_v53,
    rowMax_eq x0 x1 x2 x3 x4 x5 x6 x7 x8 x9 x10 x11 x12 hscore, masked_eq x0 x1 x2 x3 x4 x5 x6 x7 x8 x9 x10 x11 x12 hscore, Ideal.hostUnary_exp_def, Ideal.subf_def]
  rfl

/-- The row sum of the exponentials. -/
theorem den_eq
    (hscore : ∀ (h : Fin 16) (n j : Fin 512), val_main_v41 (F := Ideal) x0 x1 x3 x4 x5 x6 x7 x8 x9 x10 x11 x12 (ix4 (0 : Fin 1) h n j) = Cert.Spec.score (Cert.Spec.inOf x0 x1 x2 x3 x4 x5 x6 x7 x8 x9 x10 x11 x12) h n j)
    (h : Fin 16) (n : Fin 512) :
    val_main_v56 (F := Ideal) x0 x1 x3 x4 x5 x6 x7 x8 x9 x10 x11 x12 (ix3 (0 : Fin 1) h n) = Cert.Spec.den (Cert.Spec.inOf x0 x1 x2 x3 x4 x5 x6 x7 x8 x9 x10 x11 x12) h n := by
  rw [val_main_v56_apply, val_main_cst_2_apply, Ideal.ofBits_def, Ideal.ofBits_zero_f32, zero_add]
  unfold Cert.Spec.den
  refine Finset.sum_congr rfl fun k _ => ?_
  rw [idx_v56, e_eq x0 x1 x2 x3 x4 x5 x6 x7 x8 x9 x10 x11 x12 hscore]

/-- The attention weight: the exponential over its row's sum. -/
theorem attn_eq
    (hscore : ∀ (h : Fin 16) (n j : Fin 512), val_main_v41 (F := Ideal) x0 x1 x3 x4 x5 x6 x7 x8 x9 x10 x11 x12 (ix4 (0 : Fin 1) h n j) = Cert.Spec.score (Cert.Spec.inOf x0 x1 x2 x3 x4 x5 x6 x7 x8 x9 x10 x11 x12) h n j)
    (h : Fin 16) (n j : Fin 512) :
    val_main_v59 (F := Ideal) x0 x1 x3 x4 x5 x6 x7 x8 x9 x10 x11 x12 (ix4 (0 : Fin 1) h n j) = Cert.Spec.attn (Cert.Spec.inOf x0 x1 x2 x3 x4 x5 x6 x7 x8 x9 x10 x11 x12) h n j := by
  rw [val_main_v59_apply, val_main_v58_apply, val_main_v57_apply, idx_v57_v58,
    den_eq x0 x1 x2 x3 x4 x5 x6 x7 x8 x9 x10 x11 x12 hscore, e_eq x0 x1 x2 x3 x4 x5 x6 x7 x8 x9 x10 x11 x12 hscore, Ideal.hostDivf_def]
  rfl

end

end Cert.Ref

end
-- ==== Proof.Ref.UpperOut.lean ====
/-
  The reference's weighted average of the values, its heads laid side by side, and the output
  projection, read at an index; then the whole reference as the specification's result.
-/
import proofs.«151802_j67714454389137_2_alg».proof.Proof.Ref.UpperSoft

noncomputable section

namespace Cert.Ref

open Cert.ReferenceIdeal Cert.ReferenceIdeal.Gen Cert.ReferenceIdeal.Read Idealize.ShloMosaic Idealize.ShloMosaic.ValueIdx

/-- The weights' index in the average over the keys: (0, h, n, k). -/
theorem lidx_v60 (h : Fin 16) (n : Fin 512) (d : Fin 64) (k : Fin 512) :
    lidx_main_v60 (ix4 (0 : Fin 1) h n d) k = ix4 (0 : Fin 1) h n k :=
  funext fun a => Fin.ext (by match a with | ⟨0, _⟩ => rfl | ⟨1, _⟩ => rfl | ⟨2, _⟩ => rfl | ⟨3, _⟩ => rfl)

/-- The values' index in the average over the keys: (0, h, k, d). -/
theorem ridx_v60 (h : Fin 16) (n : Fin 512) (d : Fin 64) (k : Fin 512) :
    ridx_main_v60 (ix4 (0 : Fin 1) h n d) k = ix4 (0 : Fin 1) h k d :=
  funext fun a => Fin.ext (by match a with | ⟨0, _⟩ => rfl | ⟨1, _⟩ => rfl | ⟨2, _⟩ => rfl | ⟨3, _⟩ => rfl)

/-- Column e' of the side-by-side layout is head e' / 64, coordinate e' % 64: the transposed and reshaped index. -/
theorem idx_v61_v62 (n : Fin 512) (e' : Fin 1024) :
    idx_main_v61 (idx_main_v62 (ix3 (0 : Fin 1) n e'))
      = ix4 (0 : Fin 1) (⟨e'.val / 64, by omega⟩ : Fin 16) n (⟨e'.val % 64, by omega⟩ : Fin 64) := by
  have hn : n.val < 512 := n.isLt
  have he : e'.val < 1024 := e'.isLt
  refine funext fun a => Fin.ext ?_
  match a with
  | ⟨0, _⟩ => rfl
  | ⟨1, _⟩ => show ((0 * 512 + n.val) * 1024 + e'.val) / 64 % 16 = e'.val / 64; omega
  | ⟨2, _⟩ => show ((0 * 512 + n.val) * 1024 + e'.val) / 1024 % 512 = n.val; omega
  | ⟨3, _⟩ => show ((0 * 512 + n.val) * 1024 + e'.val) % 64 = e'.val % 64; omega

/-- The left index of the output projection's sum: (0, n, k). -/
theorem lidx_v63 (n : Fin 512) (o k : Fin 1024) :
    lidx_main_v63 (ix3 (0 : Fin 1) n o) k = ix3 (0 : Fin 1) n k :=
  funext fun a => Fin.ext (by match a with | ⟨0, _⟩ => rfl | ⟨1, _⟩ => rfl | ⟨2, _⟩ => rfl)

/-- The right index of the output projection's sum: (o, k). -/
theorem ridx_v63 (n : Fin 512) (o k : Fin 1024) :
    ridx_main_v63 (ix3 (0 : Fin 1) n o) k = ix2 o k :=
  funext fun a => Fin.ext (by match a with | ⟨0, _⟩ => rfl | ⟨1, _⟩ => rfl)

section
variable (x0 : (⟨S1x512x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S32x64, .f32⟩ : BufTy).Contents (Elt Ideal))
  (x4 : (⟨S32, .f32⟩ : BufTy).Contents (Elt Ideal)) (x5 : (⟨S32x64, .f32⟩ : BufTy).Contents (Elt Ideal))
  (x6 : (⟨S32, .f32⟩ : BufTy).Contents (Elt Ideal)) (x7 : (⟨S32x64, .f32⟩ : BufTy).Contents (Elt Ideal))
  (x8 : (⟨S32, .f32⟩ : BufTy).Contents (Elt Ideal)) (x9 : (⟨S16x32, .f32⟩ : BufTy).Contents (Elt Ideal))
  (x10 : (⟨S16, .f32⟩ : BufTy).Contents (Elt Ideal)) (x11 : (⟨S1x16, .f32⟩ : BufTy).Contents (Elt Ideal))
  (x12 : (⟨S1, .f32⟩ : BufTy).Contents (Elt Ideal))

/-- The weighted average of the values over the keys. -/
theorem out_eq
    (hscore : ∀ (h : Fin 16) (n j : Fin 512), val_main_v41 (F := Ideal) x0 x1 x3 x4 x5 x6 x7 x8 x9 x10 x11 x12 (ix4 (0 : Fin 1) h n j) = Cert.Spec.score (Cert.Spec.inOf x0 x1 x2 x3 x4 x5 x6 x7 x8 x9 x10 x11 x12) h n j)
    (hv : ∀ (h : Fin 16) (j : Fin 512) (d : Fin 64), val_main_v10 (F := Ideal) x0 x1 (ix4 (0 : Fin 1) h j d) = Cert.Spec.v (Cert.Spec.inOf x0 x1 x2 x3 x4 x5 x6 x7 x8 x9 x10 x11 x12) h j d)
    (h : Fin 16) (n : Fin 512) (d : Fin 64) :
    val_main_v60 (F := Ideal) x0 x1 x3 x4 x5 x6 x7 x8 x9 x10 x11 x12 (ix4 (0 : Fin 1) h n d) = Cert.Spec.out (Cert.Spec.inOf x0 x1 x2 x3 x4 x5 x6 x7 x8 x9 x10 x11 x12) h n d := by
  rw [val_main_v60_apply]
  unfold Cert.Spec.out
  refine Finset.sum_congr rfl fun k _ => ?_
  rw [lidx_v60, ridx_v60, attn_eq x0 x1 x2 x3 x4 x5 x6 x7 x8 x9 x10 x11 x12 hscore, hv]

/-- The heads side by side: column e' of row n is head e' / 64 at coordinate e' % 64. -/
theorem merged_eq
    (hscore : ∀ (h : Fin 16) (n j : Fin 512), val_main_v41 (F := Ideal) x0 x1 x3 x4 x5 x6 x7 x8 x9 x10 x11 x12 (ix4 (0 : Fin 1) h n j) = Cert.Spec.score (Cert.Spec.inOf x0 x1 x2 x3 x4 x5 x6 x7 x8 x9 x10 x11 x12) h n j)
    (hv : ∀ (h : Fin 16) (j : Fin 512) (d : Fin 64), val_main_v10 (F := Ideal) x0 x1 (ix4 (0 : Fin 1) h j d) = Cert.Spec.v (Cert.Spec.inOf x0 x1 x2 x3 x4 x5 x6 x7 x8 x9 x10 x11 x12) h j d)
    (n : Fin 512) (e' : Fin 1024) :
    val_main_v62 (F := Ideal) x0 x1 x3 x4 x5 x6 x7 x8 x9 x10 x11 x12 (ix3 (0 : Fin 1) n e')
      = Cert.Spec.out (Cert.Spec.inOf x0 x1 x2 x3 x4 x5 x6 x7 x8 x9 x10 x11 x12) (⟨e'.val / 64, by omega⟩ : Fin 16) n (⟨e'.val % 64, by omega⟩ : Fin 64) := by
  rw [val_main_v62_apply, val_main_v61_apply, idx_v61_v62, out_eq x0 x1 x2 x3 x4 x5 x6 x7 x8 x9 x10 x11 x12 hscore hv]

/-- The reference's result at row n, column o. -/
theorem final_eq
    (hscore : ∀ (h : Fin 16) (n j : Fin 512), val_main_v41 (F := Ideal) x0 x1 x3 x4 x5 x6 x7 x8 x9 x10 x11 x12 (ix4 (0 : Fin 1) h n j) = Cert.Spec.score (Cert.Spec.inOf x0 x1 x2 x3 x4 x5 x6 x7 x8 x9 x10 x11 x12) h n j)
    (hv : ∀ (h : Fin 16) (j : Fin 512) (d : Fin 64), val_main_v10 (F := Ideal) x0 x1 (ix4 (0 : Fin 1) h j d) = Cert.Spec.v (Cert.Spec.inOf x0 x1 x2 x3 x4 x5 x6 x7 x8 x9 x10 x11 x12) h j d)
    (n : Fin 512) (o : Fin 1024) :
    val_main_v63 (F := Ideal) x0 x1 x2 x3 x4 x5 x6 x7 x8 x9 x10 x11 x12 (ix3 (0 : Fin 1) n o) = Cert.Spec.final (Cert.Spec.inOf x0 x1 x2 x3 x4 x5 x6 x7 x8 x9 x10 x11 x12) n o := by
  rw [val_main_v63_apply]
  unfold Cert.Spec.final
  refine Finset.sum_congr rfl fun k _ => ?_
  rw [lidx_v63, ridx_v63, merged_eq x0 x1 x2 x3 x4 x5 x6 x7 x8 x9 x10 x11 x12 hscore hv]
  rfl

/-- The reference computes the specification's result, given its scores and its values. -/
theorem ref_eq_spec_of
    (hscore : ∀ (h : Fin 16) (n j : Fin 512), val_main_v41 (F := Ideal) x0 x1 x3 x4 x5 x6 x7 x8 x9 x10 x11 x12 (ix4 (0 : Fin 1) h n j) = Cert.Spec.score (Cert.Spec.inOf x0 x1 x2 x3 x4 x5 x6 x7 x8 x9 x10 x11 x12) h n j)
    (hv : ∀ (h : Fin 16) (j : Fin 512) (d : Fin 64), val_main_v10 (F := Ideal) x0 x1 (ix4 (0 : Fin 1) h j d) = Cert.Spec.v (Cert.Spec.inOf x0 x1 x2 x3 x4 x5 x6 x7 x8 x9 x10 x11 x12) h j d)
    (i : Cert.ReferenceIdeal.S1x512x1024.Idx) :
    Cert.ReferenceIdeal.Read.val_main_v63 (F := Ideal) x0 x1 x2 x3 x4 x5 x6 x7 x8 x9 x10 x11 x12 i
      = Cert.Spec.final (Cert.Spec.inOf x0 x1 x2 x3 x4 x5 x6 x7 x8 x9 x10 x11 x12) (i 1) (i 2) := by
  obtain ⟨z, n, o, rfl⟩ : ∃ (z : Fin 1) (n : Fin 512) (o : Fin 1024), i = ix3 z n o := ⟨i 0, i 1, i 2, eq_ix3 i⟩
  obtain rfl : z = 0 := Subsingleton.elim _ _
  exact final_eq x0 x1 x2 x3 x4 x5 x6 x7 x8 x9 x10 x11 x12 hscore hv n o

end

end Cert.Ref

end
-- ==== Proof.lean ====
/-
  The certificate of the neural-attention kernel against its reference.

  The kernel program is three pipelined regions among stretches of host operations: a projection
  of the input to queries, keys and values (a matrix product computed block by block over the
  output's columns); per head and per tile of 128 queries, a small two-layer network scores every
  (query, key) pair — the key side's first layer is computed once per head and kept in a scratch for
  the head's other three tiles, and the second layer treats eight keys at a time through a
  block-diagonal copy of its weight —, the scores are masked causally, normalised by a softmax and
  used to average the values; and an output projection, again block by block.  The reference is the
  same computation as whole-array operations.

  Frames: each region's body is run once per control case and the runs are chained through the
  program's segments, every unscoped buffer named at each boundary; no segment writes an argument.
  Value: at exact values both programs compute, at every output index, the same sums: the kernel's
  blocks tile each array they write, the block-diagonal products contribute zero off the diagonal,
  narrowing conversions are the identity, and the two softmaxes are the same expression.
-/
import proofs.«151802_j67714454389137_2_alg».proof.Defs
import proofs.«151802_j67714454389137_2_alg».proof.Proof.Gen.Kernel
import proofs.«151802_j67714454389137_2_alg».proof.Proof.Gen.KernelIdeal
import proofs.«151802_j67714454389137_2_alg».proof.Proof.Gen.ReferenceIdeal
import proofs.«151802_j67714454389137_2_alg».proof.Proof.Gen.Pre_finite_inputs
import proofs.«151802_j67714454389137_2_alg».proof.Proof.Kernel.Frame
import proofs.«151802_j67714454389137_2_alg».proof.Proof.KernelIdeal.Frame
import proofs.«151802_j67714454389137_2_alg».proof.Proof.KernelIdeal.GlueFinal
import proofs.«151802_j67714454389137_2_alg».proof.Proof.KernelIdeal.GlueHyp
import proofs.«151802_j67714454389137_2_alg».proof.Proof.KernelIdeal.BlockMathThm
import proofs.«151802_j67714454389137_2_alg».proof.Proof.Ref.LowerScore
import proofs.«151802_j67714454389137_2_alg».proof.Proof.Ref.UpperOut

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- One grid point's mathematics, in the form the assembly takes it. -/
theorem block_math : Cert.KernelIdeal.Hand.BlockMath := Cert.KernelIdeal.Pay.block_math

/-- The two idealized programs, from memories agreeing on the arguments, end with the same result: at
    every index both are the specification's value. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W9 (F := Ideal) m c Cert.KernelIdeal.main_v40, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v63_eq, a0, a1, a2, a3, a4, a5, a6, a7, a8, a9, a10, a11, a12]
  funext i
  refine (Cert.Ref.ref_eq_spec_of _ _ _ _ _ _ _ _ _ _ _ _ _ (fun h n j => Cert.Ref.score_eq _ _ _ _ _ _ _ _ _ _ _ _ _ h n j)
    (fun h j d => Cert.Ref.v_eq _ _ _ _ _ _ _ _ _ _ _ _ _ h j d) i).trans ?_
  exact (Cert.KernelIdeal.Hand.kernel_value block_math m c (Cert.KernelIdeal.Hand.hyp1 m c) i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
